-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v48)) (v1 : (c : Dev Cert.KernelIdeal.nD) → Buf (Elt Ideal) ((c.tc : Thread Cert.KernelIdeal.nD Cert.KernelIdeal.τ).loc Cert.KernelIdeal.main_v25)) (v2 : (c : Dev Cert.KernelIdeal.nD) → Buf (Elt Ideal) ((c.tc : Thread Cert.KernelIdeal.nD Cert.KernelIdeal.τ).loc Cert.KernelIdeal.main_v27)) (v3 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_v27) = v2 c
          ∧ r.2.mem ((c.tc : Thread Cert.KernelIdeal.nD Cert.KernelIdeal.τ).loc Cert.KernelIdeal.main_v42) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_v88) = v2 c
          ∧ r.2.mem ((c.tc : Thread Cert.ReferenceIdeal.nD Cert.ReferenceIdeal.τ).loc Cert.ReferenceIdeal.main_v91) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192 : Shape := ⟨1, ![8192]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn_part1 {F : FTy → Type} [FloatOps F] (main_arg3 : IVec S8192 32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_c_6 : IVec S_ 32 := constantI S_ 32 0#32
  let main_v19 : IVec S8192 32 := broadcastInDim S8192 ![] bcast_S_S8192 main_c_6
  let main_v20 : IVec S8192 1 := cmpi .eq main_arg3 main_v19
  let main_c_7 : IVec S_ 1 := constantI S_ 1 0#1
  let main_v21 : IVec S_ 1 := (fun x v => Host.reduce IntOp.ori x v reducesTo_S8192_S_d0 h_S_) main_v20 main_c_7
  let main_v22 : IVec S_ 1 := andi main_v18 main_v21
  let main_c_8 : IVec S_ 32 := constantI S_ 32 1#32
  let main_v23 : IVec S8192 32 := broadcastInDim S8192 ![] bcast_S_S8192 main_c_8
  let main_v24 : IVec S8192 1 := cmpi .eq main_arg3 main_v23
  let main_c_9 : IVec S_ 1 := constantI S_ 1 0#1
  let main_v25 : IVec S_ 1 := (fun x v => Host.reduce IntOp.ori x v reducesTo_S8192_S_d0 h_S_) main_v24 main_c_9
  let main_v26 : IVec S_ 1 := andi main_v22 main_v25
  main_v26

def fn {F : FTy → Type} [FloatOps F] (main_arg0 : FVec F S8192x4096 .f32) (main_arg1 : FVec F S8192x4096 .f32) (main_arg2 : FVec F S8192x4096 .f32) (main_arg3 : IVec S8192 32) (main_arg4 : FVec F S8192 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S8192x4096 .f32 := Host.absf main_arg2
  let main_cst_2 : FVec F S_ .f32 := constant S_ .f32 0x7F800000#32
  let main_v10 : FVec F S8192x4096 .f32 := broadcastInDim S8192x4096 ![] bcast_S_S8192x4096 main_cst_2
  let main_v11 : IVec S8192x4096 1 := cmpf .olt main_v9 main_v10
  let main_c_3 : IVec S_ 1 := constantI S_ 1 1#1
  let main_v12 : IVec S_ 1 := (fun x v => Host.reduce IntOp.andi x v reducesTo_S8192x4096_S_d0_1 h_S_) main_v11 main_c_3
  let main_v13 : IVec S_ 1 := andi main_v8 main_v12
  let main_v14 : FVec F S8192 .f32 := Host.absf main_arg4
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg3 main_v13 main_v16
-- ==== Kernel.lean ====
abbrev S8192x4096 : Shape := ⟨2, ![8192, 4096]⟩
abbrev S8192 : Shape := ⟨1, ![8192]⟩
abbrev S_ : Shape := ⟨0, ![]⟩
abbrev S8192x1 : Shape := ⟨2, ![8192, 1]⟩
abbrev S8192x2 : Shape := ⟨2, ![8192, 2]⟩
abbrev S2x4096 : Shape := ⟨2, ![2, 4096]⟩
abbrev S1024x1024 : Shape := ⟨2, ![1024, 1024]⟩
abbrev S1024x2 : Shape := ⟨2, ![1024, 2]⟩
abbrev S2x1024 : Shape := ⟨2, ![2, 1024]⟩
abbrev S1024x1 : Shape := ⟨2, ![1024, 1]⟩
abbrev S1024 : Shape := ⟨1, ![1024]⟩
abbrev S1x1024 : Shape := ⟨2, ![1, 1024]⟩
abbrev S1 : Shape := ⟨1, ![1]⟩
abbrev S2 : Shape := ⟨1, ![2]⟩
abbrev S2x1 : Shape := ⟨2, ![2, 1]⟩
abbrev S2x1x2 : Shape := ⟨3, ![2, 1, 2]⟩
abbrev S256x4096 : Shape := ⟨2, ![256, 4096]⟩
abbrev S256x2 : Shape := ⟨2, ![256, 2]⟩
abbrev S1x1x2 : Shape := ⟨3, ![1, 1, 2]⟩
abbrev S256x1 : Shape := ⟨2, ![256, 1]⟩
abbrev S1x4096 : Shape := ⟨2, ![1, 4096]⟩
abbrev S256 : Shape := ⟨1, ![256]⟩
abbrev S1x1 : Shape := ⟨2, ![1, 1]⟩
abbrev S1x1x1 : Shape := ⟨3, ![1, 1, 1]⟩

abbrev nBuf : Space → Nat
  | .hbm => 70
  | .vmem => 20
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .f32⟩
  | .hbm, ⟨3, _⟩ => ⟨S8192, .i32⟩
  | .hbm, ⟨4, _⟩ => ⟨S8192, .f32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S8192, .f32⟩
  | .hbm, ⟨9, _⟩ => ⟨S_, .i32⟩
  | .hbm, ⟨10, _⟩ => ⟨S8192, .i32⟩
  | .hbm, ⟨11, _⟩ => ⟨S8192, .i1⟩
  | .hbm, ⟨12, _⟩ => ⟨S8192, .f32⟩
  | .hbm, ⟨13, _⟩ => ⟨S8192x1, .f32⟩
  | .hbm, ⟨14, _⟩ => ⟨S8192x1, .f32⟩
  | .hbm, ⟨15, _⟩ => ⟨S8192x2, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8192, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S2x4096, .f32⟩
  | .hbm, ⟨33, _⟩ => ⟨S2x4096, .f32⟩
  | .hbm, ⟨34, _⟩ => ⟨S1, .f32⟩
  | .hbm, ⟨35, _⟩ => ⟨S1, .f32⟩
  | .hbm, ⟨36, _⟩ => ⟨S2, .f32⟩
  | .hbm, ⟨37, _⟩ => ⟨S2x1, .f32⟩
  | .hbm, ⟨38, _⟩ => ⟨S2x4096, .f32⟩
  | .hbm, ⟨39, _⟩ => ⟨S2x4096, .f32⟩
  | .hbm, ⟨40, _⟩ => ⟨S2x4096, .f32⟩
  | .hbm, ⟨41, _⟩ => ⟨S2x4096, .f32⟩
  | .hbm, ⟨42, _⟩ => ⟨S_, .f32⟩
  | .hbm, ⟨43, _⟩ => ⟨S2x4096, .f32⟩
  | .hbm, ⟨44, _⟩ => ⟨S2x4096, .f32⟩
  | .hbm, ⟨45, _⟩ => ⟨S2x4096, .f32⟩
  | .hbm, ⟨46, _⟩ => ⟨S_, .f32⟩
  | .hbm, ⟨47, _⟩ => ⟨S2x4096, .f32⟩
  | .hbm, ⟨48, _⟩ => ⟨S2x4096, .f32⟩
  | .hbm, ⟨49, _⟩ => ⟨S_, .f32⟩
  | .hbm, ⟨50, _⟩ => ⟨S2, .f32⟩
  | .hbm, ⟨51, _⟩ => ⟨S2x1x2, .f32⟩
  | .hbm, ⟨52, _⟩ => ⟨S_, .f32⟩
  | .hbm, ⟨53, _⟩ => ⟨S2, .f32⟩
  | .hbm, ⟨54, _⟩ => ⟨S1, .f32⟩
  | .hbm, ⟨55, _⟩ => ⟨S1, .f32⟩
  | .hbm, ⟨56, _⟩ => ⟨S2, .f32⟩
  | .hbm, ⟨57, _⟩ => ⟨S_, .f32⟩
  | .hbm, ⟨58, _⟩ => ⟨S2, .f32⟩
  | .hbm, ⟨59, _⟩ => ⟨S2, .f32⟩
  | .hbm, ⟨60, _⟩ => ⟨S2, .f32⟩
  | .hbm, ⟨61, _⟩ => ⟨S2, .f32⟩
  | .hbm, ⟨62, _⟩ => ⟨S1, .f32⟩
  | .hbm, ⟨63, _⟩ => ⟨S1, .f32⟩
  | .hbm, ⟨64, _⟩ => ⟨S2, .f32⟩
  | .hbm, ⟨65, _⟩ => ⟨S2, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x2, .f32⟩
  | .local _ .vmem, ⟨5, _⟩ => ⟨S1024x2, .f32⟩
  | .local _ .vmem, ⟨6, _⟩ => ⟨S2x1024, .f32⟩
  | .local _ .vmem, ⟨7, _⟩ => ⟨S2x1024, .f32⟩
  | .local _ .vmem, ⟨8, _⟩ => ⟨S2x1024, .f32⟩
  | .local _ .vmem, ⟨9, _⟩ => ⟨S2x1024, .f32⟩
  | .local _ .vmem, ⟨10, _⟩ => ⟨S2x1024, .f32⟩
  | .local _ .vmem, ⟨11, _⟩ => ⟨S2x1024, .f32⟩
  | .local _ .vmem, ⟨12, _⟩ => ⟨S256x4096, .f32⟩
  | .local _ .vmem, ⟨13, _⟩ => ⟨S256x4096, .f32⟩
  | .local _ .vmem, ⟨14, _⟩ => ⟨S256x2, .f32⟩
  | .local _ .vmem, ⟨15, _⟩ => ⟨S256x2, .f32⟩
  | .local _ .vmem, ⟨16, _⟩ => ⟨S2x4096, .f32⟩
  | .local _ .vmem, ⟨17, _⟩ => ⟨S2x4096, .f32⟩
  | .local _ .vmem, ⟨18, _⟩ => ⟨S1x1x2, .f32⟩
  | .local _ .vmem, ⟨19, _⟩ => ⟨S1x1x2, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19_0 : Ref sig .tc := ⟨.hbm, 32, rfl⟩
abbrev main_v19_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_cst_9 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_10 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_cst_12 : Ref sig .tc := ⟨.hbm, 68, rfl⟩
abbrev main_v48 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v37 : BitVec 1 := Scalar.cmpi .eq arg1 c7_i32
  let v38 : BitVec 32 := Scalar.extui v37
  let c0_i32_18 : BitVec 32 := 0#32
  let v39 : BitVec 1 := Scalar.cmpi .ne v38 c0_i32_18
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![2, 16], ![false, false]⟩

def cc1_transform_0 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S2x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S2x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x1x2 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  reducesTo_S8192_S_d0 : S8192.ReducesTo [0] S_
  h_S_ : 0 < S_.numel
  inb_S2x1024_S2x1024_0_0 : ∀ a, (![0, 0] : Fin 2 → Nat) a + S2x1024.size a ≤ S2x1024.size a
  h_S2x1024 : 0 < S2x1024.numel
  shapeCasts_S2x1024_S2x1024 : S2x1024.ShapeCasts S2x1024
  inb_S1024x2_S1024x1_0_0 : ∀ a, (![0, 0] : Fin 2 → Nat) a + S1024x1.size a ≤ S1024x2.size a
  h_S1024x1 : 0 < S1024x1.numel
  shapeCasts_S1024x1_S1024x1 : S1024x1.ShapeCasts S1024x1
  inb_S1024x2_S1024x1_0_1 : ∀ a, (![0, 1] : Fin 2 → Nat) a + S1024x1.size a ≤ S1024x2.size a
  inb_S1024x1024_S1024x1024_0_0 : ∀ a, (![0, 0] : Fin 2 → Nat) a + S1024x1024.size a ≤ S1024x1024.size a
  h_S1024x1024 : 0 < S1024x1024.numel
  broadcasts_S1024x1_S1024x1024 : S1024x1.Broadcasts S1024x1024
  reduces_S1024x1024_S1024 : S1024x1024.Reduces [0] S1024
  shapeCasts_S1024_S1x1024 : S1024.ShapeCasts S1x1024
  concatenates_S1x1024_S1x1024_S2x1024_d0 : Shape.Concatenates [S1x1024, S1x1024] S2x1024 0
  bcast_S_S1 : S_.BroadcastsInDim S1 (![] : Fin 0 → Fin S1.rank)
  concatenates_S1_S1_S2_d0 : Shape.Concatenates [S1, S1] S2 0
  bcast_S2_S2x1_0 : S2.BroadcastsInDim S2x1 (![0] : Fin 1 → Fin S2x1.rank)
  bcast_S2x1_S2x4096_0_1 : S2x1.BroadcastsInDim S2x4096 (![0, 1] : Fin 2 → Fin S2x4096.rank)
  bcast_S_S2x4096 : S_.BroadcastsInDim S2x4096 (![] : Fin 0 → Fin S2x4096.rank)
  reducesTo_S2x4096_S2_d1 : S2x4096.ReducesTo [1] S2
  inb_S1x1x2_S1x1x2_0_0_0 : ∀ a, (![0, 0, 0] : Fin 3 → Nat) a + S1x1x2.size a ≤ S1x1x2.size a
  h_S1x1x2 : 0 < S1x1x2.numel
  inb_S256x2_S256x1_0_0 : ∀ a, (![0, 0] : Fin 2 → Nat) a + S256x1.size a ≤ S256x2.size a
  h_S256x1 : 0 < S256x1.numel
  shapeCasts_S256x1_S256x1 : S256x1.ShapeCasts S256x1
  inb_S256x2_S256x1_0_1 : ∀ a, (![0, 1] : Fin 2 → Nat) a + S256x1.size a ≤ S256x2.size a
  inb_S2x4096_S1x4096_0_0 : ∀ a, (![0, 0] : Fin 2 → Nat) a + S1x4096.size a ≤ S2x4096.size a
  h_S1x4096 : 0 < S1x4096.numel
  shapeCasts_S1x4096_S1x4096 : S1x4096.ShapeCasts S1x4096
  inb_S2x4096_S1x4096_1_0 : ∀ a, (![1, 0] : Fin 2 → Nat) a + S1x4096.size a ≤ S2x4096.size a
  broadcasts_S256x1_S256x4096 : S256x1.Broadcasts S256x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  reduces_S256x1_S1 : S256x1.Reduces [0] S1
  shapeCasts_S1_S1x1 : S1.ShapeCasts S1x1
  inb_S1x1x2_S1x1x1_0_0_0 : ∀ a, (![0, 0, 0] : Fin 3 → Nat) a + S1x1x1.size a ≤ S1x1x2.size a
  h_S1x1x1 : 0 < S1x1x1.numel
  shapeCasts_S1x1x1_S1x1x1 : S1x1x1.ShapeCasts S1x1x1
  shapeCasts_S1x1_S1x1x1 : S1x1.ShapeCasts S1x1x1
  inb_S1x1x2_S1x1x1_0_0_1 : ∀ a, (![0, 0, 1] : Fin 3 → Nat) a + S1x1x1.size a ≤ S1x1x2.size a
  reducesTo_S2x1x2_S2_d0_1 : S2x1x2.ReducesTo [0, 1] S2
  bcast_S_S2 : S_.BroadcastsInDim S2 (![] : Fin 0 → Fin S2.rank)
  reducesTo_S2_S_d0 : S2.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x4096.size a
  hwx0_1 : ∀ i : grid0.Coords, EltTy.bits .f32 = 32 ∨ (Rect.block (s := S8192x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2.size a ≤ S8192x2.size a
  hwx0_2 : ∀ i : grid0.Coords, EltTy.bits .f32 = 32 ∨ (Rect.block (s := S8192x2) S1024x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x1024.size a ≤ S2x4096.size a
  hwx0_3 : ∀ i : grid0.Coords, EltTy.bits .f32 = 32 ∨ (Rect.block (s := S2x4096) S2x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x1024.size a ≤ S2x4096.size a
  hwx0_4 : ∀ i : grid0.Coords, EltTy.bits .f32 = 32 ∨ (Rect.block (s := S2x4096) S2x1024.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x4096.size a
  hwx1_0 : ∀ i : grid1.Coords, EltTy.bits .f32 = 32 ∨ (Rect.block (s := S8192x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x2.size a ≤ S8192x2.size a
  hwx1_1 : ∀ i : grid1.Coords, EltTy.bits .f32 = 32 ∨ (Rect.block (s := S8192x2) S256x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x4096.size a ≤ S2x4096.size a
  hwx1_2 : ∀ i : grid1.Coords, EltTy.bits .f32 = 32 ∨ (Rect.block (s := S2x4096) S2x4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2x4096.size a ≤ S2x4096.size a
  hwx1_3 : ∀ i : grid1.Coords, EltTy.bits .f32 = 32 ∨ (Rect.block (s := S2x4096) S2x4096.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x2.size a ≤ S2x1x2.size a
  hwx1_4 : ∀ i : grid1.Coords, EltTy.bits .f32 = 32 ∨ (Rect.block (s := S2x1x2) S1x1x2.size (cc1_transform_4 i) (hinb1_4 i)).WholeWords (EltTy.packing .f32)

variable [Facts₀]

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19_0) S2x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19_1) S2x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg0) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S256x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S2x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S2x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x1x2.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S8192 : Shape := ⟨1, ![8192]⟩
abbrev S_ : Shape := ⟨0, ![]⟩
abbrev S8192x1 : Shape := ⟨2, ![8192, 1]⟩
abbrev S4096 : Shape := ⟨1, ![4096]⟩
abbrev S1x4096 : Shape := ⟨2, ![1, 4096]⟩
abbrev S1 : Shape := ⟨1, ![1]⟩
abbrev S2 : Shape := ⟨1, ![2]⟩
abbrev S2x4096 : Shape := ⟨2, ![2, 4096]⟩

abbrev nBuf : Space → Nat
  | .hbm => 122
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .f32⟩
  | .hbm, ⟨3, _⟩ => ⟨S8192, .i32⟩
  | .hbm, ⟨4, _⟩ => ⟨S8192, .f32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S8192, .f32⟩
  | .hbm, ⟨9, _⟩ => ⟨S_, .f32⟩
  | .hbm, ⟨10, _⟩ => ⟨S_, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S8192x1, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S4096, .f32⟩
  | .hbm, ⟨22, _⟩ => ⟨S8192x1, .f32⟩
  | .hbm, ⟨23, _⟩ => ⟨S8192x4096, .f32⟩
  | .hbm, ⟨24, _⟩ => ⟨S8192x4096, .f32⟩
  | .hbm, ⟨25, _⟩ => ⟨S_, .f32⟩
  | .hbm, ⟨26, _⟩ => ⟨S4096, .f32⟩
  | .hbm, ⟨27, _⟩ => ⟨S4096, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S1x4096, .f32⟩
  | .hbm, ⟨33, _⟩ => ⟨S8192x4096, .f32⟩
  | .hbm, ⟨34, _⟩ => ⟨S8192x4096, .f32⟩
  | .hbm, ⟨35, _⟩ => ⟨S8192x4096, .f32⟩
  | .hbm, ⟨36, _⟩ => ⟨S_, .f32⟩
  | .hbm, ⟨37, _⟩ => ⟨S8192x4096, .f32⟩
  | .hbm, ⟨38, _⟩ => ⟨S8192x4096, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S4096, .f32⟩
  | .hbm, ⟨43, _⟩ => ⟨S1x4096, .f32⟩
  | .hbm, ⟨44, _⟩ => ⟨S8192x4096, .f32⟩
  | .hbm, ⟨45, _⟩ => ⟨S8192x4096, .f32⟩
  | .hbm, ⟨46, _⟩ => ⟨S1x4096, .f32⟩
  | .hbm, ⟨47, _⟩ => ⟨S8192x4096, .f32⟩
  | .hbm, ⟨48, _⟩ => ⟨S8192x4096, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .i32⟩
  | .hbm, ⟨56, _⟩ => ⟨S8192, .i32⟩
  | .hbm, ⟨57, _⟩ => ⟨S8192, .i1⟩
  | .hbm, ⟨58, _⟩ => ⟨S8192, .f32⟩
  | .hbm, ⟨59, _⟩ => ⟨S_, .f32⟩
  | .hbm, ⟨60, _⟩ => ⟨S_, .f32⟩
  | .hbm, ⟨61, _⟩ => ⟨S8192, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S8192x1, .f32⟩
  | .hbm, ⟨66, _⟩ => ⟨S8192x4096, .f32⟩
  | .hbm, ⟨67, _⟩ => ⟨S8192x4096, .f32⟩
  | .hbm, ⟨68, _⟩ => ⟨S_, .f32⟩
  | .hbm, ⟨69, _⟩ => ⟨S4096, .f32⟩
  | .hbm, ⟨70, _⟩ => ⟨S4096, .f32⟩
  | .hbm, ⟨71, _⟩ => ⟨S4096, .f32⟩
  | .hbm, ⟨72, _⟩ => ⟨S8192x1, .f32⟩
  | .hbm, ⟨73, _⟩ => ⟨S8192x4096, .f32⟩
  | .hbm, ⟨74, _⟩ => ⟨S8192x4096, .f32⟩
  | .hbm, ⟨75, _⟩ => ⟨S_, .f32⟩
  | .hbm, ⟨76, _⟩ => ⟨S4096, .f32⟩
  | .hbm, ⟨77, _⟩ => ⟨S4096, .f32⟩
  | .hbm, ⟨78, _⟩ => ⟨S4096, .f32⟩
  | .hbm, ⟨79, _⟩ => ⟨S_, .f32⟩
  | .hbm, ⟨80, _⟩ => ⟨S4096, .f32⟩
  | .hbm, ⟨81, _⟩ => ⟨S4096, .f32⟩
  | .hbm, ⟨82, _⟩ => ⟨S1x4096, .f32⟩
  | .hbm, ⟨83, _⟩ => ⟨S8192x4096, .f32⟩
  | .hbm, ⟨84, _⟩ => ⟨S8192x4096, .f32⟩
  | .hbm, ⟨85, _⟩ => ⟨S8192x4096, .f32⟩
  | .hbm, ⟨86, _⟩ => ⟨S_, .f32⟩
  | .hbm, ⟨87, _⟩ => ⟨S8192x4096, .f32⟩
  | .hbm, ⟨88, _⟩ => ⟨S8192x4096, .f32⟩
  | .hbm, ⟨89, _⟩ => ⟨S_, .f32⟩
  | .hbm, ⟨90, _⟩ => ⟨S4096, .f32⟩
  | .hbm, ⟨91, _⟩ => ⟨S4096, .f32⟩
  | .hbm, ⟨92, _⟩ => ⟨S4096, .f32⟩
  | .hbm, ⟨93, _⟩ => ⟨S1x4096, .f32⟩
  | .hbm, ⟨94, _⟩ => ⟨S8192x4096, .f32⟩
  | .hbm, ⟨95, _⟩ => ⟨S8192x4096, .f32⟩
  | .hbm, ⟨96, _⟩ => ⟨S1x4096, .f32⟩
  | .hbm, ⟨97, _⟩ => ⟨S8192x4096, .f32⟩
  | .hbm, ⟨98, _⟩ => ⟨S8192x4096, .f32⟩
  | .hbm, ⟨99, _⟩ => ⟨S_, .f32⟩
  | .hbm, ⟨100, _⟩ => ⟨S8192, .f32⟩
  | .hbm, ⟨101, _⟩ => ⟨S8192, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S1, .f32⟩
  | .hbm, ⟨106, _⟩ => ⟨S1, .f32⟩
  | .hbm, ⟨107, _⟩ => ⟨S2, .f32⟩
  | .hbm, ⟨108, _⟩ => ⟨S1x4096, .f32⟩
  | .hbm, ⟨109, _⟩ => ⟨S1x4096, .f32⟩
  | .hbm, ⟨110, _⟩ => ⟨S2x4096, .f32⟩
  | .hbm, ⟨111, _⟩ => ⟨S1x4096, .f32⟩
  | .hbm, ⟨112, _⟩ => ⟨S1x4096, .f32⟩
  | .hbm, ⟨113, _⟩ => ⟨S2x4096, .f32⟩
  | .hbm, ⟨114, _⟩ => ⟨S1, .f32⟩
  | .hbm, ⟨115, _⟩ => ⟨S1, .f32⟩
  | .hbm, ⟨116, _⟩ => ⟨S2, .f32⟩
  | .hbm, ⟨117, _⟩ => ⟨S2, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_c_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_13 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_14 : Ref sig .tc := ⟨.hbm, 86, rfl⟩
abbrev main_v65 : Ref sig .tc := ⟨.hbm, 87, rfl⟩
abbrev main_v66 : Ref sig .tc := ⟨.hbm, 88, rfl⟩
abbrev main_cst_15 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_16 : Ref sig .tc := ⟨.hbm, 99, rfl⟩
abbrev main_v76 : Ref sig .tc := ⟨.hbm, 100, rfl⟩
abbrev main_v77 : Ref sig .tc := ⟨.hbm, 101, rfl⟩
abbrev main_cst_17 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_cst_18 : Ref sig .tc := ⟨.hbm, 118, rfl⟩
abbrev main_v93 : Ref sig .tc := ⟨.hbm, 119, rfl⟩
abbrev main_cst_19 : Ref sig .tc := ⟨.hbm, 120, rfl⟩
abbrev main_v94 : Ref sig .tc := ⟨.hbm, 121, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  reducesTo_S8192_S_d0 : S8192.ReducesTo [0] S_
  h_S_ : 0 < S_.numel
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  reducesTo_S8192x4096_S4096_d0 : S8192x4096.ReducesTo [0] S4096
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  reducesTo_S8192x4096_S8192_d1 : S8192x4096.ReducesTo [1] S8192
  bcast_S_S1 : S_.BroadcastsInDim S1 (![] : Fin 0 → Fin S1.rank)
  concatenates_S1_S1_S2_d0 : Shape.Concatenates [S1, S1] S2 0
  concatenates_S1x4096_S1x4096_S2x4096_d0 : Shape.Concatenates [S1x4096, S1x4096] S2x4096 0
  reducesTo_S2_S_d0 : S2.ReducesTo [0] S_

variable [Facts₀]

class Facts : Prop extends Facts₀ where

variable [Facts]
-- ==== Proof.KI.R0Runs.lean ====
/-
  The first kernel region (the pass over mean and log_sd). Its grid is 4 x 8: the first coordinate picks one of four
  blocks of 1024 columns, the second one of eight blocks of 1024 rows. At a point the body reads the 1024 x 1024
  blocks of the two big operands and the 1024 x 2 block of the two class masks, and adds, for each operand and each
  class, the block's masked column sums to a 2 x 1024 accumulator that lives in a scratch buffer of the kernel's own:
  the accumulators are set to zero at the first row block of a column block, and copied to the two 2 x 1024 output
  blocks at the last one. The outputs' block index depends only on the column block, so an output block is stored
  once, at the eighth point of its sweep, and is left alone at the other seven.
  This module fixes what a block of an operand is at a point, decides over the grid where the two branches are taken,
  says at which points the outputs are left alone, and runs the body in each of the three cases that occur.
-/
import proofs.«179402_j71244917506189_2_alg».proof.Proof.Gen.KernelIdeal.Launch
import proofs.«179402_j71244917506189_2_alg».proof.Proof.Gen.KernelIdeal.Skeleton
import proofs.«179402_j71244917506189_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: a parameter here, fixed by the run
variable (V : (c : Dev nD) → (b : Ref sig .tc) → Buf (Elt F) ((c : Thread nD τ).loc b))

/-! ## The operands' blocks -/

/-- Operand `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input operand 0's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input operand 1's current staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input operand 2's current staging buffer holds its block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The two branches -/

/-- The first branch: the second grid coordinate is zero (the first row block of a column block). -/
abbrev cond0_0 (i : grid0.Coords) : Prop := (Scalar.cmpi .ne (Scalar.extui (Scalar.cmpi .eq (BitVec.ofNat 32 (i 1).val) 0#32)) 0#32) = 1#1
/-- Points are numbered column block by column block, 8 to each: the first branch is taken at the points divisible by 8. -/
theorem hcond0_0 : ∀ t : Fin cfg0.N, cond0_0 (grid0.coords t) ↔ t.val % 8 = 0 :=
  (by decide +kernel : ∀ t : Fin grid0.N, cond0_0 (grid0.coords t) ↔ t.val % 8 = 0)
/-- The second branch: the second grid coordinate is seven (the last row block of a column block). -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the outputs are left alone -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last row block the body stores nothing into output 3, and its block is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last row block it does. -/
theorem liveAt0_3_C : ∀ t : Fin cfg0.N, cond0_1 (grid0.coords t) → cfg0.idle 3 (grid0.coords t) = false := by decide +kernel
/-- Away from the last row block the body stores nothing into output 4, and its block is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last row block it does. -/
theorem liveAt0_4_C : ∀ t : Fin cfg0.N, cond0_1 (grid0.coords t) → cfg0.idle 4 (grid0.coords t) = false := by decide +kernel

/-! ## The buffers the body is called with -/

abbrev VO0_3 : View sig .tc .vmem S2x1024 .f32 := (Memref.whole cc0_stg3_0 : Memref sig .tc .vmem S2x1024 .f32).view
abbrev VO0_4 : View sig .tc .vmem S2x1024 .f32 := (Memref.whole cc0_stg4_0 : Memref sig .tc .vmem S2x1024 .f32).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x1024 .f32 := win0_4.stage (cfg0.slots t 4)
abbrev hs0_4 (t : Fin cfg0.N) : (ms0_4 t).IsWhole := hstage0_4 ((cfg0.slots t 4).cast nbuf0_4)
/-- The two accumulators: whole buffers of the kernel's own, passed beside the staged operands. -/
abbrev scM0_0 : Memref sig .tc .vmem S2x1024 .f32 := Memref.whole cc0_scratch0
abbrev scM0_1 : Memref sig .tc .vmem S2x1024 .f32 := Memref.whole cc0_scratch1
abbrev VS0_0 : View sig .tc .vmem S2x1024 .f32 := scM0_0.view
abbrev VS0_1 : View sig .tc .vmem S2x1024 .f32 := scM0_1.view

/-! ## The body, case by case -/

set_option maxHeartbeats 2000000 in
/-- At the first row block of a column block: inputs at their blocks, the two outputs at contents handed back
    untouched, the two accumulators at anything. The body zeroes each accumulator and stores zero plus the block's masked
    column sums into it; the lists of stores into the accumulators are what the run finds. -/
noncomputable def kernelRun0_A (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x2 .f32) (harg4 : arg4.IsWhole) (arg5 : Memref sig .tc .vmem S2x1024 .f32) (harg5 : arg5.IsWhole) (arg6 : Memref sig .tc .vmem S2x1024 .f32) (harg6 : arg6.IsWhole) (arg7 : Memref sig .tc .vmem S2x1024 .f32) (harg7 : arg7.IsWhole) (arg8 : Memref sig .tc .vmem S2x1024 .f32) (harg8 : arg8.IsWhole) (hc0 : cond0_0 i) (hc1 : ¬cond0_1 i)
    (x0 : Vec F S1024x1024 .f32) (x1 : Vec F S1024x1024 .f32) (x2 : Vec F S1024x2 .f32) :
    Σ' (L3 : List (View.Piece (Elt F) S2x1024 .f32)) (L4 : List (View.Piece (Elt F) S2x1024 .f32)) (LS0 : List (View.Piece (Elt F) S2x1024 .f32)), { LS1 : List (View.Piece (Elt F) S2x1024 .f32) //
      ∀ (xi3 : Vec F S2x1024 .f32) (xi4 : Vec F S2x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__kernelA_body i arg2 harg2 arg3 harg3 arg4 harg4 arg5 harg5 arg6 harg6 arg7 harg7 arg8 harg8) K } := by
  refine ⟨[], [], ?_, ?_, fun xi3 xi4 E K => ?run⟩
  case run =>
    simp only [cc0__kernelA_body_eq_skeleton]; unfold cc0__kernelA_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

set_option maxHeartbeats 2000000 in
/-- At a row block that is neither first nor last: the same, with the accumulators entered at what the point before
    left in them (`xs0`, `xs1`), each replaced by itself plus the block's masked column sums. -/
noncomputable def kernelRun0_B (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x2 .f32) (harg4 : arg4.IsWhole) (arg5 : Memref sig .tc .vmem S2x1024 .f32) (harg5 : arg5.IsWhole) (arg6 : Memref sig .tc .vmem S2x1024 .f32) (harg6 : arg6.IsWhole) (arg7 : Memref sig .tc .vmem S2x1024 .f32) (harg7 : arg7.IsWhole) (arg8 : Memref sig .tc .vmem S2x1024 .f32) (harg8 : arg8.IsWhole) (hc0 : ¬cond0_0 i) (hc1 : ¬cond0_1 i)
    (x0 : Vec F S1024x1024 .f32) (x1 : Vec F S1024x1024 .f32) (x2 : Vec F S1024x2 .f32) (xs0 : Vec F S2x1024 .f32) (xs1 : Vec F S2x1024 .f32) :
    Σ' (L3 : List (View.Piece (Elt F) S2x1024 .f32)) (L4 : List (View.Piece (Elt F) S2x1024 .f32)) (LS0 : List (View.Piece (Elt F) S2x1024 .f32)), { LS1 : List (View.Piece (Elt F) S2x1024 .f32) //
      ∀ (xi3 : Vec F S2x1024 .f32) (xi4 : Vec F S2x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__kernelA_body i arg2 harg2 arg3 harg3 arg4 harg4 arg5 harg5 arg6 harg6 arg7 harg7 arg8 harg8) K } := by
  refine ⟨[], [], ?_, ?_, fun xi3 xi4 E K => ?run⟩
  case run =>
    simp only [cc0__kernelA_body_eq_skeleton]; unfold cc0__kernelA_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

set_option maxHeartbeats 2000000 in
/-- At the last row block of a column block: the accumulators entered at what the point before left, the outputs'
    buffers at anything; after the accumulation each output's buffer is stored whole with its accumulator. -/
noncomputable def kernelRun0_C (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x2 .f32) (harg4 : arg4.IsWhole) (arg5 : Memref sig .tc .vmem S2x1024 .f32) (harg5 : arg5.IsWhole) (arg6 : Memref sig .tc .vmem S2x1024 .f32) (harg6 : arg6.IsWhole) (arg7 : Memref sig .tc .vmem S2x1024 .f32) (harg7 : arg7.IsWhole) (arg8 : Memref sig .tc .vmem S2x1024 .f32) (harg8 : arg8.IsWhole) (hc0 : ¬cond0_0 i) (hc1 : cond0_1 i)
    (x0 : Vec F S1024x1024 .f32) (x1 : Vec F S1024x1024 .f32) (x2 : Vec F S1024x2 .f32) (xs0 : Vec F S2x1024 .f32) (xs1 : Vec F S2x1024 .f32) :
    Σ' (L3 : List (View.Piece (Elt F) S2x1024 .f32)) (L4 : List (View.Piece (Elt F) S2x1024 .f32)) (LS0 : List (View.Piece (Elt F) S2x1024 .f32)), { LS1 : List (View.Piece (Elt F) S2x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__kernelA_body i arg2 harg2 arg3 harg3 arg4 harg4 arg5 harg5 arg6 harg6 arg7 harg7 arg8 harg8) K } := by
  refine ⟨?_, ?_, ?_, ?_, fun E K => ?run⟩
  case run =>
    simp only [cc0__kernelA_body_eq_skeleton]; unfold cc0__kernelA_body_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

end Cert.KernelIdeal.Hand

end
-- ==== Proof.KI.R0Frame.lean ====
/-
  The first kernel region, continued: what its two outputs' staging buffers and its two accumulators hold after
  each grid point, the invariant that carries the accumulators from one point to the next, the region's proof data,
  and the obligation the launch loop asks of the body at every point.
  The accumulators are buffers of the kernel's own that no operand is staged through, so between two points nothing
  but the invariant can say what they hold: before the first point they hold anything; after point n they hold what
  the body left there, a recursion on n (zeroing case at the first row block of a column block, accumulating cases
  over what point n - 1 left elsewhere). An output's buffer is stored only at the last row block of a column block,
  with the accumulator's contents, and written back to its array right after; at the other points it is left alone.
-/
import proofs.«179402_j71244917506189_2_alg».proof.Proof.KI.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: a parameter here, fixed by the run
variable (V : (c : Dev nD) → (b : Ref sig .tc) → Buf (Elt F) ((c : Thread nD τ).loc b))

/-! ## What each case leaves -/

/-- Case A: the stores into the first accumulator cover it (each is of the whole buffer). -/
theorem scover0_A_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x2 .f32) (harg4 : arg4.IsWhole) (arg5 : Memref sig .tc .vmem S2x1024 .f32) (harg5 : arg5.IsWhole) (arg6 : Memref sig .tc .vmem S2x1024 .f32) (harg6 : arg6.IsWhole) (arg7 : Memref sig .tc .vmem S2x1024 .f32) (harg7 : arg7.IsWhole) (arg8 : Memref sig .tc .vmem S2x1024 .f32) (harg8 : arg8.IsWhole) (hc0 : cond0_0 i) (hc1 : ¬cond0_1 i)
    (x0 : Vec F S1024x1024 .f32) (x1 : Vec F S1024x1024 .f32) (x2 : Vec F S1024x2 .f32) (y : S2x1024.Idx) :
    ∃ pc ∈ (kernelRun0_A c i arg2 harg2 arg3 harg3 arg4 harg4 arg5 harg5 arg6 harg6 arg7 harg7 arg8 harg8 hc0 hc1 x0 x1 x2).2.2.1, y ∈ pc.1.set :=
  View.cover_of_tiledL (kernelRun0_A c i arg2 harg2 arg3 harg3 arg4 harg4 arg5 harg5 arg6 harg6 arg7 harg7 arg8 harg8 hc0 hc1 x0 x1 x2).2.2.1 S2x1024.size (by sl_kernel_rfl) y
/-- Case A: what the body leaves in the first accumulator. -/
def sout0_A_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x2 .f32) (harg4 : arg4.IsWhole) (arg5 : Memref sig .tc .vmem S2x1024 .f32) (harg5 : arg5.IsWhole) (arg6 : Memref sig .tc .vmem S2x1024 .f32) (harg6 : arg6.IsWhole) (arg7 : Memref sig .tc .vmem S2x1024 .f32) (harg7 : arg7.IsWhole) (arg8 : Memref sig .tc .vmem S2x1024 .f32) (harg8 : arg8.IsWhole) (hc0 : cond0_0 i) (hc1 : ¬cond0_1 i)
    (x0 : Vec F S1024x1024 .f32) (x1 : Vec F S1024x1024 .f32) (x2 : Vec F S1024x2 .f32) : Vec F S2x1024 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2).2.2.1)
/-- Case A: the stores into the second accumulator cover it. -/
theorem scover0_A_1 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x2 .f32) (harg4 : arg4.IsWhole) (arg5 : Memref sig .tc .vmem S2x1024 .f32) (harg5 : arg5.IsWhole) (arg6 : Memref sig .tc .vmem S2x1024 .f32) (harg6 : arg6.IsWhole) (arg7 : Memref sig .tc .vmem S2x1024 .f32) (harg7 : arg7.IsWhole) (arg8 : Memref sig .tc .vmem S2x1024 .f32) (harg8 : arg8.IsWhole) (hc0 : cond0_0 i) (hc1 : ¬cond0_1 i)
    (x0 : Vec F S1024x1024 .f32) (x1 : Vec F S1024x1024 .f32) (x2 : Vec F S1024x2 .f32) (y : S2x1024.Idx) :
    ∃ pc ∈ (kernelRun0_A c i arg2 harg2 arg3 harg3 arg4 harg4 arg5 harg5 arg6 harg6 arg7 harg7 arg8 harg8 hc0 hc1 x0 x1 x2).2.2.2.1, y ∈ pc.1.set :=
  View.cover_of_tiledL (kernelRun0_A c i arg2 harg2 arg3 harg3 arg4 harg4 arg5 harg5 arg6 harg6 arg7 harg7 arg8 harg8 hc0 hc1 x0 x1 x2).2.2.2.1 S2x1024.size (by sl_kernel_rfl) y
/-- Case A: what the body leaves in the second accumulator. -/
def sout0_A_1 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x2 .f32) (harg4 : arg4.IsWhole) (arg5 : Memref sig .tc .vmem S2x1024 .f32) (harg5 : arg5.IsWhole) (arg6 : Memref sig .tc .vmem S2x1024 .f32) (harg6 : arg6.IsWhole) (arg7 : Memref sig .tc .vmem S2x1024 .f32) (harg7 : arg7.IsWhole) (arg8 : Memref sig .tc .vmem S2x1024 .f32) (harg8 : arg8.IsWhole) (hc0 : cond0_0 i) (hc1 : ¬cond0_1 i)
    (x0 : Vec F S1024x1024 .f32) (x1 : Vec F S1024x1024 .f32) (x2 : Vec F S1024x2 .f32) : Vec F S2x1024 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1 x2).2.2.2.1)

/-- Case B: the stores into the first accumulator cover it (each is of the whole buffer). -/
theorem scover0_B_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x2 .f32) (harg4 : arg4.IsWhole) (arg5 : Memref sig .tc .vmem S2x1024 .f32) (harg5 : arg5.IsWhole) (arg6 : Memref sig .tc .vmem S2x1024 .f32) (harg6 : arg6.IsWhole) (arg7 : Memref sig .tc .vmem S2x1024 .f32) (harg7 : arg7.IsWhole) (arg8 : Memref sig .tc .vmem S2x1024 .f32) (harg8 : arg8.IsWhole) (hc0 : ¬cond0_0 i) (hc1 : ¬cond0_1 i)
    (x0 : Vec F S1024x1024 .f32) (x1 : Vec F S1024x1024 .f32) (x2 : Vec F S1024x2 .f32) (xs0 : Vec F S2x1024 .f32) (xs1 : Vec F S2x1024 .f32) (y : S2x1024.Idx) :
    ∃ pc ∈ (kernelRun0_B c i arg2 harg2 arg3 harg3 arg4 harg4 arg5 harg5 arg6 harg6 arg7 harg7 arg8 harg8 hc0 hc1 x0 x1 x2 xs0 xs1).2.2.1, y ∈ pc.1.set :=
  View.cover_of_tiledL (kernelRun0_B c i arg2 harg2 arg3 harg3 arg4 harg4 arg5 harg5 arg6 harg6 arg7 harg7 arg8 harg8 hc0 hc1 x0 x1 x2 xs0 xs1).2.2.1 S2x1024.size (by sl_kernel_rfl) y
/-- Case B: what the body leaves in the first accumulator. -/
def sout0_B_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x2 .f32) (harg4 : arg4.IsWhole) (arg5 : Memref sig .tc .vmem S2x1024 .f32) (harg5 : arg5.IsWhole) (arg6 : Memref sig .tc .vmem S2x1024 .f32) (harg6 : arg6.IsWhole) (arg7 : Memref sig .tc .vmem S2x1024 .f32) (harg7 : arg7.IsWhole) (arg8 : Memref sig .tc .vmem S2x1024 .f32) (harg8 : arg8.IsWhole) (hc0 : ¬cond0_0 i) (hc1 : ¬cond0_1 i)
    (x0 : Vec F S1024x1024 .f32) (x1 : Vec F S1024x1024 .f32) (x2 : Vec F S1024x2 .f32) (xs0 : Vec F S2x1024 .f32) (xs1 : Vec F S2x1024 .f32) : Vec F S2x1024 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 xs0 xs1).2.2.1)
/-- Case B: the stores into the second accumulator cover it. -/
theorem scover0_B_1 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x2 .f32) (harg4 : arg4.IsWhole) (arg5 : Memref sig .tc .vmem S2x1024 .f32) (harg5 : arg5.IsWhole) (arg6 : Memref sig .tc .vmem S2x1024 .f32) (harg6 : arg6.IsWhole) (arg7 : Memref sig .tc .vmem S2x1024 .f32) (harg7 : arg7.IsWhole) (arg8 : Memref sig .tc .vmem S2x1024 .f32) (harg8 : arg8.IsWhole) (hc0 : ¬cond0_0 i) (hc1 : ¬cond0_1 i)
    (x0 : Vec F S1024x1024 .f32) (x1 : Vec F S1024x1024 .f32) (x2 : Vec F S1024x2 .f32) (xs0 : Vec F S2x1024 .f32) (xs1 : Vec F S2x1024 .f32) (y : S2x1024.Idx) :
    ∃ pc ∈ (kernelRun0_B c i arg2 harg2 arg3 harg3 arg4 harg4 arg5 harg5 arg6 harg6 arg7 harg7 arg8 harg8 hc0 hc1 x0 x1 x2 xs0 xs1).2.2.2.1, y ∈ pc.1.set :=
  View.cover_of_tiledL (kernelRun0_B c i arg2 harg2 arg3 harg3 arg4 harg4 arg5 harg5 arg6 harg6 arg7 harg7 arg8 harg8 hc0 hc1 x0 x1 x2 xs0 xs1).2.2.2.1 S2x1024.size (by sl_kernel_rfl) y
/-- Case B: what the body leaves in the second accumulator. -/
def sout0_B_1 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x2 .f32) (harg4 : arg4.IsWhole) (arg5 : Memref sig .tc .vmem S2x1024 .f32) (harg5 : arg5.IsWhole) (arg6 : Memref sig .tc .vmem S2x1024 .f32) (harg6 : arg6.IsWhole) (arg7 : Memref sig .tc .vmem S2x1024 .f32) (harg7 : arg7.IsWhole) (arg8 : Memref sig .tc .vmem S2x1024 .f32) (harg8 : arg8.IsWhole) (hc0 : ¬cond0_0 i) (hc1 : ¬cond0_1 i)
    (x0 : Vec F S1024x1024 .f32) (x1 : Vec F S1024x1024 .f32) (x2 : Vec F S1024x2 .f32) (xs0 : Vec F S2x1024 .f32) (xs1 : Vec F S2x1024 .f32) : Vec F S2x1024 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 x2 xs0 xs1).2.2.2.1)

/-- Case C: the stores into the first accumulator cover it (each is of the whole buffer). -/
theorem scover0_C_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x2 .f32) (harg4 : arg4.IsWhole) (arg5 : Memref sig .tc .vmem S2x1024 .f32) (harg5 : arg5.IsWhole) (arg6 : Memref sig .tc .vmem S2x1024 .f32) (harg6 : arg6.IsWhole) (arg7 : Memref sig .tc .vmem S2x1024 .f32) (harg7 : arg7.IsWhole) (arg8 : Memref sig .tc .vmem S2x1024 .f32) (harg8 : arg8.IsWhole) (hc0 : ¬cond0_0 i) (hc1 : cond0_1 i)
    (x0 : Vec F S1024x1024 .f32) (x1 : Vec F S1024x1024 .f32) (x2 : Vec F S1024x2 .f32) (xs0 : Vec F S2x1024 .f32) (xs1 : Vec F S2x1024 .f32) (y : S2x1024.Idx) :
    ∃ pc ∈ (kernelRun0_C c i arg2 harg2 arg3 harg3 arg4 harg4 arg5 harg5 arg6 harg6 arg7 harg7 arg8 harg8 hc0 hc1 x0 x1 x2 xs0 xs1).2.2.1, y ∈ pc.1.set :=
  View.cover_of_tiledL (kernelRun0_C c i arg2 harg2 arg3 harg3 arg4 harg4 arg5 harg5 arg6 harg6 arg7 harg7 arg8 harg8 hc0 hc1 x0 x1 x2 xs0 xs1).2.2.1 S2x1024.size (by sl_kernel_rfl) y
/-- Case C: what the body leaves in the first accumulator. -/
def sout0_C_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x2 .f32) (harg4 : arg4.IsWhole) (arg5 : Memref sig .tc .vmem S2x1024 .f32) (harg5 : arg5.IsWhole) (arg6 : Memref sig .tc .vmem S2x1024 .f32) (harg6 : arg6.IsWhole) (arg7 : Memref sig .tc .vmem S2x1024 .f32) (harg7 : arg7.IsWhole) (arg8 : Memref sig .tc .vmem S2x1024 .f32) (harg8 : arg8.IsWhole) (hc0 : ¬cond0_0 i) (hc1 : cond0_1 i)
    (x0 : Vec F S1024x1024 .f32) (x1 : Vec F S1024x1024 .f32) (x2 : Vec F S1024x2 .f32) (xs0 : Vec F S2x1024 .f32) (xs1 : Vec F S2x1024 .f32) : Vec F S2x1024 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 xs0 xs1).2.2.1)
/-- Case C: the stores into the second accumulator cover it. -/
theorem scover0_C_1 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x2 .f32) (harg4 : arg4.IsWhole) (arg5 : Memref sig .tc .vmem S2x1024 .f32) (harg5 : arg5.IsWhole) (arg6 : Memref sig .tc .vmem S2x1024 .f32) (harg6 : arg6.IsWhole) (arg7 : Memref sig .tc .vmem S2x1024 .f32) (harg7 : arg7.IsWhole) (arg8 : Memref sig .tc .vmem S2x1024 .f32) (harg8 : arg8.IsWhole) (hc0 : ¬cond0_0 i) (hc1 : cond0_1 i)
    (x0 : Vec F S1024x1024 .f32) (x1 : Vec F S1024x1024 .f32) (x2 : Vec F S1024x2 .f32) (xs0 : Vec F S2x1024 .f32) (xs1 : Vec F S2x1024 .f32) (y : S2x1024.Idx) :
    ∃ pc ∈ (kernelRun0_C c i arg2 harg2 arg3 harg3 arg4 harg4 arg5 harg5 arg6 harg6 arg7 harg7 arg8 harg8 hc0 hc1 x0 x1 x2 xs0 xs1).2.2.2.1, y ∈ pc.1.set :=
  View.cover_of_tiledL (kernelRun0_C c i arg2 harg2 arg3 harg3 arg4 harg4 arg5 harg5 arg6 harg6 arg7 harg7 arg8 harg8 hc0 hc1 x0 x1 x2 xs0 xs1).2.2.2.1 S2x1024.size (by sl_kernel_rfl) y
/-- Case C: what the body leaves in the second accumulator. -/
def sout0_C_1 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x2 .f32) (harg4 : arg4.IsWhole) (arg5 : Memref sig .tc .vmem S2x1024 .f32) (harg5 : arg5.IsWhole) (arg6 : Memref sig .tc .vmem S2x1024 .f32) (harg6 : arg6.IsWhole) (arg7 : Memref sig .tc .vmem S2x1024 .f32) (harg7 : arg7.IsWhole) (arg8 : Memref sig .tc .vmem S2x1024 .f32) (harg8 : arg8.IsWhole) (hc0 : ¬cond0_0 i) (hc1 : cond0_1 i)
    (x0 : Vec F S1024x1024 .f32) (x1 : Vec F S1024x1024 .f32) (x2 : Vec F S1024x2 .f32) (xs0 : Vec F S2x1024 .f32) (xs1 : Vec F S2x1024 .f32) : Vec F S2x1024 .f32 :=
  VS0_1.read (Elt F) (VS0_1.writes (Elt F) VS0_1.junk (kernelRun0_C c i arg2 harg2 arg3 harg3 arg4 harg4 arg5 harg5 arg6 harg6 arg7 harg7 arg8 harg8 hc0 hc1 x0 x1 x2 xs0 xs1).2.2.2.1)

/-- At the last row block the one store into the first output covers its block. -/
theorem cover0_C_3 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x2 .f32) (harg4 : arg4.IsWhole) (arg5 : Memref sig .tc .vmem S2x1024 .f32) (harg5 : arg5.IsWhole) (arg6 : Memref sig .tc .vmem S2x1024 .f32) (harg6 : arg6.IsWhole) (arg7 : Memref sig .tc .vmem S2x1024 .f32) (harg7 : arg7.IsWhole) (arg8 : Memref sig .tc .vmem S2x1024 .f32) (harg8 : arg8.IsWhole) (hc0 : ¬cond0_0 i) (hc1 : cond0_1 i)
    (x0 : Vec F S1024x1024 .f32) (x1 : Vec F S1024x1024 .f32) (x2 : Vec F S1024x2 .f32) (xs0 : Vec F S2x1024 .f32) (xs1 : Vec F S2x1024 .f32) (y : S2x1024.Idx) :
    ∃ pc ∈ (kernelRun0_C c i arg2 harg2 arg3 harg3 arg4 harg4 arg5 harg5 arg6 harg6 arg7 harg7 arg8 harg8 hc0 hc1 x0 x1 x2 xs0 xs1).1, y ∈ pc.1.set :=
  View.cover_of_tiledL (kernelRun0_C c i arg2 harg2 arg3 harg3 arg4 harg4 arg5 harg5 arg6 harg6 arg7 harg7 arg8 harg8 hc0 hc1 x0 x1 x2 xs0 xs1).1 S2x1024.size (by sl_kernel_rfl) y
def out0_C_3 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x2 .f32) (harg4 : arg4.IsWhole) (arg5 : Memref sig .tc .vmem S2x1024 .f32) (harg5 : arg5.IsWhole) (arg6 : Memref sig .tc .vmem S2x1024 .f32) (harg6 : arg6.IsWhole) (arg7 : Memref sig .tc .vmem S2x1024 .f32) (harg7 : arg7.IsWhole) (arg8 : Memref sig .tc .vmem S2x1024 .f32) (harg8 : arg8.IsWhole) (hc0 : ¬cond0_0 i) (hc1 : cond0_1 i)
    (x0 : Vec F S1024x1024 .f32) (x1 : Vec F S1024x1024 .f32) (x2 : Vec F S1024x2 .f32) (xs0 : Vec F S2x1024 .f32) (xs1 : Vec F S2x1024 .f32) : Vec F S2x1024 .f32 :=
  VO0_3.read (Elt F) (VO0_3.writes (Elt F) VO0_3.junk (kernelRun0_C c i arg2 harg2 arg3 harg3 arg4 harg4 arg5 harg5 arg6 harg6 arg7 harg7 arg8 harg8 hc0 hc1 x0 x1 x2 xs0 xs1).1)
theorem cover0_C_4 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x2 .f32) (harg4 : arg4.IsWhole) (arg5 : Memref sig .tc .vmem S2x1024 .f32) (harg5 : arg5.IsWhole) (arg6 : Memref sig .tc .vmem S2x1024 .f32) (harg6 : arg6.IsWhole) (arg7 : Memref sig .tc .vmem S2x1024 .f32) (harg7 : arg7.IsWhole) (arg8 : Memref sig .tc .vmem S2x1024 .f32) (harg8 : arg8.IsWhole) (hc0 : ¬cond0_0 i) (hc1 : cond0_1 i)
    (x0 : Vec F S1024x1024 .f32) (x1 : Vec F S1024x1024 .f32) (x2 : Vec F S1024x2 .f32) (xs0 : Vec F S2x1024 .f32) (xs1 : Vec F S2x1024 .f32) (y : S2x1024.Idx) :
    ∃ pc ∈ (kernelRun0_C c i arg2 harg2 arg3 harg3 arg4 harg4 arg5 harg5 arg6 harg6 arg7 harg7 arg8 harg8 hc0 hc1 x0 x1 x2 xs0 xs1).2.1, y ∈ pc.1.set :=
  View.cover_of_tiledL (kernelRun0_C c i arg2 harg2 arg3 harg3 arg4 harg4 arg5 harg5 arg6 harg6 arg7 harg7 arg8 harg8 hc0 hc1 x0 x1 x2 xs0 xs1).2.1 S2x1024.size (by sl_kernel_rfl) y
def out0_C_4 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x2 .f32) (harg4 : arg4.IsWhole) (arg5 : Memref sig .tc .vmem S2x1024 .f32) (harg5 : arg5.IsWhole) (arg6 : Memref sig .tc .vmem S2x1024 .f32) (harg6 : arg6.IsWhole) (arg7 : Memref sig .tc .vmem S2x1024 .f32) (harg7 : arg7.IsWhole) (arg8 : Memref sig .tc .vmem S2x1024 .f32) (harg8 : arg8.IsWhole) (hc0 : ¬cond0_0 i) (hc1 : cond0_1 i)
    (x0 : Vec F S1024x1024 .f32) (x1 : Vec F S1024x1024 .f32) (x2 : Vec F S1024x2 .f32) (xs0 : Vec F S2x1024 .f32) (xs1 : Vec F S2x1024 .f32) : Vec F S2x1024 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 xs0 xs1).2.1)

/-- At a point where an output is left alone nothing is said of its buffer: a placeholder nothing reads (the buffer
    is neither written back there nor read at the next point). -/
def junk0_3 : Vec F S2x1024 .f32 := VO0_3.read (Elt F) VO0_3.junk
def junk0_4 : Vec F S2x1024 .f32 := VO0_4.read (Elt F) VO0_4.junk

/-! ## The buffers after each point -/

/-- After the body at point `n`: (first output's buffer, second output's buffer, first accumulator, second
    accumulator). -/
def outsAt0 (c : Dev nD) : (n : ℕ) → n < cfg0.N → Vec F S2x1024 .f32 × Vec F S2x1024 .f32 × Vec F S2x1024 .f32 × Vec F S2x1024 .f32
  | 0, hn => (junk0_3, junk0_4, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => by have := (hcond0_1 ⟨0, hn⟩).mp h; (try dsimp only at this); omega) (iblk0 V c 0 ⟨0, hn⟩) (iblk0 V c 1 ⟨0, hn⟩) (iblk0 V c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => by have := (hcond0_1 ⟨0, hn⟩).mp h; (try dsimp only at this); omega) (iblk0 V c 0 ⟨0, hn⟩) (iblk0 V c 1 ⟨0, hn⟩) (iblk0 V c 2 ⟨0, hn⟩))
  | n + 1, hn =>
    if h0 : (n + 1) % 8 = 0 then
      (junk0_3, junk0_4, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => by have := (hcond0_1 ⟨n + 1, hn⟩).mp h; (try dsimp only at this); omega) (iblk0 V c 0 ⟨n + 1, hn⟩) (iblk0 V c 1 ⟨n + 1, hn⟩) (iblk0 V c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => by have := (hcond0_1 ⟨n + 1, hn⟩).mp h; (try dsimp only at this); omega) (iblk0 V c 0 ⟨n + 1, hn⟩) (iblk0 V c 1 ⟨n + 1, hn⟩) (iblk0 V c 2 ⟨n + 1, hn⟩))
    else
      if h1 : (n + 1) % 8 = 7 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2)
      else
        (junk0_3, junk0_4, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 8 = 0) :
    outsAt0 V c t.val t.isLt = (junk0_3, junk0_4, sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => by have := (hcond0_1 t).mp h; (try dsimp only at this); omega) (iblk0 V c 0 t) (iblk0 V c 1 t) (iblk0 V c 2 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => by have := (hcond0_1 t).mp h; (try dsimp only at this); omega) (iblk0 V c 0 t) (iblk0 V c 1 t) (iblk0 V c 2 t)) := by
  obtain ⟨n, hn⟩ := t
  cases n with
  | zero => exact rfl
  | succ n => exact (dif_pos h0).trans rfl

theorem outsAt0_B (c : Dev nD) (t : Fin cfg0.N) (h0 : ¬t.val % 8 = 0) (h1 : ¬t.val % 8 = 7) :
    outsAt0 V c t.val t.isLt = (junk0_3, junk0_4, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The scoped buffers that are neither staged through by this region nor its accumulators (the other region's staging
    buffers), each whole at some contents: they ride along untouched. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The launch loop's own invariant, with the two accumulators split out as buffers owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ Rest0 c) ∗ (∃ r, prngReg c r)) := by
  unfold Pipeline.ΦA Rest0; rw [scopedRest0_eq]; simp only [scM0_0, scM0_1, owns_whole]; try rfl

/-- Before position `n`: at the very first point the launch loop's invariant (the accumulators at anything);
    afterwards the accumulators at what point `n - 1` left in them, the other buffers and the register as before. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ Rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2.1) ∗ owns (c : Thread nD τ) scM0_1 fullShare ((outsAt0 V c n hn).2.2.2) ∗ Rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.1) ∗ owns (c : Thread nD τ) scM0_1 fullShare ((outsAt0 V c (n - 1) (by omega)).2.2.2) ∗ Rest0 c) ∗ (∃ r, prngReg c r)) := by
  cases n with
  | zero => exact absurd rfl hz
  | succ n => rfl

/-! ## The region's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 6400000 in
/-- The body at any point. The inputs' buffers hold their blocks; the point's position in its sweep of eight says
    which case applies; the invariant hands the body the accumulators at what the point before left (at anything, at
    the very first point) and takes them back at this point's contents; an output left alone is handed back as it
    came, an output stored holds what its one store wrote. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by unfold Dat.leavesExact; rw [liveAt0_0 t], after0_0]
  rw [show (dat0 V c).leavesExact 1 t = owns (c : Thread nD τ) (ms0_1 t) fullShare ((dat0 V c).after 1 t) from by unfold Dat.leavesExact; rw [liveAt0_1 t], after0_1]
  rw [show (dat0 V c).leavesExact 2 t = owns (c : Thread nD τ) (ms0_2 t) fullShare ((dat0 V c).after 2 t) from by unfold Dat.leavesExact; rw [liveAt0_2 t], after0_2]
  by_cases h0 : t.val % 8 = 0
  · have hc1 : ¬cond0_1 (grid0.coords t) := fun h => by have := (hcond0_1 t).mp h; omega
    rw [Dat.leavesExact_idle (dat0 V c) 3 t (idleAt0_3 t hc1) (noFlush0_3 t hc1), Dat.leavesExact_idle (dat0 V c) 4 t (idleAt0_4 t hc1) (noFlush0_4 t hc1)]
    rw [outsAt0_A V c t h0]
    unfold sout0_A_0 sout0_A_1; (try dsimp only)
    by_cases hz : t.val = 0
    · rw [PhiS0_castSucc V c t, PhiS0_zero V c _ _ hz, PhiA0_eq]
      iintro ⟨⟨⟨HS0, HS1, HR⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ ((hcond0_0 t).mpr h0) hc1 (iblk0 V c 0 t) (iblk0 V c 1 t) (iblk0 V c 2 t)).2.2.2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_A_0 c _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
    · rw [PhiS0_castSucc V c t, PhiS0_pos V c _ _ hz]
      iintro ⟨⟨⟨HS0, HS1, HR⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ ((hcond0_0 t).mpr h0) hc1 (iblk0 V c 0 t) (iblk0 V c 1 t) (iblk0 V c 2 t)).2.2.2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_A_0 c _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    by_cases h1 : t.val % 8 = 7
    · rw [show (dat0 V c).leavesExact 3 t = owns (c : Thread nD τ) (ms0_3 t) fullShare ((dat0 V c).after 3 t) from by unfold Dat.leavesExact; rw [liveAt0_3_C t ((hcond0_1 t).mpr h1)], after0_3]
      rw [show (dat0 V c).leavesExact 4 t = owns (c : Thread nD τ) (ms0_4 t) fullShare ((dat0 V c).after 4 t) from by unfold Dat.leavesExact; rw [liveAt0_4_C t ((hcond0_1 t).mpr h1)], after0_4]
      rw [outsAt0_C V c t h0 h1]
      unfold out0_C_3 out0_C_4 sout0_C_0 sout0_C_1; (try dsimp only)
      rw [PhiS0_castSucc V c t, PhiS0_pos V c _ _ hz]
      iintro ⟨⟨⟨HS0, HS1, HR⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_C_3 c _ _ _ _ _ _ _ _ _ _ _ _ _ _ _ _ _ _ _ _ _ _)
      unfold owns; iexists _; isplitr
      swap; · iexact H4
      ipureintro; exact View.read_writes_of_cover _ _ _ _ _ (cover0_C_4 c _ _ _ _ _ _ _ _ _ _ _ _ _ _ _ _ _ _ _ _ _ _)
    · have hc1 : ¬cond0_1 (grid0.coords t) := fun h => h1 ((hcond0_1 t).mp h)
      rw [Dat.leavesExact_idle (dat0 V c) 3 t (idleAt0_3 t hc1) (noFlush0_3 t hc1), Dat.leavesExact_idle (dat0 V c) 4 t (idleAt0_4 t hc1) (noFlush0_4 t hc1)]
      rw [outsAt0_B V c t h0 h1]
      unfold sout0_B_0 sout0_B_1; (try dsimp only)
      rw [PhiS0_castSucc V c t, PhiS0_pos V c _ _ hz]
      iintro ⟨⟨⟨HS0, HS1, HR⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ (fun h => h0 ((hcond0_0 t).mp h)) hc1 (iblk0 V c 0 t) (iblk0 V c 1 t) (iblk0 V c 2 t) _ _).2.2.2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4

/-- The launch loop's obligation on the body, at every point. -/
theorem body_obligation0 (c : Dev nD) : BodyObligation (dat0 (F := F) V c) (defs₀ (F := F)) Variants.none () Set.univ := fun t => by
  rw [bigSep_W0, bigSep_W0]
  exact sound_body0 V c t

/-- Before the first point the invariant is the launch loop's own. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the accumulators' named contents are forgotten: the launch loop's invariant again. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨⟨HS0, HS1, HR⟩, Hg⟩
  isplitl [HS0 HS1 HR]
  · isplitl [HS0]; · iexists _; iexact HS0
    isplitl [HS1]; · iexists _; iexact HS1
    iexact HR
  iexact Hg

end Cert.KernelIdeal.Hand

end
-- ==== Proof.KI.R1Runs.lean ====
/-
  The second kernel region (the pass over z). Its grid is 2 x 16: the first coordinate picks a half of the batch, the
  second one of that half's 16 blocks of 256 rows. At a point the body reads the block of z, the block of the two
  class masks, and the whole 2 x 4096 arrays of per-class means and inverse variances; its one output block, 1 x 1 x 2,
  depends only on the first coordinate, so the same block is visited at 16 consecutive points: it is set to zero
  at the first of them and at every point has the block's two masked sums of squared, scaled differences added to
  it. This module fixes what a block of an operand is at a point, decides over the grid at which points the
  "first of the sweep" branch is taken, and runs the body in each of the two cases.
-/
import proofs.«179402_j71244917506189_2_alg».proof.Proof.Gen.KernelIdeal.Launch
import proofs.«179402_j71244917506189_2_alg».proof.Proof.Gen.KernelIdeal.Skeleton
import proofs.«179402_j71244917506189_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: a parameter here, fixed by the run
variable (V : (c : Dev nD) → (b : Ref sig .tc) → Buf (Elt F) ((c : Thread nD τ).loc b))

/-! ## The operands' blocks -/

/-- Operand `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input operand 0's current staging buffer holds its block at every point, whether it was fetched there or
    is still in place from an earlier point (its block index has not moved since). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input operand 1's current staging buffer holds its block at every point, whether it was fetched there or
    is still in place from an earlier point (its block index has not moved since). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input operand 2's current staging buffer holds its block at every point, whether it was fetched there or
    is still in place from an earlier point (its block index has not moved since). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input operand 3's current staging buffer holds its block at every point, whether it was fetched there or
    is still in place from an earlier point (its block index has not moved since). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The branch -/

/-- The body's one branch: the second grid coordinate is zero (the first block of a half). -/
abbrev cond1_0 (i : grid1.Coords) : Prop := (Scalar.cmpi .ne (Scalar.extui (Scalar.cmpi .eq (BitVec.ofNat 32 (i 1).val) 0#32)) 0#32) = 1#1
/-- Points are numbered half by half, 16 to a half: the branch is taken at the points divisible by 16. -/
theorem hcond1_0 : ∀ t : Fin cfg1.N, cond1_0 (grid1.coords t) ↔ t.val % 16 = 0 :=
  (by decide +kernel : ∀ t : Fin grid1.N, cond1_0 (grid1.coords t) ↔ t.val % 16 = 0)

/-! ## The staging buffers the body is called with -/

/-- One staging buffer of the output, through which its contents are stated (which one does not matter). -/
abbrev VO1_4 : View sig .tc .vmem S1x1x2 .f32 := (Memref.whole cc1_stg4_0 : Memref sig .tc .vmem S1x1x2 .f32).view
abbrev ms1_0 (t : Fin cfg1.N) : Memref sig .tc .vmem S256x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x2 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2x4096 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2x4096 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x2 .f32 := win1_4.stage (cfg1.slots t 4)
abbrev hs1_4 (t : Fin cfg1.N) : (ms1_4 t).IsWhole := hstage1_4 ((cfg1.slots t 4).cast nbuf1_4)

/-! ## The body, case by case -/

set_option maxHeartbeats 1000000 in
/-- At the first block of a half: with the four inputs' buffers at their blocks and the output's at anything, the body
    runs to the end, gives the inputs back as they were, and leaves the output's buffer with a list of stores written
    into it (the whole block zeroed, then each of the two entries replaced by zero plus its masked sum); the list is
    what the run finds. -/
noncomputable def kernelRun1_A (c : Dev nD) (i : grid1.Coords) (arg2 : Memref sig .tc .vmem S256x4096 .f32) (harg2 : arg2.IsWhole) (arg3 : Memref sig .tc .vmem S256x2 .f32) (harg3 : arg3.IsWhole) (arg4 : Memref sig .tc .vmem S2x4096 .f32) (harg4 : arg4.IsWhole) (arg5 : Memref sig .tc .vmem S2x4096 .f32) (harg5 : arg5.IsWhole) (arg6 : Memref sig .tc .vmem S1x1x2 .f32) (harg6 : arg6.IsWhole) (hc0 : cond1_0 i)
    (x0 : Vec F S256x4096 .f32) (x1 : Vec F S256x2 .f32) (x2 : Vec F S2x4096 .f32) (x3 : Vec F S2x4096 .f32) :
    { L4 : List (View.Piece (Elt F) S1x1x2 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc1__kernelB_body i arg2 harg2 arg3 harg3 arg4 harg4 arg5 harg5 arg6 harg6) K } := by
  refine ⟨?_, fun E K => ?run⟩
  case run =>
    simp only [cc1__kernelB_body_eq_skeleton]; unfold cc1__kernelB_body_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

set_option maxHeartbeats 1000000 in
/-- At any later block of a half: the same, with the output's buffer entered at its running contents `xo4` (what the
    point before left: the buffer is not written back in between), each of its two entries replaced by itself plus the
    block's masked sum. -/
noncomputable def kernelRun1_B (c : Dev nD) (i : grid1.Coords) (arg2 : Memref sig .tc .vmem S256x4096 .f32) (harg2 : arg2.IsWhole) (arg3 : Memref sig .tc .vmem S256x2 .f32) (harg3 : arg3.IsWhole) (arg4 : Memref sig .tc .vmem S2x4096 .f32) (harg4 : arg4.IsWhole) (arg5 : Memref sig .tc .vmem S2x4096 .f32) (harg5 : arg5.IsWhole) (arg6 : Memref sig .tc .vmem S1x1x2 .f32) (harg6 : arg6.IsWhole) (hc0 : ¬cond1_0 i)
    (x0 : Vec F S256x4096 .f32) (x1 : Vec F S256x2 .f32) (x2 : Vec F S2x4096 .f32) (x3 : Vec F S2x4096 .f32) (xo4 : Vec F S1x1x2 .f32) :
    { L4 : List (View.Piece (Elt F) S1x1x2 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc1__kernelB_body i arg2 harg2 arg3 harg3 arg4 harg4 arg5 harg5 arg6 harg6) K } := by
  refine ⟨?_, fun E K => ?run⟩
  case run =>
    simp only [cc1__kernelB_body_eq_skeleton]; unfold cc1__kernelB_body_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Hand

end
-- ==== Proof.KI.R1Frame.lean ====
/-
  The second kernel region, continued: what its output's staging buffer holds after each grid point, the region's
  proof data, and the obligation the launch loop asks of the body at every point.
  The output block of a half of the batch is visited at that half's 16 points in a row and written back to its array
  only after the last of them. So what the buffer holds after point n is a recursion on n: at the first point of a half
  it is what the zeroing case leaves from the point's four input blocks; at any other point it is what the
  accumulating case leaves from the point's input blocks AND what the buffer held after point n - 1.
-/
import proofs.«179402_j71244917506189_2_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: a parameter here, fixed by the run
variable (V : (c : Dev nD) → (b : Ref sig .tc) → Buf (Elt F) ((c : Thread nD τ).loc b))

/-! ## What each case leaves in the output's buffer -/

/-- The zeroing case's stores cover the output block: cut into single entries they strike off both of them. -/
theorem cover1_A_4 (c : Dev nD) (i : grid1.Coords) (arg2 : Memref sig .tc .vmem S256x4096 .f32) (harg2 : arg2.IsWhole) (arg3 : Memref sig .tc .vmem S256x2 .f32) (harg3 : arg3.IsWhole) (arg4 : Memref sig .tc .vmem S2x4096 .f32) (harg4 : arg4.IsWhole) (arg5 : Memref sig .tc .vmem S2x4096 .f32) (harg5 : arg5.IsWhole) (arg6 : Memref sig .tc .vmem S1x1x2 .f32) (harg6 : arg6.IsWhole) (hc0 : cond1_0 i)
    (x0 : Vec F S256x4096 .f32) (x1 : Vec F S256x2 .f32) (x2 : Vec F S2x4096 .f32) (x3 : Vec F S2x4096 .f32) (y : S1x1x2.Idx) :
    ∃ pc ∈ (kernelRun1_A c i arg2 harg2 arg3 harg3 arg4 harg4 arg5 harg5 arg6 harg6 hc0 x0 x1 x2 x3).1, y ∈ pc.1.set :=
  View.cover_of_tiledBy (kernelRun1_A c i arg2 harg2 arg3 harg3 arg4 harg4 arg5 harg5 arg6 harg6 hc0 x0 x1 x2 x3).1 S1x1x1.size (by sl_kernel_rfl) y

/-- What the zeroing case leaves in the output's buffer: its stores read back. -/
def out1_A_4 (c : Dev nD) (i : grid1.Coords) (arg2 : Memref sig .tc .vmem S256x4096 .f32) (harg2 : arg2.IsWhole) (arg3 : Memref sig .tc .vmem S256x2 .f32) (harg3 : arg3.IsWhole) (arg4 : Memref sig .tc .vmem S2x4096 .f32) (harg4 : arg4.IsWhole) (arg5 : Memref sig .tc .vmem S2x4096 .f32) (harg5 : arg5.IsWhole) (arg6 : Memref sig .tc .vmem S1x1x2 .f32) (harg6 : arg6.IsWhole) (hc0 : cond1_0 i)
    (x0 : Vec F S256x4096 .f32) (x1 : Vec F S256x2 .f32) (x2 : Vec F S2x4096 .f32) (x3 : Vec F S2x4096 .f32) : Vec F S1x1x2 .f32 :=
  VO1_4.read (Elt F) (VO1_4.writes (Elt F) VO1_4.junk (kernelRun1_A c i arg2 harg2 arg3 harg3 arg4 harg4 arg5 harg5 arg6 harg6 hc0 x0 x1 x2 x3).1)

/-- The accumulating case's two single-entry stores tile the output block. -/
theorem cover1_B_4 (c : Dev nD) (i : grid1.Coords) (arg2 : Memref sig .tc .vmem S256x4096 .f32) (harg2 : arg2.IsWhole) (arg3 : Memref sig .tc .vmem S256x2 .f32) (harg3 : arg3.IsWhole) (arg4 : Memref sig .tc .vmem S2x4096 .f32) (harg4 : arg4.IsWhole) (arg5 : Memref sig .tc .vmem S2x4096 .f32) (harg5 : arg5.IsWhole) (arg6 : Memref sig .tc .vmem S1x1x2 .f32) (harg6 : arg6.IsWhole) (hc0 : ¬cond1_0 i)
    (x0 : Vec F S256x4096 .f32) (x1 : Vec F S256x2 .f32) (x2 : Vec F S2x4096 .f32) (x3 : Vec F S2x4096 .f32) (xo4 : Vec F S1x1x2 .f32) (y : S1x1x2.Idx) :
    ∃ pc ∈ (kernelRun1_B c i arg2 harg2 arg3 harg3 arg4 harg4 arg5 harg5 arg6 harg6 hc0 x0 x1 x2 x3 xo4).1, y ∈ pc.1.set :=
  View.cover_of_tiledL (kernelRun1_B c i arg2 harg2 arg3 harg3 arg4 harg4 arg5 harg5 arg6 harg6 hc0 x0 x1 x2 x3 xo4).1 S1x1x1.size (by sl_kernel_rfl) y

/-- What the accumulating case leaves in the output's buffer, entered at `xo4`: its stores read back. -/
def out1_B_4 (c : Dev nD) (i : grid1.Coords) (arg2 : Memref sig .tc .vmem S256x4096 .f32) (harg2 : arg2.IsWhole) (arg3 : Memref sig .tc .vmem S256x2 .f32) (harg3 : arg3.IsWhole) (arg4 : Memref sig .tc .vmem S2x4096 .f32) (harg4 : arg4.IsWhole) (arg5 : Memref sig .tc .vmem S2x4096 .f32) (harg5 : arg5.IsWhole) (arg6 : Memref sig .tc .vmem S1x1x2 .f32) (harg6 : arg6.IsWhole) (hc0 : ¬cond1_0 i)
    (x0 : Vec F S256x4096 .f32) (x1 : Vec F S256x2 .f32) (x2 : Vec F S2x4096 .f32) (x3 : Vec F S2x4096 .f32) (xo4 : Vec F S1x1x2 .f32) : Vec F S1x1x2 .f32 :=
  VO1_4.read (Elt F) (VO1_4.writes (Elt F) VO1_4.junk (kernelRun1_B c i arg2 harg2 arg3 harg3 arg4 harg4 arg5 harg5 arg6 harg6 hc0 x0 x1 x2 x3 xo4).1)

/-! ## The output's buffer after each point -/

/-- What the output's staging buffer holds after the body at point `n`: zeroing case at the first point of a half,
    accumulating case over what point `n - 1` left everywhere else. -/
def outsAt1 (c : Dev nD) : (n : ℕ) → n < cfg1.N → Vec F S1x1x2 .f32
  | 0, hn => out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩)
  | n + 1, hn =>
    if h0 : (n + 1) % 16 = 0 then
      out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩)
    else
      out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn))

/-- At the first point of a half. -/
theorem outsAt1_A (c : Dev nD) (t : Fin cfg1.N) (h0 : t.val % 16 = 0) :
    outsAt1 V c t.val t.isLt = out1_A_4 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t) (iblk1 V c 2 t) (iblk1 V c 3 t) := by
  obtain ⟨n, hn⟩ := t
  cases n with
  | zero => exact rfl
  | succ n => exact (dif_pos h0).trans rfl

/-- At any other point: over what the point before left. -/
theorem outsAt1_B (c : Dev nD) (t : Fin cfg1.N) (h0 : ¬t.val % 16 = 0) :
    outsAt1 V c t.val t.isLt = out1_B_4 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The region's proof data -/

/-- On core `c`: the five arrays as the region finds them; after the body at point `t` each input's buffer still at
    its block and the output's at `outsAt1`; the invariant between points is the launch loop's own (the buffers no
    operand is staged through, the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outsAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- At a point that is not the first of a half the output's buffer still holds what the body left at the point
    before: it is written back only after the 16th point of a half. -/
theorem before1_4_B (c : Dev nD) (t : Fin cfg1.N) (h0 : ¬t.val % 16 = 0) (d) :
    (dat1 V c).before 4 t d = outsAt1 V c (t.val - 1) (Nat.lt_of_le_of_lt (Nat.sub_le _ _) t.isLt) := by
  have hN : t.val < 32 := lt_of_lt_of_eq t.isLt (show cfg1.N = 32 from N_1)
  rw [Dat.before_out_kept _ 4 rfl t (by omega) (Bool.eq_false_iff.mpr fun h => by have := (flush1_4 _).mp h; dsimp only at this; omega)
    (fun _ => rfl) (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 1600000 in
/-- The body at any point: the inputs' buffers hold their blocks; the point is the first of its half or not; in the
    second case the output's buffer holds what the point before left; so the case's run applies, and what it leaves is
    `outsAt1` at this point. The invariant passes through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  have hN : t.val < 32 := lt_of_lt_of_eq t.isLt (show cfg1.N = 32 from N_1)
  by_cases h0 : t.val % 16 = 0
  · rw [outsAt1_A V c t h0]
    unfold out1_A_4
    iintro ⟨HΦ, Ho, ⟨%d0, H0⟩, ⟨%d1, H1⟩, ⟨%d2, H2⟩, ⟨%d3, H3⟩, ⟨%d4, H4⟩⟩
    iapply ((kernelRun1_A c (grid1.coords t) _ _ _ _ _ _ _ _ _ _ ((hcond1_0 t).mpr h0) (iblk1 V c 0 t) (iblk1 V c 1 t) (iblk1 V c 2 t) (iblk1 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_A_4 c _ _ _ _ _ _ _ _ _ _ _ _ _ _ _ _)
  · rw [outsAt1_B V c t h0]
    simp only [before1_4_B V c t h0]
    unfold out1_B_4
    iintro ⟨HΦ, Ho, ⟨%d0, H0⟩, ⟨%d1, H1⟩, ⟨%d2, H2⟩, ⟨%d3, H3⟩, ⟨%d4, H4⟩⟩
    iapply ((kernelRun1_B c (grid1.coords t) _ _ _ _ _ _ _ _ _ _ (fun h => h0 ((hcond1_0 t).mp h)) (iblk1 V c 0 t) (iblk1 V c 1 t) (iblk1 V c 2 t) (iblk1 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B_4 c _ _ _ _ _ _ _ _ _ _ _ _ _ _ _ _ _)

/-- The launch loop's obligation on the body, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole program as a run. @main is five items in a row: a stretch of host operations (the class masks, the
  counts, the per-class means of logdet), the first kernel region, a second stretch (the per-class means and
  log-deviations from the region's sums, the inverse variances, the constant term), the second kernel region, and a
  last stretch (the per-class log-densities and their mean). Between two items the core holds every unscoped buffer
  at a known valuation: the launch contents, then the host operations' results folded in, then a region's five arrays
  at what its launch loop leaves in them (the inputs as entered, each output's write-backs folded) and every other
  buffer as before. Each region is a record around its body obligation; the run ends with every unscoped buffer at
  the last valuation, from which both the frame claim (the arguments as launched) and the results are read.
-/
import proofs.«179402_j71244917506189_2_alg».proof.Proof.KI.R0Frame
import proofs.«179402_j71244917506189_2_alg».proof.Proof.KI.R1Frame
import proofs.«179402_j71244917506189_2_alg».proof.Proof.Gen.KernelIdeal.Regions
import Idealize.ShloMosaic.Lib.Pipeline.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the launch loop leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the second host stretch (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the last host stretch: the end. -/
abbrev W5 : Dev nD → Valuation τ sig (Elt F) := fun c => StableHlo.after hostOps2 (W4 m ρ c)

/-! ## The arguments end as launched -/

/-- No host operation and no region writes `main_arg0`: the last valuation has it as launched. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
/-- No host operation and no region writes `main_arg1`: the last valuation has it as launched. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_writes_sub hostOps0 _ hostOps0_writes (by decide)
    _ = m ((c : Thread nD τ).loc main_arg1) := rfl
/-- No host operation and no region writes `main_arg2`: the last valuation has it as launched. -/
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_writes_sub hostOps0 _ hostOps0_writes (by decide)
    _ = m ((c : Thread nD τ).loc main_arg2) := rfl
/-- No host operation and no region writes `main_arg3`: the last valuation has it as launched. -/
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
/-- No host operation and no region writes `main_arg4`: the last valuation has it as launched. -/
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-! ## The proof data family and the thread state -/

/-- Both regions' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's debts, none. -/
abbrev R (c : Dev nD) : sProp 𝕄 := iprop((∃ r, prngReg c r) ∗ ∃ W, owes (c : Thread nD τ) (0 : CellTallies nD τ sig Unit) W)
/-- A host stretch as an item: its operations run over the unscoped buffers from `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last valuation, the register at some state. -/
abbrev Tₙ (c : Dev nD) : sProp 𝕄 := iprop(StableHlo.held (c : Thread nD τ) (Pipeline.ucRefs τ sig) (W5 m ρ c) ∗ ∃ r, prngReg c r)

/-! ## The regions as items -/

-- `iapply` of a library lemma stated over the pinned configuration unifies only when unification may unfold plain
-- definitions in a metavariable's type
set_option backward.isDefEq.respectTransparency.types false in
/-- Region 0 over the thread state: entered from every unscoped buffer at `W1`, left at `W2`. Its five arrays are
    split out of the unscoped buffers on the way in and put back at their exit contents on the way out; the generator
    register goes into the invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]
    unfold Pipeline.ΦA
    iintro ⟨Hp, -, Hr⟩
    isplitl [Hr]; · iexact Hr
    iexact Hp
  hout c := by
    rw [Pipeline.ownSems0_none]
    have hA : (Pipeline.ΦA spec0 c : sProp 𝕄) ⊢ iprop((∃ r, prngReg c r) ∗ BI.emp ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (V1 m ρ) c).trans hA
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- Region 1 over the thread state: entered from every unscoped buffer at `W3`, left at `W4`. Its five arrays are
    split out of the unscoped buffers on the way in and put back at their exit contents on the way out; the generator
    register goes into the invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]
    unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its items, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

-- the launch theorem's implicit arguments are found by unifying its conclusion with this one, which takes unfolding plain
-- definitions in a metavariable's type
set_option backward.isDefEq.respectTransparency.types false in
/-- From any memory with zero counters every weakly fair execution of @main terminates, nothing faulting, and in every
    final state each unscoped buffer of each core holds the last valuation's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame claim, at any float instance: the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run_all m ρ)

end Cert.KernelIdeal.Hand

end
-- ==== Proof.KIB.R0Runs.lean ====
/-
  The first kernel region (the pass over mean and log_sd). Its grid is 4 x 8: the first coordinate picks one of four
  blocks of 1024 columns, the second one of eight blocks of 1024 rows. At a point the body reads the 1024 x 1024
  blocks of the two big operands and the 1024 x 2 block of the two class masks, and adds, for each operand and each
  class, the block's masked column sums to a 2 x 1024 accumulator that lives in a scratch buffer of the kernel's own:
  the accumulators are set to zero at the first row block of a column block, and copied to the two 2 x 1024 output
  blocks at the last one. The outputs' block index depends only on the column block, so an output block is stored
  once, at the eighth point of its sweep, and is left alone at the other seven.
  This module fixes what a block of an operand is at a point, decides over the grid where the two branches are taken,
  says at which points the outputs are left alone, and runs the body in each of the three cases that occur.
-/
import proofs.«179402_j71244917506189_2_alg».proof.Proof.Gen.Kernel.Launch
import proofs.«179402_j71244917506189_2_alg».proof.Proof.Gen.Kernel.Skeleton
import proofs.«179402_j71244917506189_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: a parameter here, fixed by the run
variable (V : (c : Dev nD) → (b : Ref sig .tc) → Buf (Elt F) ((c : Thread nD τ).loc b))

/-! ## The operands' blocks -/

/-- Operand `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input operand 0's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input operand 1's current staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input operand 2's current staging buffer holds its block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The two branches -/

/-- The first branch: the second grid coordinate is zero (the first row block of a column block). -/
abbrev cond0_0 (i : grid0.Coords) : Prop := (Scalar.cmpi .ne (Scalar.extui (Scalar.cmpi .eq (BitVec.ofNat 32 (i 1).val) 0#32)) 0#32) = 1#1
/-- Points are numbered column block by column block, 8 to each: the first branch is taken at the points divisible by 8. -/
theorem hcond0_0 : ∀ t : Fin cfg0.N, cond0_0 (grid0.coords t) ↔ t.val % 8 = 0 :=
  (by decide +kernel : ∀ t : Fin grid0.N, cond0_0 (grid0.coords t) ↔ t.val % 8 = 0)
/-- The second branch: the second grid coordinate is seven (the last row block of a column block). -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the outputs are left alone -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last row block the body stores nothing into output 3, and its block is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last row block it does. -/
theorem liveAt0_3_C : ∀ t : Fin cfg0.N, cond0_1 (grid0.coords t) → cfg0.idle 3 (grid0.coords t) = false := by decide +kernel
/-- Away from the last row block the body stores nothing into output 4, and its block is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last row block it does. -/
theorem liveAt0_4_C : ∀ t : Fin cfg0.N, cond0_1 (grid0.coords t) → cfg0.idle 4 (grid0.coords t) = false := by decide +kernel

/-! ## The buffers the body is called with -/

abbrev VO0_3 : View sig .tc .vmem S2x1024 .f32 := (Memref.whole cc0_stg3_0 : Memref sig .tc .vmem S2x1024 .f32).view
abbrev VO0_4 : View sig .tc .vmem S2x1024 .f32 := (Memref.whole cc0_stg4_0 : Memref sig .tc .vmem S2x1024 .f32).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x1024 .f32 := win0_4.stage (cfg0.slots t 4)
abbrev hs0_4 (t : Fin cfg0.N) : (ms0_4 t).IsWhole := hstage0_4 ((cfg0.slots t 4).cast nbuf0_4)
/-- The two accumulators: whole buffers of the kernel's own, passed beside the staged operands. -/
abbrev scM0_0 : Memref sig .tc .vmem S2x1024 .f32 := Memref.whole cc0_scratch0
abbrev scM0_1 : Memref sig .tc .vmem S2x1024 .f32 := Memref.whole cc0_scratch1
abbrev VS0_0 : View sig .tc .vmem S2x1024 .f32 := scM0_0.view
abbrev VS0_1 : View sig .tc .vmem S2x1024 .f32 := scM0_1.view

/-! ## The body, case by case -/

set_option maxHeartbeats 2000000 in
/-- At the first row block of a column block: inputs at their blocks, the two outputs at contents handed back
    untouched, the two accumulators at anything. The body zeroes each accumulator and stores zero plus the block's masked
    column sums into it; the lists of stores into the accumulators are what the run finds. -/
noncomputable def kernelRun0_A (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x2 .f32) (harg4 : arg4.IsWhole) (arg5 : Memref sig .tc .vmem S2x1024 .f32) (harg5 : arg5.IsWhole) (arg6 : Memref sig .tc .vmem S2x1024 .f32) (harg6 : arg6.IsWhole) (arg7 : Memref sig .tc .vmem S2x1024 .f32) (harg7 : arg7.IsWhole) (arg8 : Memref sig .tc .vmem S2x1024 .f32) (harg8 : arg8.IsWhole) (hc0 : cond0_0 i) (hc1 : ¬cond0_1 i)
    (x0 : Vec F S1024x1024 .f32) (x1 : Vec F S1024x1024 .f32) (x2 : Vec F S1024x2 .f32) :
    Σ' (L3 : List (View.Piece (Elt F) S2x1024 .f32)) (L4 : List (View.Piece (Elt F) S2x1024 .f32)) (LS0 : List (View.Piece (Elt F) S2x1024 .f32)), { LS1 : List (View.Piece (Elt F) S2x1024 .f32) //
      ∀ (xi3 : Vec F S2x1024 .f32) (xi4 : Vec F S2x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__kernelA_body i arg2 harg2 arg3 harg3 arg4 harg4 arg5 harg5 arg6 harg6 arg7 harg7 arg8 harg8) K } := by
  refine ⟨[], [], ?_, ?_, fun xi3 xi4 E K => ?run⟩
  case run =>
    simp only [cc0__kernelA_body_eq_skeleton]; unfold cc0__kernelA_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

set_option maxHeartbeats 2000000 in
/-- At a row block that is neither first nor last: the same, with the accumulators entered at what the point before
    left in them (`xs0`, `xs1`), each replaced by itself plus the block's masked column sums. -/
noncomputable def kernelRun0_B (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x2 .f32) (harg4 : arg4.IsWhole) (arg5 : Memref sig .tc .vmem S2x1024 .f32) (harg5 : arg5.IsWhole) (arg6 : Memref sig .tc .vmem S2x1024 .f32) (harg6 : arg6.IsWhole) (arg7 : Memref sig .tc .vmem S2x1024 .f32) (harg7 : arg7.IsWhole) (arg8 : Memref sig .tc .vmem S2x1024 .f32) (harg8 : arg8.IsWhole) (hc0 : ¬cond0_0 i) (hc1 : ¬cond0_1 i)
    (x0 : Vec F S1024x1024 .f32) (x1 : Vec F S1024x1024 .f32) (x2 : Vec F S1024x2 .f32) (xs0 : Vec F S2x1024 .f32) (xs1 : Vec F S2x1024 .f32) :
    Σ' (L3 : List (View.Piece (Elt F) S2x1024 .f32)) (L4 : List (View.Piece (Elt F) S2x1024 .f32)) (LS0 : List (View.Piece (Elt F) S2x1024 .f32)), { LS1 : List (View.Piece (Elt F) S2x1024 .f32) //
      ∀ (xi3 : Vec F S2x1024 .f32) (xi4 : Vec F S2x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__kernelA_body i arg2 harg2 arg3 harg3 arg4 harg4 arg5 harg5 arg6 harg6 arg7 harg7 arg8 harg8) K } := by
  refine ⟨[], [], ?_, ?_, fun xi3 xi4 E K => ?run⟩
  case run =>
    simp only [cc0__kernelA_body_eq_skeleton]; unfold cc0__kernelA_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

set_option maxHeartbeats 2000000 in
/-- At the last row block of a column block: the accumulators entered at what the point before left, the outputs'
    buffers at anything; after the accumulation each output's buffer is stored whole with its accumulator. -/
noncomputable def kernelRun0_C (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x2 .f32) (harg4 : arg4.IsWhole) (arg5 : Memref sig .tc .vmem S2x1024 .f32) (harg5 : arg5.IsWhole) (arg6 : Memref sig .tc .vmem S2x1024 .f32) (harg6 : arg6.IsWhole) (arg7 : Memref sig .tc .vmem S2x1024 .f32) (harg7 : arg7.IsWhole) (arg8 : Memref sig .tc .vmem S2x1024 .f32) (harg8 : arg8.IsWhole) (hc0 : ¬cond0_0 i) (hc1 : cond0_1 i)
    (x0 : Vec F S1024x1024 .f32) (x1 : Vec F S1024x1024 .f32) (x2 : Vec F S1024x2 .f32) (xs0 : Vec F S2x1024 .f32) (xs1 : Vec F S2x1024 .f32) :
    Σ' (L3 : List (View.Piece (Elt F) S2x1024 .f32)) (L4 : List (View.Piece (Elt F) S2x1024 .f32)) (LS0 : List (View.Piece (Elt F) S2x1024 .f32)), { LS1 : List (View.Piece (Elt F) S2x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__kernelA_body i arg2 harg2 arg3 harg3 arg4 harg4 arg5 harg5 arg6 harg6 arg7 harg7 arg8 harg8) K } := by
  refine ⟨?_, ?_, ?_, ?_, fun E K => ?run⟩
  case run =>
    simp only [cc0__kernelA_body_eq_skeleton]; unfold cc0__kernelA_body_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

end Cert.Kernel.Hand

end
-- ==== Proof.KIB.R0Frame.lean ====
/-
  The first kernel region, continued: what its two outputs' staging buffers and its two accumulators hold after
  each grid point, the invariant that carries the accumulators from one point to the next, the region's proof data,
  and the obligation the launch loop asks of the body at every point.
  The accumulators are buffers of the kernel's own that no operand is staged through, so between two points nothing
  but the invariant can say what they hold: before the first point they hold anything; after point n they hold what
  the body left there, a recursion on n (zeroing case at the first row block of a column block, accumulating cases
  over what point n - 1 left elsewhere). An output's buffer is stored only at the last row block of a column block,
  with the accumulator's contents, and written back to its array right after; at the other points it is left alone.
-/
import proofs.«179402_j71244917506189_2_alg».proof.Proof.KIB.R0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: a parameter here, fixed by the run
variable (V : (c : Dev nD) → (b : Ref sig .tc) → Buf (Elt F) ((c : Thread nD τ).loc b))

/-! ## What each case leaves -/

/-- Case A: the stores into the first accumulator cover it (each is of the whole buffer). -/
theorem scover0_A_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x2 .f32) (harg4 : arg4.IsWhole) (arg5 : Memref sig .tc .vmem S2x1024 .f32) (harg5 : arg5.IsWhole) (arg6 : Memref sig .tc .vmem S2x1024 .f32) (harg6 : arg6.IsWhole) (arg7 : Memref sig .tc .vmem S2x1024 .f32) (harg7 : arg7.IsWhole) (arg8 : Memref sig .tc .vmem S2x1024 .f32) (harg8 : arg8.IsWhole) (hc0 : cond0_0 i) (hc1 : ¬cond0_1 i)
    (x0 : Vec F S1024x1024 .f32) (x1 : Vec F S1024x1024 .f32) (x2 : Vec F S1024x2 .f32) (y : S2x1024.Idx) :
    ∃ pc ∈ (kernelRun0_A c i arg2 harg2 arg3 harg3 arg4 harg4 arg5 harg5 arg6 harg6 arg7 harg7 arg8 harg8 hc0 hc1 x0 x1 x2).2.2.1, y ∈ pc.1.set :=
  View.cover_of_tiledL (kernelRun0_A c i arg2 harg2 arg3 harg3 arg4 harg4 arg5 harg5 arg6 harg6 arg7 harg7 arg8 harg8 hc0 hc1 x0 x1 x2).2.2.1 S2x1024.size (by sl_kernel_rfl) y
/-- Case A: what the body leaves in the first accumulator. -/
def sout0_A_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x2 .f32) (harg4 : arg4.IsWhole) (arg5 : Memref sig .tc .vmem S2x1024 .f32) (harg5 : arg5.IsWhole) (arg6 : Memref sig .tc .vmem S2x1024 .f32) (harg6 : arg6.IsWhole) (arg7 : Memref sig .tc .vmem S2x1024 .f32) (harg7 : arg7.IsWhole) (arg8 : Memref sig .tc .vmem S2x1024 .f32) (harg8 : arg8.IsWhole) (hc0 : cond0_0 i) (hc1 : ¬cond0_1 i)
    (x0 : Vec F S1024x1024 .f32) (x1 : Vec F S1024x1024 .f32) (x2 : Vec F S1024x2 .f32) : Vec F S2x1024 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2).2.2.1)
/-- Case A: the stores into the second accumulator cover it. -/
theorem scover0_A_1 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x2 .f32) (harg4 : arg4.IsWhole) (arg5 : Memref sig .tc .vmem S2x1024 .f32) (harg5 : arg5.IsWhole) (arg6 : Memref sig .tc .vmem S2x1024 .f32) (harg6 : arg6.IsWhole) (arg7 : Memref sig .tc .vmem S2x1024 .f32) (harg7 : arg7.IsWhole) (arg8 : Memref sig .tc .vmem S2x1024 .f32) (harg8 : arg8.IsWhole) (hc0 : cond0_0 i) (hc1 : ¬cond0_1 i)
    (x0 : Vec F S1024x1024 .f32) (x1 : Vec F S1024x1024 .f32) (x2 : Vec F S1024x2 .f32) (y : S2x1024.Idx) :
    ∃ pc ∈ (kernelRun0_A c i arg2 harg2 arg3 harg3 arg4 harg4 arg5 harg5 arg6 harg6 arg7 harg7 arg8 harg8 hc0 hc1 x0 x1 x2).2.2.2.1, y ∈ pc.1.set :=
  View.cover_of_tiledL (kernelRun0_A c i arg2 harg2 arg3 harg3 arg4 harg4 arg5 harg5 arg6 harg6 arg7 harg7 arg8 harg8 hc0 hc1 x0 x1 x2).2.2.2.1 S2x1024.size (by sl_kernel_rfl) y
/-- Case A: what the body leaves in the second accumulator. -/
def sout0_A_1 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x2 .f32) (harg4 : arg4.IsWhole) (arg5 : Memref sig .tc .vmem S2x1024 .f32) (harg5 : arg5.IsWhole) (arg6 : Memref sig .tc .vmem S2x1024 .f32) (harg6 : arg6.IsWhole) (arg7 : Memref sig .tc .vmem S2x1024 .f32) (harg7 : arg7.IsWhole) (arg8 : Memref sig .tc .vmem S2x1024 .f32) (harg8 : arg8.IsWhole) (hc0 : cond0_0 i) (hc1 : ¬cond0_1 i)
    (x0 : Vec F S1024x1024 .f32) (x1 : Vec F S1024x1024 .f32) (x2 : Vec F S1024x2 .f32) : Vec F S2x1024 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1 x2).2.2.2.1)

/-- Case B: the stores into the first accumulator cover it (each is of the whole buffer). -/
theorem scover0_B_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x2 .f32) (harg4 : arg4.IsWhole) (arg5 : Memref sig .tc .vmem S2x1024 .f32) (harg5 : arg5.IsWhole) (arg6 : Memref sig .tc .vmem S2x1024 .f32) (harg6 : arg6.IsWhole) (arg7 : Memref sig .tc .vmem S2x1024 .f32) (harg7 : arg7.IsWhole) (arg8 : Memref sig .tc .vmem S2x1024 .f32) (harg8 : arg8.IsWhole) (hc0 : ¬cond0_0 i) (hc1 : ¬cond0_1 i)
    (x0 : Vec F S1024x1024 .f32) (x1 : Vec F S1024x1024 .f32) (x2 : Vec F S1024x2 .f32) (xs0 : Vec F S2x1024 .f32) (xs1 : Vec F S2x1024 .f32) (y : S2x1024.Idx) :
    ∃ pc ∈ (kernelRun0_B c i arg2 harg2 arg3 harg3 arg4 harg4 arg5 harg5 arg6 harg6 arg7 harg7 arg8 harg8 hc0 hc1 x0 x1 x2 xs0 xs1).2.2.1, y ∈ pc.1.set :=
  View.cover_of_tiledL (kernelRun0_B c i arg2 harg2 arg3 harg3 arg4 harg4 arg5 harg5 arg6 harg6 arg7 harg7 arg8 harg8 hc0 hc1 x0 x1 x2 xs0 xs1).2.2.1 S2x1024.size (by sl_kernel_rfl) y
/-- Case B: what the body leaves in the first accumulator. -/
def sout0_B_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x2 .f32) (harg4 : arg4.IsWhole) (arg5 : Memref sig .tc .vmem S2x1024 .f32) (harg5 : arg5.IsWhole) (arg6 : Memref sig .tc .vmem S2x1024 .f32) (harg6 : arg6.IsWhole) (arg7 : Memref sig .tc .vmem S2x1024 .f32) (harg7 : arg7.IsWhole) (arg8 : Memref sig .tc .vmem S2x1024 .f32) (harg8 : arg8.IsWhole) (hc0 : ¬cond0_0 i) (hc1 : ¬cond0_1 i)
    (x0 : Vec F S1024x1024 .f32) (x1 : Vec F S1024x1024 .f32) (x2 : Vec F S1024x2 .f32) (xs0 : Vec F S2x1024 .f32) (xs1 : Vec F S2x1024 .f32) : Vec F S2x1024 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 xs0 xs1).2.2.1)
/-- Case B: the stores into the second accumulator cover it. -/
theorem scover0_B_1 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x2 .f32) (harg4 : arg4.IsWhole) (arg5 : Memref sig .tc .vmem S2x1024 .f32) (harg5 : arg5.IsWhole) (arg6 : Memref sig .tc .vmem S2x1024 .f32) (harg6 : arg6.IsWhole) (arg7 : Memref sig .tc .vmem S2x1024 .f32) (harg7 : arg7.IsWhole) (arg8 : Memref sig .tc .vmem S2x1024 .f32) (harg8 : arg8.IsWhole) (hc0 : ¬cond0_0 i) (hc1 : ¬cond0_1 i)
    (x0 : Vec F S1024x1024 .f32) (x1 : Vec F S1024x1024 .f32) (x2 : Vec F S1024x2 .f32) (xs0 : Vec F S2x1024 .f32) (xs1 : Vec F S2x1024 .f32) (y : S2x1024.Idx) :
    ∃ pc ∈ (kernelRun0_B c i arg2 harg2 arg3 harg3 arg4 harg4 arg5 harg5 arg6 harg6 arg7 harg7 arg8 harg8 hc0 hc1 x0 x1 x2 xs0 xs1).2.2.2.1, y ∈ pc.1.set :=
  View.cover_of_tiledL (kernelRun0_B c i arg2 harg2 arg3 harg3 arg4 harg4 arg5 harg5 arg6 harg6 arg7 harg7 arg8 harg8 hc0 hc1 x0 x1 x2 xs0 xs1).2.2.2.1 S2x1024.size (by sl_kernel_rfl) y
/-- Case B: what the body leaves in the second accumulator. -/
def sout0_B_1 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x2 .f32) (harg4 : arg4.IsWhole) (arg5 : Memref sig .tc .vmem S2x1024 .f32) (harg5 : arg5.IsWhole) (arg6 : Memref sig .tc .vmem S2x1024 .f32) (harg6 : arg6.IsWhole) (arg7 : Memref sig .tc .vmem S2x1024 .f32) (harg7 : arg7.IsWhole) (arg8 : Memref sig .tc .vmem S2x1024 .f32) (harg8 : arg8.IsWhole) (hc0 : ¬cond0_0 i) (hc1 : ¬cond0_1 i)
    (x0 : Vec F S1024x1024 .f32) (x1 : Vec F S1024x1024 .f32) (x2 : Vec F S1024x2 .f32) (xs0 : Vec F S2x1024 .f32) (xs1 : Vec F S2x1024 .f32) : Vec F S2x1024 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 x2 xs0 xs1).2.2.2.1)

/-- Case C: the stores into the first accumulator cover it (each is of the whole buffer). -/
theorem scover0_C_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x2 .f32) (harg4 : arg4.IsWhole) (arg5 : Memref sig .tc .vmem S2x1024 .f32) (harg5 : arg5.IsWhole) (arg6 : Memref sig .tc .vmem S2x1024 .f32) (harg6 : arg6.IsWhole) (arg7 : Memref sig .tc .vmem S2x1024 .f32) (harg7 : arg7.IsWhole) (arg8 : Memref sig .tc .vmem S2x1024 .f32) (harg8 : arg8.IsWhole) (hc0 : ¬cond0_0 i) (hc1 : cond0_1 i)
    (x0 : Vec F S1024x1024 .f32) (x1 : Vec F S1024x1024 .f32) (x2 : Vec F S1024x2 .f32) (xs0 : Vec F S2x1024 .f32) (xs1 : Vec F S2x1024 .f32) (y : S2x1024.Idx) :
    ∃ pc ∈ (kernelRun0_C c i arg2 harg2 arg3 harg3 arg4 harg4 arg5 harg5 arg6 harg6 arg7 harg7 arg8 harg8 hc0 hc1 x0 x1 x2 xs0 xs1).2.2.1, y ∈ pc.1.set :=
  View.cover_of_tiledL (kernelRun0_C c i arg2 harg2 arg3 harg3 arg4 harg4 arg5 harg5 arg6 harg6 arg7 harg7 arg8 harg8 hc0 hc1 x0 x1 x2 xs0 xs1).2.2.1 S2x1024.size (by sl_kernel_rfl) y
/-- Case C: what the body leaves in the first accumulator. -/
def sout0_C_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x2 .f32) (harg4 : arg4.IsWhole) (arg5 : Memref sig .tc .vmem S2x1024 .f32) (harg5 : arg5.IsWhole) (arg6 : Memref sig .tc .vmem S2x1024 .f32) (harg6 : arg6.IsWhole) (arg7 : Memref sig .tc .vmem S2x1024 .f32) (harg7 : arg7.IsWhole) (arg8 : Memref sig .tc .vmem S2x1024 .f32) (harg8 : arg8.IsWhole) (hc0 : ¬cond0_0 i) (hc1 : cond0_1 i)
    (x0 : Vec F S1024x1024 .f32) (x1 : Vec F S1024x1024 .f32) (x2 : Vec F S1024x2 .f32) (xs0 : Vec F S2x1024 .f32) (xs1 : Vec F S2x1024 .f32) : Vec F S2x1024 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 xs0 xs1).2.2.1)
/-- Case C: the stores into the second accumulator cover it. -/
theorem scover0_C_1 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x2 .f32) (harg4 : arg4.IsWhole) (arg5 : Memref sig .tc .vmem S2x1024 .f32) (harg5 : arg5.IsWhole) (arg6 : Memref sig .tc .vmem S2x1024 .f32) (harg6 : arg6.IsWhole) (arg7 : Memref sig .tc .vmem S2x1024 .f32) (harg7 : arg7.IsWhole) (arg8 : Memref sig .tc .vmem S2x1024 .f32) (harg8 : arg8.IsWhole) (hc0 : ¬cond0_0 i) (hc1 : cond0_1 i)
    (x0 : Vec F S1024x1024 .f32) (x1 : Vec F S1024x1024 .f32) (x2 : Vec F S1024x2 .f32) (xs0 : Vec F S2x1024 .f32) (xs1 : Vec F S2x1024 .f32) (y : S2x1024.Idx) :
    ∃ pc ∈ (kernelRun0_C c i arg2 harg2 arg3 harg3 arg4 harg4 arg5 harg5 arg6 harg6 arg7 harg7 arg8 harg8 hc0 hc1 x0 x1 x2 xs0 xs1).2.2.2.1, y ∈ pc.1.set :=
  View.cover_of_tiledL (kernelRun0_C c i arg2 harg2 arg3 harg3 arg4 harg4 arg5 harg5 arg6 harg6 arg7 harg7 arg8 harg8 hc0 hc1 x0 x1 x2 xs0 xs1).2.2.2.1 S2x1024.size (by sl_kernel_rfl) y
/-- Case C: what the body leaves in the second accumulator. -/
def sout0_C_1 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x2 .f32) (harg4 : arg4.IsWhole) (arg5 : Memref sig .tc .vmem S2x1024 .f32) (harg5 : arg5.IsWhole) (arg6 : Memref sig .tc .vmem S2x1024 .f32) (harg6 : arg6.IsWhole) (arg7 : Memref sig .tc .vmem S2x1024 .f32) (harg7 : arg7.IsWhole) (arg8 : Memref sig .tc .vmem S2x1024 .f32) (harg8 : arg8.IsWhole) (hc0 : ¬cond0_0 i) (hc1 : cond0_1 i)
    (x0 : Vec F S1024x1024 .f32) (x1 : Vec F S1024x1024 .f32) (x2 : Vec F S1024x2 .f32) (xs0 : Vec F S2x1024 .f32) (xs1 : Vec F S2x1024 .f32) : Vec F S2x1024 .f32 :=
  VS0_1.read (Elt F) (VS0_1.writes (Elt F) VS0_1.junk (kernelRun0_C c i arg2 harg2 arg3 harg3 arg4 harg4 arg5 harg5 arg6 harg6 arg7 harg7 arg8 harg8 hc0 hc1 x0 x1 x2 xs0 xs1).2.2.2.1)

/-- At the last row block the one store into the first output covers its block. -/
theorem cover0_C_3 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x2 .f32) (harg4 : arg4.IsWhole) (arg5 : Memref sig .tc .vmem S2x1024 .f32) (harg5 : arg5.IsWhole) (arg6 : Memref sig .tc .vmem S2x1024 .f32) (harg6 : arg6.IsWhole) (arg7 : Memref sig .tc .vmem S2x1024 .f32) (harg7 : arg7.IsWhole) (arg8 : Memref sig .tc .vmem S2x1024 .f32) (harg8 : arg8.IsWhole) (hc0 : ¬cond0_0 i) (hc1 : cond0_1 i)
    (x0 : Vec F S1024x1024 .f32) (x1 : Vec F S1024x1024 .f32) (x2 : Vec F S1024x2 .f32) (xs0 : Vec F S2x1024 .f32) (xs1 : Vec F S2x1024 .f32) (y : S2x1024.Idx) :
    ∃ pc ∈ (kernelRun0_C c i arg2 harg2 arg3 harg3 arg4 harg4 arg5 harg5 arg6 harg6 arg7 harg7 arg8 harg8 hc0 hc1 x0 x1 x2 xs0 xs1).1, y ∈ pc.1.set :=
  View.cover_of_tiledL (kernelRun0_C c i arg2 harg2 arg3 harg3 arg4 harg4 arg5 harg5 arg6 harg6 arg7 harg7 arg8 harg8 hc0 hc1 x0 x1 x2 xs0 xs1).1 S2x1024.size (by sl_kernel_rfl) y
def out0_C_3 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x2 .f32) (harg4 : arg4.IsWhole) (arg5 : Memref sig .tc .vmem S2x1024 .f32) (harg5 : arg5.IsWhole) (arg6 : Memref sig .tc .vmem S2x1024 .f32) (harg6 : arg6.IsWhole) (arg7 : Memref sig .tc .vmem S2x1024 .f32) (harg7 : arg7.IsWhole) (arg8 : Memref sig .tc .vmem S2x1024 .f32) (harg8 : arg8.IsWhole) (hc0 : ¬cond0_0 i) (hc1 : cond0_1 i)
    (x0 : Vec F S1024x1024 .f32) (x1 : Vec F S1024x1024 .f32) (x2 : Vec F S1024x2 .f32) (xs0 : Vec F S2x1024 .f32) (xs1 : Vec F S2x1024 .f32) : Vec F S2x1024 .f32 :=
  VO0_3.read (Elt F) (VO0_3.writes (Elt F) VO0_3.junk (kernelRun0_C c i arg2 harg2 arg3 harg3 arg4 harg4 arg5 harg5 arg6 harg6 arg7 harg7 arg8 harg8 hc0 hc1 x0 x1 x2 xs0 xs1).1)
theorem cover0_C_4 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x2 .f32) (harg4 : arg4.IsWhole) (arg5 : Memref sig .tc .vmem S2x1024 .f32) (harg5 : arg5.IsWhole) (arg6 : Memref sig .tc .vmem S2x1024 .f32) (harg6 : arg6.IsWhole) (arg7 : Memref sig .tc .vmem S2x1024 .f32) (harg7 : arg7.IsWhole) (arg8 : Memref sig .tc .vmem S2x1024 .f32) (harg8 : arg8.IsWhole) (hc0 : ¬cond0_0 i) (hc1 : cond0_1 i)
    (x0 : Vec F S1024x1024 .f32) (x1 : Vec F S1024x1024 .f32) (x2 : Vec F S1024x2 .f32) (xs0 : Vec F S2x1024 .f32) (xs1 : Vec F S2x1024 .f32) (y : S2x1024.Idx) :
    ∃ pc ∈ (kernelRun0_C c i arg2 harg2 arg3 harg3 arg4 harg4 arg5 harg5 arg6 harg6 arg7 harg7 arg8 harg8 hc0 hc1 x0 x1 x2 xs0 xs1).2.1, y ∈ pc.1.set :=
  View.cover_of_tiledL (kernelRun0_C c i arg2 harg2 arg3 harg3 arg4 harg4 arg5 harg5 arg6 harg6 arg7 harg7 arg8 harg8 hc0 hc1 x0 x1 x2 xs0 xs1).2.1 S2x1024.size (by sl_kernel_rfl) y
def out0_C_4 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x2 .f32) (harg4 : arg4.IsWhole) (arg5 : Memref sig .tc .vmem S2x1024 .f32) (harg5 : arg5.IsWhole) (arg6 : Memref sig .tc .vmem S2x1024 .f32) (harg6 : arg6.IsWhole) (arg7 : Memref sig .tc .vmem S2x1024 .f32) (harg7 : arg7.IsWhole) (arg8 : Memref sig .tc .vmem S2x1024 .f32) (harg8 : arg8.IsWhole) (hc0 : ¬cond0_0 i) (hc1 : cond0_1 i)
    (x0 : Vec F S1024x1024 .f32) (x1 : Vec F S1024x1024 .f32) (x2 : Vec F S1024x2 .f32) (xs0 : Vec F S2x1024 .f32) (xs1 : Vec F S2x1024 .f32) : Vec F S2x1024 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 xs0 xs1).2.1)

/-- At a point where an output is left alone nothing is said of its buffer: a placeholder nothing reads (the buffer
    is neither written back there nor read at the next point). -/
def junk0_3 : Vec F S2x1024 .f32 := VO0_3.read (Elt F) VO0_3.junk
def junk0_4 : Vec F S2x1024 .f32 := VO0_4.read (Elt F) VO0_4.junk

/-! ## The buffers after each point -/

/-- After the body at point `n`: (first output's buffer, second output's buffer, first accumulator, second
    accumulator). -/
def outsAt0 (c : Dev nD) : (n : ℕ) → n < cfg0.N → Vec F S2x1024 .f32 × Vec F S2x1024 .f32 × Vec F S2x1024 .f32 × Vec F S2x1024 .f32
  | 0, hn => (junk0_3, junk0_4, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => by have := (hcond0_1 ⟨0, hn⟩).mp h; (try dsimp only at this); omega) (iblk0 V c 0 ⟨0, hn⟩) (iblk0 V c 1 ⟨0, hn⟩) (iblk0 V c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => by have := (hcond0_1 ⟨0, hn⟩).mp h; (try dsimp only at this); omega) (iblk0 V c 0 ⟨0, hn⟩) (iblk0 V c 1 ⟨0, hn⟩) (iblk0 V c 2 ⟨0, hn⟩))
  | n + 1, hn =>
    if h0 : (n + 1) % 8 = 0 then
      (junk0_3, junk0_4, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => by have := (hcond0_1 ⟨n + 1, hn⟩).mp h; (try dsimp only at this); omega) (iblk0 V c 0 ⟨n + 1, hn⟩) (iblk0 V c 1 ⟨n + 1, hn⟩) (iblk0 V c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => by have := (hcond0_1 ⟨n + 1, hn⟩).mp h; (try dsimp only at this); omega) (iblk0 V c 0 ⟨n + 1, hn⟩) (iblk0 V c 1 ⟨n + 1, hn⟩) (iblk0 V c 2 ⟨n + 1, hn⟩))
    else
      if h1 : (n + 1) % 8 = 7 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2)
      else
        (junk0_3, junk0_4, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 8 = 0) :
    outsAt0 V c t.val t.isLt = (junk0_3, junk0_4, sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => by have := (hcond0_1 t).mp h; (try dsimp only at this); omega) (iblk0 V c 0 t) (iblk0 V c 1 t) (iblk0 V c 2 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => by have := (hcond0_1 t).mp h; (try dsimp only at this); omega) (iblk0 V c 0 t) (iblk0 V c 1 t) (iblk0 V c 2 t)) := by
  obtain ⟨n, hn⟩ := t
  cases n with
  | zero => exact rfl
  | succ n => exact (dif_pos h0).trans rfl

theorem outsAt0_B (c : Dev nD) (t : Fin cfg0.N) (h0 : ¬t.val % 8 = 0) (h1 : ¬t.val % 8 = 7) :
    outsAt0 V c t.val t.isLt = (junk0_3, junk0_4, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The scoped buffers that are neither staged through by this region nor its accumulators (the other region's staging
    buffers), each whole at some contents: they ride along untouched. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The launch loop's own invariant, with the two accumulators split out as buffers owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ Rest0 c) ∗ (∃ r, prngReg c r)) := by
  unfold Pipeline.ΦA Rest0; rw [scopedRest0_eq]; simp only [scM0_0, scM0_1, owns_whole]; try rfl

/-- Before position `n`: at the very first point the launch loop's invariant (the accumulators at anything);
    afterwards the accumulators at what point `n - 1` left in them, the other buffers and the register as before. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ Rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2.1) ∗ owns (c : Thread nD τ) scM0_1 fullShare ((outsAt0 V c n hn).2.2.2) ∗ Rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.1) ∗ owns (c : Thread nD τ) scM0_1 fullShare ((outsAt0 V c (n - 1) (by omega)).2.2.2) ∗ Rest0 c) ∗ (∃ r, prngReg c r)) := by
  cases n with
  | zero => exact absurd rfl hz
  | succ n => rfl

/-! ## The region's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 6400000 in
/-- The body at any point. The inputs' buffers hold their blocks; the point's position in its sweep of eight says
    which case applies; the invariant hands the body the accumulators at what the point before left (at anything, at
    the very first point) and takes them back at this point's contents; an output left alone is handed back as it
    came, an output stored holds what its one store wrote. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by unfold Dat.leavesExact; rw [liveAt0_0 t], after0_0]
  rw [show (dat0 V c).leavesExact 1 t = owns (c : Thread nD τ) (ms0_1 t) fullShare ((dat0 V c).after 1 t) from by unfold Dat.leavesExact; rw [liveAt0_1 t], after0_1]
  rw [show (dat0 V c).leavesExact 2 t = owns (c : Thread nD τ) (ms0_2 t) fullShare ((dat0 V c).after 2 t) from by unfold Dat.leavesExact; rw [liveAt0_2 t], after0_2]
  by_cases h0 : t.val % 8 = 0
  · have hc1 : ¬cond0_1 (grid0.coords t) := fun h => by have := (hcond0_1 t).mp h; omega
    rw [Dat.leavesExact_idle (dat0 V c) 3 t (idleAt0_3 t hc1) (noFlush0_3 t hc1), Dat.leavesExact_idle (dat0 V c) 4 t (idleAt0_4 t hc1) (noFlush0_4 t hc1)]
    rw [outsAt0_A V c t h0]
    unfold sout0_A_0 sout0_A_1; (try dsimp only)
    by_cases hz : t.val = 0
    · rw [PhiS0_castSucc V c t, PhiS0_zero V c _ _ hz, PhiA0_eq]
      iintro ⟨⟨⟨HS0, HS1, HR⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ ((hcond0_0 t).mpr h0) hc1 (iblk0 V c 0 t) (iblk0 V c 1 t) (iblk0 V c 2 t)).2.2.2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_A_0 c _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
    · rw [PhiS0_castSucc V c t, PhiS0_pos V c _ _ hz]
      iintro ⟨⟨⟨HS0, HS1, HR⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ ((hcond0_0 t).mpr h0) hc1 (iblk0 V c 0 t) (iblk0 V c 1 t) (iblk0 V c 2 t)).2.2.2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_A_0 c _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    by_cases h1 : t.val % 8 = 7
    · rw [show (dat0 V c).leavesExact 3 t = owns (c : Thread nD τ) (ms0_3 t) fullShare ((dat0 V c).after 3 t) from by unfold Dat.leavesExact; rw [liveAt0_3_C t ((hcond0_1 t).mpr h1)], after0_3]
      rw [show (dat0 V c).leavesExact 4 t = owns (c : Thread nD τ) (ms0_4 t) fullShare ((dat0 V c).after 4 t) from by unfold Dat.leavesExact; rw [liveAt0_4_C t ((hcond0_1 t).mpr h1)], after0_4]
      rw [outsAt0_C V c t h0 h1]
      unfold out0_C_3 out0_C_4 sout0_C_0 sout0_C_1; (try dsimp only)
      rw [PhiS0_castSucc V c t, PhiS0_pos V c _ _ hz]
      iintro ⟨⟨⟨HS0, HS1, HR⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_C_3 c _ _ _ _ _ _ _ _ _ _ _ _ _ _ _ _ _ _ _ _ _ _)
      unfold owns; iexists _; isplitr
      swap; · iexact H4
      ipureintro; exact View.read_writes_of_cover _ _ _ _ _ (cover0_C_4 c _ _ _ _ _ _ _ _ _ _ _ _ _ _ _ _ _ _ _ _ _ _)
    · have hc1 : ¬cond0_1 (grid0.coords t) := fun h => h1 ((hcond0_1 t).mp h)
      rw [Dat.leavesExact_idle (dat0 V c) 3 t (idleAt0_3 t hc1) (noFlush0_3 t hc1), Dat.leavesExact_idle (dat0 V c) 4 t (idleAt0_4 t hc1) (noFlush0_4 t hc1)]
      rw [outsAt0_B V c t h0 h1]
      unfold sout0_B_0 sout0_B_1; (try dsimp only)
      rw [PhiS0_castSucc V c t, PhiS0_pos V c _ _ hz]
      iintro ⟨⟨⟨HS0, HS1, HR⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ (fun h => h0 ((hcond0_0 t).mp h)) hc1 (iblk0 V c 0 t) (iblk0 V c 1 t) (iblk0 V c 2 t) _ _).2.2.2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4

/-- The launch loop's obligation on the body, at every point. -/
theorem body_obligation0 (c : Dev nD) : BodyObligation (dat0 (F := F) V c) (defs₀ (F := F)) Variants.none () Set.univ := fun t => by
  rw [bigSep_W0, bigSep_W0]
  exact sound_body0 V c t

/-- Before the first point the invariant is the launch loop's own. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the accumulators' named contents are forgotten: the launch loop's invariant again. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨⟨HS0, HS1, HR⟩, Hg⟩
  isplitl [HS0 HS1 HR]
  · isplitl [HS0]; · iexists _; iexact HS0
    isplitl [HS1]; · iexists _; iexact HS1
    iexact HR
  iexact Hg

end Cert.Kernel.Hand

end
-- ==== Proof.KIB.R1Runs.lean ====
/-
  The second kernel region (the pass over z). Its grid is 2 x 16: the first coordinate picks a half of the batch, the
  second one of that half's 16 blocks of 256 rows. At a point the body reads the block of z, the block of the two
  class masks, and the whole 2 x 4096 arrays of per-class means and inverse variances; its one output block, 1 x 1 x 2,
  depends only on the first coordinate, so the same block is visited at 16 consecutive points: it is set to zero
  at the first of them and at every point has the block's two masked sums of squared, scaled differences added to
  it. This module fixes what a block of an operand is at a point, decides over the grid at which points the
  "first of the sweep" branch is taken, and runs the body in each of the two cases.
-/
import proofs.«179402_j71244917506189_2_alg».proof.Proof.Gen.Kernel.Launch
import proofs.«179402_j71244917506189_2_alg».proof.Proof.Gen.Kernel.Skeleton
import proofs.«179402_j71244917506189_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: a parameter here, fixed by the run
variable (V : (c : Dev nD) → (b : Ref sig .tc) → Buf (Elt F) ((c : Thread nD τ).loc b))

/-! ## The operands' blocks -/

/-- Operand `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input operand 0's current staging buffer holds its block at every point, whether it was fetched there or
    is still in place from an earlier point (its block index has not moved since). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input operand 1's current staging buffer holds its block at every point, whether it was fetched there or
    is still in place from an earlier point (its block index has not moved since). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input operand 2's current staging buffer holds its block at every point, whether it was fetched there or
    is still in place from an earlier point (its block index has not moved since). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input operand 3's current staging buffer holds its block at every point, whether it was fetched there or
    is still in place from an earlier point (its block index has not moved since). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The branch -/

/-- The body's one branch: the second grid coordinate is zero (the first block of a half). -/
abbrev cond1_0 (i : grid1.Coords) : Prop := (Scalar.cmpi .ne (Scalar.extui (Scalar.cmpi .eq (BitVec.ofNat 32 (i 1).val) 0#32)) 0#32) = 1#1
/-- Points are numbered half by half, 16 to a half: the branch is taken at the points divisible by 16. -/
theorem hcond1_0 : ∀ t : Fin cfg1.N, cond1_0 (grid1.coords t) ↔ t.val % 16 = 0 :=
  (by decide +kernel : ∀ t : Fin grid1.N, cond1_0 (grid1.coords t) ↔ t.val % 16 = 0)

/-! ## The staging buffers the body is called with -/

/-- One staging buffer of the output, through which its contents are stated (which one does not matter). -/
abbrev VO1_4 : View sig .tc .vmem S1x1x2 .f32 := (Memref.whole cc1_stg4_0 : Memref sig .tc .vmem S1x1x2 .f32).view
abbrev ms1_0 (t : Fin cfg1.N) : Memref sig .tc .vmem S256x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x2 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2x4096 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2x4096 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x2 .f32 := win1_4.stage (cfg1.slots t 4)
abbrev hs1_4 (t : Fin cfg1.N) : (ms1_4 t).IsWhole := hstage1_4 ((cfg1.slots t 4).cast nbuf1_4)

/-! ## The body, case by case -/

set_option maxHeartbeats 1000000 in
/-- At the first block of a half: with the four inputs' buffers at their blocks and the output's at anything, the body
    runs to the end, gives the inputs back as they were, and leaves the output's buffer with a list of stores written
    into it (the whole block zeroed, then each of the two entries replaced by zero plus its masked sum); the list is
    what the run finds. -/
noncomputable def kernelRun1_A (c : Dev nD) (i : grid1.Coords) (arg2 : Memref sig .tc .vmem S256x4096 .f32) (harg2 : arg2.IsWhole) (arg3 : Memref sig .tc .vmem S256x2 .f32) (harg3 : arg3.IsWhole) (arg4 : Memref sig .tc .vmem S2x4096 .f32) (harg4 : arg4.IsWhole) (arg5 : Memref sig .tc .vmem S2x4096 .f32) (harg5 : arg5.IsWhole) (arg6 : Memref sig .tc .vmem S1x1x2 .f32) (harg6 : arg6.IsWhole) (hc0 : cond1_0 i)
    (x0 : Vec F S256x4096 .f32) (x1 : Vec F S256x2 .f32) (x2 : Vec F S2x4096 .f32) (x3 : Vec F S2x4096 .f32) :
    { L4 : List (View.Piece (Elt F) S1x1x2 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc1__kernelB_body i arg2 harg2 arg3 harg3 arg4 harg4 arg5 harg5 arg6 harg6) K } := by
  refine ⟨?_, fun E K => ?run⟩
  case run =>
    simp only [cc1__kernelB_body_eq_skeleton]; unfold cc1__kernelB_body_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

set_option maxHeartbeats 1000000 in
/-- At any later block of a half: the same, with the output's buffer entered at its running contents `xo4` (what the
    point before left: the buffer is not written back in between), each of its two entries replaced by itself plus the
    block's masked sum. -/
noncomputable def kernelRun1_B (c : Dev nD) (i : grid1.Coords) (arg2 : Memref sig .tc .vmem S256x4096 .f32) (harg2 : arg2.IsWhole) (arg3 : Memref sig .tc .vmem S256x2 .f32) (harg3 : arg3.IsWhole) (arg4 : Memref sig .tc .vmem S2x4096 .f32) (harg4 : arg4.IsWhole) (arg5 : Memref sig .tc .vmem S2x4096 .f32) (harg5 : arg5.IsWhole) (arg6 : Memref sig .tc .vmem S1x1x2 .f32) (harg6 : arg6.IsWhole) (hc0 : ¬cond1_0 i)
    (x0 : Vec F S256x4096 .f32) (x1 : Vec F S256x2 .f32) (x2 : Vec F S2x4096 .f32) (x3 : Vec F S2x4096 .f32) (xo4 : Vec F S1x1x2 .f32) :
    { L4 : List (View.Piece (Elt F) S1x1x2 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc1__kernelB_body i arg2 harg2 arg3 harg3 arg4 harg4 arg5 harg5 arg6 harg6) K } := by
  refine ⟨?_, fun E K => ?run⟩
  case run =>
    simp only [cc1__kernelB_body_eq_skeleton]; unfold cc1__kernelB_body_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Hand

end
-- ==== Proof.KIB.R1Frame.lean ====
/-
  The second kernel region, continued: what its output's staging buffer holds after each grid point, the region's
  proof data, and the obligation the launch loop asks of the body at every point.
  The output block of a half of the batch is visited at that half's 16 points in a row and written back to its array
  only after the last of them. So what the buffer holds after point n is a recursion on n: at the first point of a half
  it is what the zeroing case leaves from the point's four input blocks; at any other point it is what the
  accumulating case leaves from the point's input blocks AND what the buffer held after point n - 1.
-/
import proofs.«179402_j71244917506189_2_alg».proof.Proof.KIB.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: a parameter here, fixed by the run
variable (V : (c : Dev nD) → (b : Ref sig .tc) → Buf (Elt F) ((c : Thread nD τ).loc b))

/-! ## What each case leaves in the output's buffer -/

/-- The zeroing case's stores cover the output block: cut into single entries they strike off both of them. -/
theorem cover1_A_4 (c : Dev nD) (i : grid1.Coords) (arg2 : Memref sig .tc .vmem S256x4096 .f32) (harg2 : arg2.IsWhole) (arg3 : Memref sig .tc .vmem S256x2 .f32) (harg3 : arg3.IsWhole) (arg4 : Memref sig .tc .vmem S2x4096 .f32) (harg4 : arg4.IsWhole) (arg5 : Memref sig .tc .vmem S2x4096 .f32) (harg5 : arg5.IsWhole) (arg6 : Memref sig .tc .vmem S1x1x2 .f32) (harg6 : arg6.IsWhole) (hc0 : cond1_0 i)
    (x0 : Vec F S256x4096 .f32) (x1 : Vec F S256x2 .f32) (x2 : Vec F S2x4096 .f32) (x3 : Vec F S2x4096 .f32) (y : S1x1x2.Idx) :
    ∃ pc ∈ (kernelRun1_A c i arg2 harg2 arg3 harg3 arg4 harg4 arg5 harg5 arg6 harg6 hc0 x0 x1 x2 x3).1, y ∈ pc.1.set :=
  View.cover_of_tiledBy (kernelRun1_A c i arg2 harg2 arg3 harg3 arg4 harg4 arg5 harg5 arg6 harg6 hc0 x0 x1 x2 x3).1 S1x1x1.size (by sl_kernel_rfl) y

/-- What the zeroing case leaves in the output's buffer: its stores read back. -/
def out1_A_4 (c : Dev nD) (i : grid1.Coords) (arg2 : Memref sig .tc .vmem S256x4096 .f32) (harg2 : arg2.IsWhole) (arg3 : Memref sig .tc .vmem S256x2 .f32) (harg3 : arg3.IsWhole) (arg4 : Memref sig .tc .vmem S2x4096 .f32) (harg4 : arg4.IsWhole) (arg5 : Memref sig .tc .vmem S2x4096 .f32) (harg5 : arg5.IsWhole) (arg6 : Memref sig .tc .vmem S1x1x2 .f32) (harg6 : arg6.IsWhole) (hc0 : cond1_0 i)
    (x0 : Vec F S256x4096 .f32) (x1 : Vec F S256x2 .f32) (x2 : Vec F S2x4096 .f32) (x3 : Vec F S2x4096 .f32) : Vec F S1x1x2 .f32 :=
  VO1_4.read (Elt F) (VO1_4.writes (Elt F) VO1_4.junk (kernelRun1_A c i arg2 harg2 arg3 harg3 arg4 harg4 arg5 harg5 arg6 harg6 hc0 x0 x1 x2 x3).1)

/-- The accumulating case's two single-entry stores tile the output block. -/
theorem cover1_B_4 (c : Dev nD) (i : grid1.Coords) (arg2 : Memref sig .tc .vmem S256x4096 .f32) (harg2 : arg2.IsWhole) (arg3 : Memref sig .tc .vmem S256x2 .f32) (harg3 : arg3.IsWhole) (arg4 : Memref sig .tc .vmem S2x4096 .f32) (harg4 : arg4.IsWhole) (arg5 : Memref sig .tc .vmem S2x4096 .f32) (harg5 : arg5.IsWhole) (arg6 : Memref sig .tc .vmem S1x1x2 .f32) (harg6 : arg6.IsWhole) (hc0 : ¬cond1_0 i)
    (x0 : Vec F S256x4096 .f32) (x1 : Vec F S256x2 .f32) (x2 : Vec F S2x4096 .f32) (x3 : Vec F S2x4096 .f32) (xo4 : Vec F S1x1x2 .f32) (y : S1x1x2.Idx) :
    ∃ pc ∈ (kernelRun1_B c i arg2 harg2 arg3 harg3 arg4 harg4 arg5 harg5 arg6 harg6 hc0 x0 x1 x2 x3 xo4).1, y ∈ pc.1.set :=
  View.cover_of_tiledL (kernelRun1_B c i arg2 harg2 arg3 harg3 arg4 harg4 arg5 harg5 arg6 harg6 hc0 x0 x1 x2 x3 xo4).1 S1x1x1.size (by sl_kernel_rfl) y

/-- What the accumulating case leaves in the output's buffer, entered at `xo4`: its stores read back. -/
def out1_B_4 (c : Dev nD) (i : grid1.Coords) (arg2 : Memref sig .tc .vmem S256x4096 .f32) (harg2 : arg2.IsWhole) (arg3 : Memref sig .tc .vmem S256x2 .f32) (harg3 : arg3.IsWhole) (arg4 : Memref sig .tc .vmem S2x4096 .f32) (harg4 : arg4.IsWhole) (arg5 : Memref sig .tc .vmem S2x4096 .f32) (harg5 : arg5.IsWhole) (arg6 : Memref sig .tc .vmem S1x1x2 .f32) (harg6 : arg6.IsWhole) (hc0 : ¬cond1_0 i)
    (x0 : Vec F S256x4096 .f32) (x1 : Vec F S256x2 .f32) (x2 : Vec F S2x4096 .f32) (x3 : Vec F S2x4096 .f32) (xo4 : Vec F S1x1x2 .f32) : Vec F S1x1x2 .f32 :=
  VO1_4.read (Elt F) (VO1_4.writes (Elt F) VO1_4.junk (kernelRun1_B c i arg2 harg2 arg3 harg3 arg4 harg4 arg5 harg5 arg6 harg6 hc0 x0 x1 x2 x3 xo4).1)

/-! ## The output's buffer after each point -/

/-- What the output's staging buffer holds after the body at point `n`: zeroing case at the first point of a half,
    accumulating case over what point `n - 1` left everywhere else. -/
def outsAt1 (c : Dev nD) : (n : ℕ) → n < cfg1.N → Vec F S1x1x2 .f32
  | 0, hn => out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩)
  | n + 1, hn =>
    if h0 : (n + 1) % 16 = 0 then
      out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩)
    else
      out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn))

/-- At the first point of a half. -/
theorem outsAt1_A (c : Dev nD) (t : Fin cfg1.N) (h0 : t.val % 16 = 0) :
    outsAt1 V c t.val t.isLt = out1_A_4 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t) (iblk1 V c 2 t) (iblk1 V c 3 t) := by
  obtain ⟨n, hn⟩ := t
  cases n with
  | zero => exact rfl
  | succ n => exact (dif_pos h0).trans rfl

/-- At any other point: over what the point before left. -/
theorem outsAt1_B (c : Dev nD) (t : Fin cfg1.N) (h0 : ¬t.val % 16 = 0) :
    outsAt1 V c t.val t.isLt = out1_B_4 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The region's proof data -/

/-- On core `c`: the five arrays as the region finds them; after the body at point `t` each input's buffer still at
    its block and the output's at `outsAt1`; the invariant between points is the launch loop's own (the buffers no
    operand is staged through, the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outsAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- At a point that is not the first of a half the output's buffer still holds what the body left at the point
    before: it is written back only after the 16th point of a half. -/
theorem before1_4_B (c : Dev nD) (t : Fin cfg1.N) (h0 : ¬t.val % 16 = 0) (d) :
    (dat1 V c).before 4 t d = outsAt1 V c (t.val - 1) (Nat.lt_of_le_of_lt (Nat.sub_le _ _) t.isLt) := by
  have hN : t.val < 32 := lt_of_lt_of_eq t.isLt (show cfg1.N = 32 from N_1)
  rw [Dat.before_out_kept _ 4 rfl t (by omega) (Bool.eq_false_iff.mpr fun h => by have := (flush1_4 _).mp h; dsimp only at this; omega)
    (fun _ => rfl) (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 1600000 in
/-- The body at any point: the inputs' buffers hold their blocks; the point is the first of its half or not; in the
    second case the output's buffer holds what the point before left; so the case's run applies, and what it leaves is
    `outsAt1` at this point. The invariant passes through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  have hN : t.val < 32 := lt_of_lt_of_eq t.isLt (show cfg1.N = 32 from N_1)
  by_cases h0 : t.val % 16 = 0
  · rw [outsAt1_A V c t h0]
    unfold out1_A_4
    iintro ⟨HΦ, Ho, ⟨%d0, H0⟩, ⟨%d1, H1⟩, ⟨%d2, H2⟩, ⟨%d3, H3⟩, ⟨%d4, H4⟩⟩
    iapply ((kernelRun1_A c (grid1.coords t) _ _ _ _ _ _ _ _ _ _ ((hcond1_0 t).mpr h0) (iblk1 V c 0 t) (iblk1 V c 1 t) (iblk1 V c 2 t) (iblk1 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_A_4 c _ _ _ _ _ _ _ _ _ _ _ _ _ _ _ _)
  · rw [outsAt1_B V c t h0]
    simp only [before1_4_B V c t h0]
    unfold out1_B_4
    iintro ⟨HΦ, Ho, ⟨%d0, H0⟩, ⟨%d1, H1⟩, ⟨%d2, H2⟩, ⟨%d3, H3⟩, ⟨%d4, H4⟩⟩
    iapply ((kernelRun1_B c (grid1.coords t) _ _ _ _ _ _ _ _ _ _ (fun h => h0 ((hcond1_0 t).mp h)) (iblk1 V c 0 t) (iblk1 V c 1 t) (iblk1 V c 2 t) (iblk1 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B_4 c _ _ _ _ _ _ _ _ _ _ _ _ _ _ _ _ _)

/-- The launch loop's obligation on the body, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KIB.Run.lean ====
/-
  The whole program as a run. @main is five items in a row: a stretch of host operations (the class masks, the
  counts, the per-class means of logdet), the first kernel region, a second stretch (the per-class means and
  log-deviations from the region's sums, the inverse variances, the constant term), the second kernel region, and a
  last stretch (the per-class log-densities and their mean). Between two items the core holds every unscoped buffer
  at a known valuation: the launch contents, then the host operations' results folded in, then a region's five arrays
  at what its launch loop leaves in them (the inputs as entered, each output's write-backs folded) and every other
  buffer as before. Each region is a record around its body obligation; the run ends with every unscoped buffer at
  the last valuation, from which both the frame claim (the arguments as launched) and the results are read.
-/
import proofs.«179402_j71244917506189_2_alg».proof.Proof.KIB.R0Frame
import proofs.«179402_j71244917506189_2_alg».proof.Proof.KIB.R1Frame
import proofs.«179402_j71244917506189_2_alg».proof.Proof.Gen.Kernel.Regions
import Idealize.ShloMosaic.Lib.Pipeline.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the launch loop leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the second host stretch (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the last host stretch: the end. -/
abbrev W5 : Dev nD → Valuation τ sig (Elt F) := fun c => StableHlo.after hostOps2 (W4 m ρ c)

/-! ## The arguments end as launched -/

/-- No host operation and no region writes `main_arg0`: the last valuation has it as launched. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
/-- No host operation and no region writes `main_arg1`: the last valuation has it as launched. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_writes_sub hostOps0 _ hostOps0_writes (by decide)
    _ = m ((c : Thread nD τ).loc main_arg1) := rfl
/-- No host operation and no region writes `main_arg2`: the last valuation has it as launched. -/
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_writes_sub hostOps0 _ hostOps0_writes (by decide)
    _ = m ((c : Thread nD τ).loc main_arg2) := rfl
/-- No host operation and no region writes `main_arg3`: the last valuation has it as launched. -/
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
/-- No host operation and no region writes `main_arg4`: the last valuation has it as launched. -/
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-! ## The proof data family and the thread state -/

/-- Both regions' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's debts, none. -/
abbrev R (c : Dev nD) : sProp 𝕄 := iprop((∃ r, prngReg c r) ∗ ∃ W, owes (c : Thread nD τ) (0 : CellTallies nD τ sig Unit) W)
/-- A host stretch as an item: its operations run over the unscoped buffers from `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last valuation, the register at some state. -/
abbrev Tₙ (c : Dev nD) : sProp 𝕄 := iprop(StableHlo.held (c : Thread nD τ) (Pipeline.ucRefs τ sig) (W5 m ρ c) ∗ ∃ r, prngReg c r)

/-! ## The regions as items -/

-- `iapply` of a library lemma stated over the pinned configuration unifies only when unification may unfold plain
-- definitions in a metavariable's type
set_option backward.isDefEq.respectTransparency.types false in
/-- Region 0 over the thread state: entered from every unscoped buffer at `W1`, left at `W2`. Its five arrays are
    split out of the unscoped buffers on the way in and put back at their exit contents on the way out; the generator
    register goes into the invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]
    unfold Pipeline.ΦA
    iintro ⟨Hp, -, Hr⟩
    isplitl [Hr]; · iexact Hr
    iexact Hp
  hout c := by
    rw [Pipeline.ownSems0_none]
    have hA : (Pipeline.ΦA spec0 c : sProp 𝕄) ⊢ iprop((∃ r, prngReg c r) ∗ BI.emp ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (V1 m ρ) c).trans hA
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- Region 1 over the thread state: entered from every unscoped buffer at `W3`, left at `W4`. Its five arrays are
    split out of the unscoped buffers on the way in and put back at their exit contents on the way out; the generator
    register goes into the invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]
    unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its items, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

-- the launch theorem's implicit arguments are found by unifying its conclusion with this one, which takes unfolding plain
-- definitions in a metavariable's type
set_option backward.isDefEq.respectTransparency.types false in
/-- From any memory with zero counters every weakly fair execution of @main terminates, nothing faulting, and in every
    final state each unscoped buffer of each core holds the last valuation's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame claim, at any float instance: the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run_all m ρ)

end Cert.Kernel.Hand

end
-- ==== Proof.Spec.lean ====
/-
  What the two programs compute, as four explicit functions of the five inputs, on the extended reals.
  For a class word j (0 or 1) let 1_j(b) be 1 when target[b] = j and 0 otherwise, and n_j the sum of 1_j over the
  8192 rows. The per-class statistics are masked column means,
      mu_j(d) = (sum_b mean[b,d] * 1_j(b)) / n_j,      ls_j(d) = (sum_b log_sd[b,d] * 1_j(b)) / n_j,
  the per-class mean of logdet is (sum_b logdet[b] * 1_j(b)) / n_j, and a row's Gaussian log-density under class j is
      row_j(b) = sum_d ((kappa - ls_j(d)) - (1/2 * (z[b,d] - mu_j(d))^2) * exp(-2 * ls_j(d))),
  kappa being the single-precision word both programs carry for -log(2*pi)/2. The class's log-density is the masked
  mean of the rows, lp_j = (sum_b row_j(b) * 1_j(b)) / n_j, and the scalar result is the mean over the two classes of
  lp_j plus the class's logdet mean. Every operation is the extended reals' own (the division with its conventions
  at zero), written in the order the reference applies them, so that the reference's results are these functions
  by reading alone, with no hypothesis on the inputs.
-/
import Idealize.ShloMosaic.PureOps.Ideal
import Idealize.ShloMosaic.Lib.ValueIdx

noncomputable section

namespace Cert.Spec

open Idealize.ShloMosaic Idealize.ShloMosaic.ValueIdx

abbrev SBD : Shape := ⟨2, ![8192, 4096]⟩
abbrev SB : Shape := ⟨1, ![8192]⟩
abbrev S2D : Shape := ⟨2, ![2, 4096]⟩
abbrev S2 : Shape := ⟨1, ![2]⟩
abbrev S0 : Shape := ⟨0, ![]⟩

/-- The five inputs: z, mean, log_sd (8192 x 4096), target (8192 words), logdet (8192). -/
structure Inputs where
  z : SBD.Idx → EReal
  mean : SBD.Idx → EReal
  lsd : SBD.Idx → EReal
  tgt : SB.Idx → BitVec 32
  ldt : SB.Idx → EReal

variable (I : Inputs)

/-- The class indicator 1_j(b). -/
def msk (j : BitVec 32) (b : Fin 8192) : EReal := if I.tgt (ix1 b) = j then 1 else 0
/-- The class's size n_j. -/
def cnt (j : BitVec 32) : EReal := ∑ b : Fin 8192, msk I j b
/-- The class's mean of logdet. -/
def ldm (j : BitVec 32) : EReal := Ideal.div (∑ b : Fin 8192, I.ldt (ix1 b) * msk I j b) (cnt I j)
/-- The class's column means of `mean`. -/
def mu (j : BitVec 32) (d : Fin 4096) : EReal := Ideal.div (∑ b : Fin 8192, I.mean (ix2 b d) * msk I j b) (cnt I j)
/-- The class's column means of `log_sd`. -/
def ls (j : BitVec 32) (d : Fin 4096) : EReal := Ideal.div (∑ b : Fin 8192, I.lsd (ix2 b d) * msk I j b) (cnt I j)

/-- The four float words both programs carry: -log(2 pi)/2 in single precision, 1/2, -2 and 2. -/
def kappa : EReal := Ideal.ofBits .f32 0xBF6B3F8E#32
def half : EReal := Ideal.ofBits .f32 0x3F000000#32
def mtwo : EReal := Ideal.ofBits .f32 0xC0000000#32
def two : EReal := Ideal.ofBits .f32 0x40000000#32

/-- One row's log-density under class j, summed over the 4096 features. -/
def rowlp (j : BitVec 32) (b : Fin 8192) : EReal :=
  ∑ d : Fin 4096, ((kappa - ls I j d) - (half * ((I.z (ix2 b d) - mu I j d) * (I.z (ix2 b d) - mu I j d))) * Ideal.exp (mtwo * ls I j d))
/-- The class's log-density: the masked mean of its rows'. -/
def lp (j : BitVec 32) : EReal := Ideal.div (∑ b : Fin 8192, rowlp I j b * msk I j b) (cnt I j)
/-- The scalar result: the mean over the two classes of log-density plus logdet mean. -/
def prior : EReal := Ideal.div ((lp I 0#32 + ldm I 0#32) + (lp I 1#32 + ldm I 1#32)) two

/-- The class word of a row index of a two-row result. -/
def cls (k : ℕ) : BitVec 32 := BitVec.ofNat 32 k

/-- The four results, index by index, in the order both programs return them. -/
def out0 : S0.Idx → EReal := fun _ => prior I
def out1 : S2D.Idx → EReal := fun i => mu I (cls (i 0).val) ⟨(i 1).val, idx2_lt1 i⟩
def out2 : S2D.Idx → EReal := fun i => ls I (cls (i 0).val) ⟨(i 1).val, idx2_lt1 i⟩
def out3 : S2.Idx → EReal := fun i => lp I (cls (i 0).val)

end Cert.Spec

end
-- ==== Proof.SpecK.lean ====
/-
  The kernel's arrangement of a class's log-density, over the same per-class statistics. The kernel never forms a row's
  log-density under ONE class: for each row it blends the two classes' means and inverse variances by the row's two
  indicators,
      musel(b,d) = 1_0(b) * mu_0(d) + 1_1(b) * mu_1(d),     ivsel(b,d) = 1_0(b) * exp(-2 ls_0(d)) + 1_1(b) * exp(-2 ls_1(d)),
  sums (z[b,d] - musel(b,d))^2 * ivsel(b,d) over the features, and adds that row sum, times 1_j(b), into class j's
  total S_j. The constant part is summed once per class, C_j = sum_d (kappa - ls_j(d)), and the class's log-density is
      C_j - (1/2 * S_j) / n_j.
  On a row of class j the blend is class j's own statistics (the other indicator is 0), so this is the reference's masked
  mean of rows with the constant part pulled out of the mean: n_j * C_j / n_j = C_j, which needs n_j nonzero and every
  quantity a real number.
-/
import proofs.«179402_j71244917506189_2_alg».proof.Proof.Spec

noncomputable section

namespace Cert.Spec

open Idealize.ShloMosaic Idealize.ShloMosaic.ValueIdx

variable (I : Inputs)

/-- The row's blended mean at feature d. -/
def musel (b : Fin 8192) (d : Fin 4096) : EReal := msk I 0#32 b * mu I 0#32 d + msk I 1#32 b * mu I 1#32 d
/-- The row's blended inverse variance at feature d. -/
def ivsel (b : Fin 8192) (d : Fin 4096) : EReal :=
  msk I 0#32 b * Ideal.exp (mtwo * ls I 0#32 d) + msk I 1#32 b * Ideal.exp (mtwo * ls I 1#32 d)
/-- The row's sum of squared, scaled differences from its blended mean. -/
def rowsq (b : Fin 8192) : EReal :=
  ∑ d : Fin 4096, ((I.z (ix2 b d) - musel I b d) * (I.z (ix2 b d) - musel I b d)) * ivsel I b d
/-- Class j's total of those row sums. -/
def ssq (j : BitVec 32) : EReal := ∑ b : Fin 8192, rowsq I b * msk I j b
/-- Class j's constant part. -/
def cpart (j : BitVec 32) : EReal := ∑ d : Fin 4096, (kappa - ls I j d)
/-- The kernel's arrangement of class j's log-density. -/
def klp (j : BitVec 32) : EReal := cpart I j - Ideal.div (half * ssq I j) (cnt I j)

/-- Every float input is a real number. -/
structure Finite : Prop where
  z : ∀ i, ∃ r : ℝ, I.z i = (r : EReal)
  mean : ∀ i, ∃ r : ℝ, I.mean i = (r : EReal)
  lsd : ∀ i, ∃ r : ℝ, I.lsd i = (r : EReal)
  ldt : ∀ i, ∃ r : ℝ, I.ldt i = (r : EReal)

/-- Both classes have a member. -/
structure BothClasses : Prop where
  c0 : ∃ b : Fin 8192, I.tgt (ix1 b) = 0#32
  c1 : ∃ b : Fin 8192, I.tgt (ix1 b) = 1#32

end Cert.Spec

end
-- ==== Proof.LibRealClosed.lean ====
/-
  Arrays of extended reals whose every entry is a real number, and the host operations that keep them so.

  On the extended reals the field laws fail at the infinities (a product distributes over a sum only off them), so a
  proof that rearranges sums of products first shows that every number in sight is real. The facts here do that
  without reading any array at an index: an entry of a matrix product is a finite sum of products of entries; an entry
  of a transposed, sliced, reshaped, broadcast or concatenated array is an entry of an operand; sums, differences,
  products and negatives of reals are real; and a quotient of reals is real when the divisor is not zero.
-/
import Idealize.ShloMosaic.PureOps.Ideal
import Idealize.ShloMosaic.PureOps.Ideal.Laws
import Idealize.ShloMosaic.Lib.ValueIdx

noncomputable section

open scoped BigOperators

namespace Cert.LibRealClosed

open Idealize.ShloMosaic

/-- An extended real that is a real number (neither infinity). -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

/-- A finite sum of reals is real. -/
theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h _ (Finset.mem_insert_self _ _)).add (ih fun i hi => h i (Finset.mem_insert_of_mem hi))

/-- The quotient of a real by a real other than zero is real: it is the product with the reciprocal. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h]; rfl)
  rw [Ideal.div_coe hb, ← EReal.coe_mul]
  exact ⟨_, rfl⟩

/-- A real is neither infinity; conversely an extended real strictly between the infinities is real. -/
theorem isReal_of_abs_lt_top {x : EReal} (h : max x (-x) < ⊤) : IsReal x := by
  induction x using EReal.rec with
  | bot => exact absurd h (by simp)
  | coe r => exact ⟨r, rfl⟩
  | top => exact absurd h (by simp)

/-- Every entry of the array is a real number. -/
def AllReal {S : Shape} {φ : FTy} (v : FVec Ideal S φ) : Prop := ∀ i, IsReal (v i)

variable {s t : Shape} {φ : FTy}

/-- An entry of a matrix product (any dimension numbers) is a finite sum of products of entries of the operands. -/
theorem AllReal.dotGeneral {sl sr so : Shape} {φ₁ φ₂ : FTy} (d : DotDims sl sr so) (p : Option ContractPrecision)
    {l : FVec Ideal sl φ₁} {r : FVec Ideal sr φ₂} (hl : AllReal l) (hr : AllReal r) :
    AllReal (Host.dotGeneral d p l r) := by
  intro j
  show IsReal (FloatOps.dotGeneral d p _ l r j)
  rw [Ideal.dotGeneral_apply]
  exact IsReal.sum _ _ fun k _ => (hl _).mul (hr _)

theorem AllReal.transpose (perm : List (Fin s.rank)) {x : FVec Ideal s φ} (h : s.Transposes perm t) (hx : AllReal x) :
    AllReal (φ := φ) (transpose t perm x h) := fun _ => hx _

theorem AllReal.slice (off : Fin s.rank → Nat) {x : FVec Ideal s φ} (h : s.Slices off t) (hx : AllReal x) :
    AllReal (φ := φ) (extractStridedSlice t off x h) := fun _ => hx _

theorem AllReal.shapeCast {x : FVec Ideal s φ} (h : s.ShapeCasts t) (hx : AllReal x) :
    AllReal (φ := φ) (shapeCast t x h) := fun _ => hx _

theorem AllReal.broadcastInDim (dims : Fin s.rank → Fin t.rank) (h : s.BroadcastsInDim t dims) {x : FVec Ideal s φ}
    (hx : AllReal x) : AllReal (φ := φ) (broadcastInDim t dims h x) := fun _ => hx _

/-- An entry of arrays joined along an axis is an entry of one of them. -/
theorem AllReal.concatenate (a : Fin t.rank) (xs : List ((s : Shape) × (s.Idx → Ideal φ)))
    (h : Shape.Concatenates (xs.map (·.1)) t a) (hx : ∀ p ∈ xs, ∀ i, IsReal (p.2 i)) :
    AllReal (φ := φ) (concatenate t a xs h) := by
  intro j
  unfold Idealize.ShloMosaic.concatenate
  exact hx _ (List.getElem_mem _) _

theorem AllReal.addf {x y : FVec Ideal s φ} (hx : AllReal x) (hy : AllReal y) : AllReal (addf x y) :=
  fun i => (hx i).add (hy i)

theorem AllReal.subf {x y : FVec Ideal s φ} (hx : AllReal x) (hy : AllReal y) : AllReal (subf x y) :=
  fun i => (hx i).sub (hy i)

theorem AllReal.mulf {x y : FVec Ideal s φ} (hx : AllReal x) (hy : AllReal y) : AllReal (mulf x y) :=
  fun i => (hx i).mul (hy i)

theorem AllReal.hostNegf {x : FVec Ideal s φ} (hx : AllReal x) : AllReal (Host.negf x) :=
  fun i => (hx i).neg

/-- The quotient of two arrays of reals is an array of reals when no divisor is zero. -/
theorem AllReal.hostDivf {x y : FVec Ideal s φ} (hx : AllReal x) (hy : AllReal y) (h0 : ∀ i, y i ≠ 0) :
    AllReal (Host.divf x y) :=
  fun i => (hx i).div (hy i) (h0 i)

end Cert.LibRealClosed

end
-- ==== Proof.LawBase.lean ====
/-
  Elementary facts under the law between the two arrangements of a class's log-density.

  The four literal words are real numbers (their exponent fields are not all ones), and the words 0x3F800000 and
  0x40000000 are 1 and 2. A class's size n_j, the sum of the indicator over the rows, is the number of rows of the
  class: a natural number, at least 1 when the class has a member, so that the guard max(n_j, 1) is n_j and n_j is
  not zero. When every input is a real number and the class has a member, the masked column means mu_j(d) and
  ls_j(d) are quotients of finite sums of reals by a nonzero real, hence real numbers.
-/
import proofs.«179402_j71244917506189_2_alg».proof.Proof.SpecK
import proofs.«179402_j71244917506189_2_alg».proof.Proof.LibRealClosed

noncomputable section

open scoped BigOperators

namespace Cert.Spec

open Idealize.ShloMosaic Idealize.ShloMosaic.ValueIdx Cert.LibRealClosed

/-! ### Sums of real numbers inside the extended reals -/

/-- The image of a finite sum of reals is the sum of the images. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The sum of an indicator over a finite set is the number of points where it is 1. -/
theorem sum_indicator_eq_card {ι : Type*} (s : Finset ι) (p : ι → Prop) [DecidablePred p] :
    (∑ i ∈ s, (if p i then (1 : EReal) else 0)) = (((s.filter p).card : ℝ) : EReal) := by
  classical
  induction s using Finset.induction_on with
  | empty => simp
  | insert a s ha ih =>
    rw [Finset.sum_insert ha, ih, Finset.filter_insert]
    by_cases h : p a
    · have hna : a ∉ s.filter p := fun hm => ha (Finset.mem_of_mem_filter a hm)
      rw [if_pos h, if_pos h, Finset.card_insert_of_notMem hna, Nat.cast_add, Nat.cast_one, EReal.coe_add,
        EReal.coe_one, add_comm]
    · rw [if_neg h, if_neg h, zero_add]

/-! ### The literal words -/

/-- A pattern whose exponent field is not all ones denotes a real number. -/
theorem ieee_real (e m : Nat) {w : Nat} (b : BitVec w) (h : (b.extractLsb' m e).toNat ≠ 2 ^ e - 1) :
    ∃ r : ℝ, Ideal.ieee e m b = (r : EReal) := by
  simp only [Ideal.ieee]
  rw [if_neg h]
  split_ifs <;> exact ⟨_, rfl⟩

theorem kappa_real : ∃ r : ℝ, kappa = (r : EReal) := ieee_real 8 23 (0xBF6B3F8E#32 : BitVec 32) (by decide)
theorem half_real : ∃ r : ℝ, half = (r : EReal) := ieee_real 8 23 (0x3F000000#32 : BitVec 32) (by decide)
theorem mtwo_real : ∃ r : ℝ, mtwo = (r : EReal) := ieee_real 8 23 (0xC0000000#32 : BitVec 32) (by decide)
theorem two_real : ∃ r : ℝ, two = (r : EReal) := ieee_real 8 23 (0x40000000#32 : BitVec 32) (by decide)

/-- The word 0x3F800000 (sign 0, exponent field 127, fraction 0) is 2^23 * 2^(-23) = 1. -/
theorem one_word : Ideal.ofBits .f32 0x3F800000#32 = (1 : EReal) := by
  simp [Ideal.ofBits, Ideal.ieee]
  norm_cast
  norm_num

/-- The word 0x40000000 (sign 0, exponent field 128, fraction 0) is 2^23 * 2^(-22) = 2. -/
theorem two_eq : two = ((2 : ℝ) : EReal) := by
  simp [two, Ideal.ofBits, Ideal.ieee]
  norm_cast
  norm_num

theorem two_ne_zero : two ≠ 0 := by
  rw [two_eq]
  exact_mod_cast (_root_.two_ne_zero : (2 : ℝ) ≠ 0)

/-! ### The class sizes -/

variable (I : Inputs)

/-- A class's size is the number of its rows. -/
theorem cnt_eq_card (j : BitVec 32) :
    cnt I j = (((Finset.univ.filter fun b : Fin 8192 => I.tgt (ix1 b) = j).card : ℝ) : EReal) := by
  unfold cnt msk
  exact sum_indicator_eq_card Finset.univ fun b : Fin 8192 => I.tgt (ix1 b) = j

theorem cnt_nat (j : BitVec 32) : ∃ n : ℕ, cnt I j = ((n : ℝ) : EReal) := ⟨_, cnt_eq_card I j⟩

theorem cnt_pos (j : BitVec 32) (h : ∃ b : Fin 8192, I.tgt (ix1 b) = j) :
    ∃ n : ℕ, 1 ≤ n ∧ cnt I j = ((n : ℝ) : EReal) := by
  obtain ⟨b, hb⟩ := h
  refine ⟨_, ?_, cnt_eq_card I j⟩
  exact Finset.card_pos.mpr ⟨b, Finset.mem_filter.mpr ⟨Finset.mem_univ b, hb⟩⟩

theorem cnt_ne_zero (j : BitVec 32) (h : ∃ b : Fin 8192, I.tgt (ix1 b) = j) : cnt I j ≠ 0 := by
  obtain ⟨n, hn, hc⟩ := cnt_pos I j h
  rw [hc]
  have : (n : ℝ) ≠ 0 := Nat.cast_ne_zero.mpr (Nat.one_le_iff_ne_zero.mp hn)
  exact_mod_cast this

/-- With a member in the class the guard max(n_j, 1) is n_j. -/
theorem max_cnt_one (j : BitVec 32) (h : ∃ b : Fin 8192, I.tgt (ix1 b) = j) :
    max (cnt I j) (Ideal.ofBits .f32 0x3F800000#32) = cnt I j := by
  obtain ⟨n, hn, hc⟩ := cnt_pos I j h
  rw [one_word, hc]
  apply max_eq_left
  have : (1 : ℝ) ≤ (n : ℝ) := Nat.one_le_cast.mpr hn
  exact_mod_cast this

/-! ### The indicator and the per-class statistics are real -/

theorem msk_real (j : BitVec 32) (b : Fin 8192) : IsReal (msk I j b) := by
  unfold msk
  split_ifs
  · exact IsReal.one
  · exact IsReal.zero

theorem cnt_isReal (j : BitVec 32) : IsReal (cnt I j) := ⟨_, cnt_eq_card I j⟩

theorem mu_real (hf : Finite I) (j : BitVec 32) (h : ∃ b : Fin 8192, I.tgt (ix1 b) = j) (d : Fin 4096) :
    ∃ r : ℝ, mu I j d = (r : EReal) :=
  IsReal.div (IsReal.sum _ _ fun b _ => IsReal.mul (hf.mean (ix2 b d)) (msk_real I j b)) (cnt_isReal I j) (cnt_ne_zero I j h)

theorem ls_real (hf : Finite I) (j : BitVec 32) (h : ∃ b : Fin 8192, I.tgt (ix1 b) = j) (d : Fin 4096) :
    ∃ r : ℝ, ls I j d = (r : EReal) :=
  IsReal.div (IsReal.sum _ _ fun b _ => IsReal.mul (hf.lsd (ix2 b d)) (msk_real I j b)) (cnt_isReal I j) (cnt_ne_zero I j h)

theorem ldm_real (hf : Finite I) (j : BitVec 32) (h : ∃ b : Fin 8192, I.tgt (ix1 b) = j) :
    ∃ r : ℝ, ldm I j = (r : EReal) :=
  IsReal.div (IsReal.sum _ _ fun b _ => IsReal.mul (hf.ldt (ix1 b)) (msk_real I j b)) (cnt_isReal I j) (cnt_ne_zero I j h)

end Cert.Spec

end
-- ==== Proof.RefBasics.lean ====
/-
  Three small facts the reading of the reference's stages rests on: a sum over the indices of a one-axis array is
  the sum over its coordinate; and the one-bit word of an integer equality test, converted to a float on the
  extended reals, is the indicator of the equality (1 when the words are equal, 0 otherwise).
-/
import proofs.«179402_j71244917506189_2_alg».proof.Proof.RefReadP
import proofs.«179402_j71244917506189_2_alg».proof.Proof.Spec

noncomputable section

open scoped BigOperators

namespace Cert.RefSide

open Cert.ReferenceIdeal Cert.ReferenceIdeal.Gen Cert.ReferenceIdeal.ReadP Cert.Spec
open Idealize.ShloMosaic Idealize.ShloMosaic.ValueIdx

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The one-bit word of an equality test, read as a float, is the indicator of the equality. -/
theorem uitofp_cmpi_eq (a w : BitVec 32) :
    (FloatOps.uitofp (F := Ideal) .f32 (IntOp.cmpi .eq a w) : EReal) = if a = w then 1 else 0 := by
  by_cases h : a = w
  · simp [IntOp.cmpi, h, FloatOps.uitofp]
  · simp [IntOp.cmpi, h, FloatOps.uitofp]

end Cert.RefSide

end
-- ==== Proof.RefClass0.lean ====
/-
  The reference's statistics of class 0, stage by stage, each read at an index as the function of the inputs the
  specification names: the indicator of the class, its size (the indicator summed over the 8192 rows), the masked
  mean of logdet, the masked column means of mean and log_sd (each a sum over the rows of the input times the
  indicator, divided by the size), the three row-broadcast terms of the Gaussian log-density (kappa - ls, the
  column mean mu, and exp(-2 ls)), one row's log-density (the sum over the 4096 features), and its masked mean.
  Every sum starts from the zero word, which is the extended reals' zero, so it drops out by 0 + x = x; nothing
  else is used of the arithmetic, and no hypothesis is made on the inputs.
-/
import proofs.«179402_j71244917506189_2_alg».proof.Proof.RefBasics

noncomputable section

open scoped BigOperators

namespace Cert.RefSide

open Cert.ReferenceIdeal Cert.ReferenceIdeal.Gen Cert.ReferenceIdeal.ReadP Cert.Spec
open Idealize.ShloMosaic Idealize.ShloMosaic.ValueIdx

variable (I : Inputs)

/-! ## Class 0: the stages of its statistics, each read at an index -/

/-- The class's indicator, row by row. -/
theorem msk0 (b : Fin 8192) : val_main_v2 (F := Ideal) I.tgt (ix1 b) = msk I 0#32 b := by
  rw [val_main_v2_apply, val_main_v1_apply, val_main_v0_apply, val_main_c_apply]
  exact uitofp_cmpi_eq _ _

/-- The class's size: the indicator summed over the rows, from a zero initial value. -/
theorem cnt0 (i : S_.Idx) : val_main_v3 (F := Ideal) I.tgt i = cnt I 0#32 := by
  rw [val_main_v3_apply, val_main_cst_apply, sum_idx1]
  simp only [msk0, Ideal.ofBits_def, Ideal.ofBits_zero_f32, zero_add]
  rfl

/-- The class's mean of logdet. -/
theorem ldm0 (i : S_.Idx) : val_main_v6 (F := Ideal) I.tgt I.ldt i = ldm I 0#32 := by
  rw [val_main_v6_apply, val_main_v5_apply, val_main_cst_0_apply, sum_idx1, cnt0]
  simp only [val_main_v4_apply, msk0, Ideal.ofBits_def, Ideal.ofBits_zero_f32, zero_add, Ideal.mulf_def, Ideal.hostDivf_def]
  rfl

/-- The indicator spread along the features, as the column means of `mean` use it. -/
theorem mskM0 (b : Fin 8192) (d : Fin 4096) : val_main_v8 (F := Ideal) I.tgt (ix2 b d) = msk I 0#32 b := by
  rw [val_main_v8_apply, val_main_v7_apply]
  exact (congrArg (val_main_v2 (F := Ideal) I.tgt) (funext fun a => by match a with | ⟨0, _⟩ => rfl)).trans (msk0 I b)

/-- The indicator spread along the features, as the column means of `log_sd` use it. -/
theorem mskL0 (b : Fin 8192) (d : Fin 4096) : val_main_v14 (F := Ideal) I.tgt (ix2 b d) = msk I 0#32 b := by
  rw [val_main_v14_apply, val_main_v13_apply]
  exact (congrArg (val_main_v2 (F := Ideal) I.tgt) (funext fun a => by match a with | ⟨0, _⟩ => rfl)).trans (msk0 I b)

/-- The class's column means of `mean`. -/
theorem mu0 (d : Fin 4096) : val_main_v12 (F := Ideal) I.mean I.tgt (ix1 d) = mu I 0#32 d := by
  have hk : ∀ k : Fin 8192, idx_main_v10 (ix1 d) k = ix2 k d := fun k =>
    funext fun a => by match a with | ⟨0, _⟩ => rfl | ⟨1, _⟩ => rfl
  rw [val_main_v12_apply, val_main_v10_apply, val_main_v11_apply, cnt0, val_main_cst_1_apply]
  simp only [hk, val_main_v9_apply, mskM0, Ideal.ofBits_def, Ideal.ofBits_zero_f32, zero_add, Ideal.mulf_def, Ideal.hostDivf_def]
  rfl

/-- The class's column means of `log_sd`. -/
theorem ls0 (d : Fin 4096) : val_main_v18 (F := Ideal) I.lsd I.tgt (ix1 d) = ls I 0#32 d := by
  have hk : ∀ k : Fin 8192, idx_main_v16 (ix1 d) k = ix2 k d := fun k =>
    funext fun a => by match a with | ⟨0, _⟩ => rfl | ⟨1, _⟩ => rfl
  rw [val_main_v18_apply, val_main_v16_apply, val_main_v17_apply, cnt0, val_main_cst_2_apply]
  simp only [hk, val_main_v15_apply, mskL0, Ideal.ofBits_def, Ideal.ofBits_zero_f32, zero_add, Ideal.mulf_def, Ideal.hostDivf_def]
  rfl

/-- The column means of `mean` spread down the rows. -/
theorem muB0 (b : Fin 8192) (d : Fin 4096) : val_main_v22 (F := Ideal) I.mean I.tgt (ix2 b d) = mu I 0#32 d := by
  rw [val_main_v22_apply, val_main_v21_apply]
  exact (congrArg (val_main_v12 (F := Ideal) I.mean I.tgt) (funext fun a => by match a with | ⟨0, _⟩ => rfl)).trans (mu0 I d)

/-- The normalising term kappa minus the column mean of `log_sd`, spread down the rows. -/
theorem kmlB0 (b : Fin 8192) (d : Fin 4096) : val_main_v34 (F := Ideal) I.lsd I.tgt (ix2 b d) = kappa - ls I 0#32 d := by
  rw [val_main_v34_apply, val_main_v33_apply]
  refine (congrArg (val_main_v20 (F := Ideal) I.lsd I.tgt) (funext fun a => by match a with | ⟨0, _⟩ => rfl) :
    _ = val_main_v20 (F := Ideal) I.lsd I.tgt (ix1 d)).trans ?_
  rw [val_main_v20_apply, val_main_v19_apply, val_main_cst_3_apply, ls0]
  rfl

/-- The inverse variance exp(-2 ls), spread down the rows. -/
theorem expB0 (b : Fin 8192) (d : Fin 4096) :
    val_main_v31 (F := Ideal) I.lsd I.tgt (ix2 b d) = Ideal.exp (mtwo * ls I 0#32 d) := by
  rw [val_main_v31_apply, val_main_v30_apply]
  refine (congrArg (val_main_v29 (F := Ideal) I.lsd I.tgt) (funext fun a => by match a with | ⟨0, _⟩ => rfl) :
    _ = val_main_v29 (F := Ideal) I.lsd I.tgt (ix1 d)).trans ?_
  rw [val_main_v29_apply, val_main_v28_apply, val_main_v27_apply, val_main_cst_5_apply, ls0]
  rfl

/-- One row's log-density under the class: the sum over the features, from a zero initial value. -/
theorem row0 (b : Fin 8192) : val_main_v36 (F := Ideal) I.z I.mean I.lsd I.tgt (ix1 b) = rowlp I 0#32 b := by
  have hk : ∀ k : Fin 4096, idx_main_v36 (ix1 b) k = ix2 b k := fun k =>
    funext fun a => by match a with | ⟨0, _⟩ => rfl | ⟨1, _⟩ => rfl
  rw [val_main_v36_apply, val_main_cst_6_apply]
  simp only [hk, val_main_v35_apply, val_main_v32_apply, val_main_v26_apply, val_main_v25_apply, val_main_cst_4_apply, val_main_v24_apply, val_main_v23_apply,
    kmlB0, expB0, muB0, Ideal.ofBits_def, Ideal.ofBits_zero_f32, zero_add, Ideal.mulf_def, Ideal.subf_def]
  rfl

/-- The class's log-density: the masked mean of its rows'. -/
theorem lp0 (i : S_.Idx) : val_main_v39 (F := Ideal) I.z I.mean I.lsd I.tgt i = lp I 0#32 := by
  rw [val_main_v39_apply, val_main_v38_apply, val_main_cst_7_apply, sum_idx1, cnt0]
  simp only [val_main_v37_apply, row0, msk0, Ideal.ofBits_def, Ideal.ofBits_zero_f32, zero_add, Ideal.mulf_def, Ideal.hostDivf_def]
  rfl

end Cert.RefSide

end
-- ==== Proof.RefClass1.lean ====
/-
  The reference's statistics of class 1, stage by stage, each read at an index as the function of the inputs the
  specification names: the indicator of the class, its size (the indicator summed over the 8192 rows), the masked
  mean of logdet, the masked column means of mean and log_sd (each a sum over the rows of the input times the
  indicator, divided by the size), the three row-broadcast terms of the Gaussian log-density (kappa - ls, the
  column mean mu, and exp(-2 ls)), one row's log-density (the sum over the 4096 features), and its masked mean.
  Every sum starts from the zero word, which is the extended reals' zero, so it drops out by 0 + x = x; nothing
  else is used of the arithmetic, and no hypothesis is made on the inputs.
-/
import proofs.«179402_j71244917506189_2_alg».proof.Proof.RefBasics

noncomputable section

open scoped BigOperators

namespace Cert.RefSide

open Cert.ReferenceIdeal Cert.ReferenceIdeal.Gen Cert.ReferenceIdeal.ReadP Cert.Spec
open Idealize.ShloMosaic Idealize.ShloMosaic.ValueIdx

variable (I : Inputs)

/-! ## Class 1: the stages of its statistics, each read at an index -/

/-- The class's indicator, row by row. -/
theorem msk1 (b : Fin 8192) : val_main_v42 (F := Ideal) I.tgt (ix1 b) = msk I 1#32 b := by
  rw [val_main_v42_apply, val_main_v41_apply, val_main_v40_apply, val_main_c_8_apply]
  exact uitofp_cmpi_eq _ _

/-- The class's size: the indicator summed over the rows, from a zero initial value. -/
theorem cnt1 (i : S_.Idx) : val_main_v43 (F := Ideal) I.tgt i = cnt I 1#32 := by
  rw [val_main_v43_apply, val_main_cst_9_apply, sum_idx1]
  simp only [msk1, Ideal.ofBits_def, Ideal.ofBits_zero_f32, zero_add]
  rfl

/-- The class's mean of logdet. -/
theorem ldm1 (i : S_.Idx) : val_main_v46 (F := Ideal) I.tgt I.ldt i = ldm I 1#32 := by
  rw [val_main_v46_apply, val_main_v45_apply, val_main_cst_10_apply, sum_idx1, cnt1]
  simp only [val_main_v44_apply, msk1, Ideal.ofBits_def, Ideal.ofBits_zero_f32, zero_add, Ideal.mulf_def, Ideal.hostDivf_def]
  rfl

/-- The indicator spread along the features, as the column means of `mean` use it. -/
theorem mskM1 (b : Fin 8192) (d : Fin 4096) : val_main_v48 (F := Ideal) I.tgt (ix2 b d) = msk I 1#32 b := by
  rw [val_main_v48_apply, val_main_v47_apply]
  exact (congrArg (val_main_v42 (F := Ideal) I.tgt) (funext fun a => by match a with | ⟨0, _⟩ => rfl)).trans (msk1 I b)

/-- The indicator spread along the features, as the column means of `log_sd` use it. -/
theorem mskL1 (b : Fin 8192) (d : Fin 4096) : val_main_v54 (F := Ideal) I.tgt (ix2 b d) = msk I 1#32 b := by
  rw [val_main_v54_apply, val_main_v53_apply]
  exact (congrArg (val_main_v42 (F := Ideal) I.tgt) (funext fun a => by match a with | ⟨0, _⟩ => rfl)).trans (msk1 I b)

/-- The class's column means of `mean`. -/
theorem mu1 (d : Fin 4096) : val_main_v52 (F := Ideal) I.mean I.tgt (ix1 d) = mu I 1#32 d := by
  have hk : ∀ k : Fin 8192, idx_main_v50 (ix1 d) k = ix2 k d := fun k =>
    funext fun a => by match a with | ⟨0, _⟩ => rfl | ⟨1, _⟩ => rfl
  rw [val_main_v52_apply, val_main_v50_apply, val_main_v51_apply, cnt1, val_main_cst_11_apply]
  simp only [hk, val_main_v49_apply, mskM1, Ideal.ofBits_def, Ideal.ofBits_zero_f32, zero_add, Ideal.mulf_def, Ideal.hostDivf_def]
  rfl

/-- The class's column means of `log_sd`. -/
theorem ls1 (d : Fin 4096) : val_main_v58 (F := Ideal) I.lsd I.tgt (ix1 d) = ls I 1#32 d := by
  have hk : ∀ k : Fin 8192, idx_main_v56 (ix1 d) k = ix2 k d := fun k =>
    funext fun a => by match a with | ⟨0, _⟩ => rfl | ⟨1, _⟩ => rfl
  rw [val_main_v58_apply, val_main_v56_apply, val_main_v57_apply, cnt1, val_main_cst_12_apply]
  simp only [hk, val_main_v55_apply, mskL1, Ideal.ofBits_def, Ideal.ofBits_zero_f32, zero_add, Ideal.mulf_def, Ideal.hostDivf_def]
  rfl

/-- The column means of `mean` spread down the rows. -/
theorem muB1 (b : Fin 8192) (d : Fin 4096) : val_main_v62 (F := Ideal) I.mean I.tgt (ix2 b d) = mu I 1#32 d := by
  rw [val_main_v62_apply, val_main_v61_apply]
  exact (congrArg (val_main_v52 (F := Ideal) I.mean I.tgt) (funext fun a => by match a with | ⟨0, _⟩ => rfl)).trans (mu1 I d)

/-- The normalising term kappa minus the column mean of `log_sd`, spread down the rows. -/
theorem kmlB1 (b : Fin 8192) (d : Fin 4096) : val_main_v74 (F := Ideal) I.lsd I.tgt (ix2 b d) = kappa - ls I 1#32 d := by
  rw [val_main_v74_apply, val_main_v73_apply]
  refine (congrArg (val_main_v60 (F := Ideal) I.lsd I.tgt) (funext fun a => by match a with | ⟨0, _⟩ => rfl) :
    _ = val_main_v60 (F := Ideal) I.lsd I.tgt (ix1 d)).trans ?_
  rw [val_main_v60_apply, val_main_v59_apply, val_main_cst_13_apply, ls1]
  rfl

/-- The inverse variance exp(-2 ls), spread down the rows. -/
theorem expB1 (b : Fin 8192) (d : Fin 4096) :
    val_main_v71 (F := Ideal) I.lsd I.tgt (ix2 b d) = Ideal.exp (mtwo * ls I 1#32 d) := by
  rw [val_main_v71_apply, val_main_v70_apply]
  refine (congrArg (val_main_v69 (F := Ideal) I.lsd I.tgt) (funext fun a => by match a with | ⟨0, _⟩ => rfl) :
    _ = val_main_v69 (F := Ideal) I.lsd I.tgt (ix1 d)).trans ?_
  rw [val_main_v69_apply, val_main_v68_apply, val_main_v67_apply, val_main_cst_15_apply, ls1]
  rfl

/-- One row's log-density under the class: the sum over the features, from a zero initial value. -/
theorem row1 (b : Fin 8192) : val_main_v76 (F := Ideal) I.z I.mean I.lsd I.tgt (ix1 b) = rowlp I 1#32 b := by
  have hk : ∀ k : Fin 4096, idx_main_v76 (ix1 b) k = ix2 b k := fun k =>
    funext fun a => by match a with | ⟨0, _⟩ => rfl | ⟨1, _⟩ => rfl
  rw [val_main_v76_apply, val_main_cst_16_apply]
  simp only [hk, val_main_v75_apply, val_main_v72_apply, val_main_v66_apply, val_main_v65_apply, val_main_cst_14_apply, val_main_v64_apply, val_main_v63_apply,
    kmlB1, expB1, muB1, Ideal.ofBits_def, Ideal.ofBits_zero_f32, zero_add, Ideal.mulf_def, Ideal.subf_def]
  rfl

/-- The class's log-density: the masked mean of its rows'. -/
theorem lp1 (i : S_.Idx) : val_main_v79 (F := Ideal) I.z I.mean I.lsd I.tgt i = lp I 1#32 := by
  rw [val_main_v79_apply, val_main_v78_apply, val_main_cst_17_apply, sum_idx1, cnt1]
  simp only [val_main_v77_apply, row1, msk1, Ideal.ofBits_def, Ideal.ofBits_zero_f32, zero_add, Ideal.mulf_def, Ideal.hostDivf_def]
  rfl

end Cert.RefSide

end
-- ==== Proof.KI.HostReads0.lean ====
/-
  The first stretch of host operations, read at the launch memory: the two class indicators (an integer equality
  test converted to a float), stacked as the two columns of one [8192, 2] array; each class's size, the indicator
  summed over the rows and guarded from below by 1, which with a member in the class is the size itself; and each
  class's mean of logdet, the masked sum over the rows divided by that guarded size. The sums start from the zero
  word. The stretch writes none of the five arguments.
-/
import proofs.«179402_j71244917506189_2_alg».proof.Proof.KI.Run
import proofs.«179402_j71244917506189_2_alg».proof.Proof.LawBase
import proofs.«179402_j71244917506189_2_alg».proof.Proof.RefClass0
import proofs.«179402_j71244917506189_2_alg».proof.Proof.RefClass1

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL.Sem
open Idealize.ShloMosaic.ValueIdx
open Cert.Spec (Inputs msk cnt ldm mu ls kappa half mtwo two rowlp lp prior cls out0 out1 out2 out3 musel ivsel rowsq ssq cpart klp Finite BothClasses)

variable (m : (ℓ : Loc nD τ sig) → Buf (Elt Ideal) ℓ) (ρ : Dev nD → PrngReg) (c : Dev nD)

/-- The kernel's five inputs, read off the launch memory on core c. -/
def kIn (m : (ℓ : Loc nD τ sig) → Buf (Elt Ideal) ℓ) (c : Dev nD) : Cert.Spec.Inputs :=
  ⟨m ((c.tc : Thread nD τ).loc main_arg0), m ((c.tc : Thread nD τ).loc main_arg1), m ((c.tc : Thread nD τ).loc main_arg2),
   m ((c.tc : Thread nD τ).loc main_arg3), m ((c.tc : Thread nD τ).loc main_arg4)⟩

/-! ## The first stretch: the class indicators, the class sizes, the per-class means of logdet -/

theorem V1_msk0 (b : Fin 8192) : V1 (F := Ideal) m ρ c main_v2 (ix1 b) = msk (kIn m c) 0#32 b := by
  show StableHlo.after hostOps0 (W0 m ρ c) (Proc.devRef .tc main_v2) (ix1 b) = _
  after_results
  exact Cert.RefSide.msk0 (kIn m c) b

theorem V1_msk1 (b : Fin 8192) : V1 (F := Ideal) m ρ c main_v5 (ix1 b) = msk (kIn m c) 1#32 b := by
  show StableHlo.after hostOps0 (W0 m ρ c) (Proc.devRef .tc main_v5) (ix1 b) = _
  after_results
  exact Cert.RefSide.msk1 (kIn m c) b

theorem V1_ind0 (b : Fin 8192) : V1 (F := Ideal) m ρ c main_v8 (ix2 b (0 : Fin 2)) = msk (kIn m c) 0#32 b := by
  show StableHlo.after hostOps0 (W0 m ρ c) (Proc.devRef .tc main_v8) (ix2 b (0 : Fin 2)) = _
  after_results
  refine (concatenate_pair_apply_left (t := S8192x2) (s₁ := S8192x1) (s₂ := S8192x1) 1 _ _
    concatenates_S8192x1_S8192x1_S8192x2_d1 (ix2 b (0 : Fin 2)) rfl (ix2 b (0 : Fin 1))
    (fun a => by match a with | ⟨0, _⟩ => rfl | ⟨1, _⟩ => rfl)).trans ?_
  refine (Cert.ReferenceIdeal.ReadP.val_main_v7_apply (F := Ideal) (kIn m c).tgt (ix2 b (0 : Fin 1))).trans ?_
  exact (congrArg (Cert.ReferenceIdeal.ReadP.val_main_v2 (F := Ideal) (kIn m c).tgt)
    (funext fun a => by match a with | ⟨0, _⟩ => rfl)).trans (Cert.RefSide.msk0 (kIn m c) b)

theorem V1_ind1 (b : Fin 8192) : V1 (F := Ideal) m ρ c main_v8 (ix2 b (1 : Fin 2)) = msk (kIn m c) 1#32 b := by
  show StableHlo.after hostOps0 (W0 m ρ c) (Proc.devRef .tc main_v8) (ix2 b (1 : Fin 2)) = _
  after_results
  refine (concatenate_pair_apply_right (t := S8192x2) (s₁ := S8192x1) (s₂ := S8192x1) 1 _ _
    concatenates_S8192x1_S8192x1_S8192x2_d1 (ix2 b (1 : Fin 2)) rfl rfl (ix2 b (0 : Fin 1))
    (fun a ha => by match a with | ⟨0, _⟩ => rfl | ⟨1, _⟩ => exact absurd rfl ha) rfl).trans ?_
  refine (Cert.ReferenceIdeal.ReadP.val_main_v47_apply (F := Ideal) (kIn m c).tgt (ix2 b (0 : Fin 1))).trans ?_
  exact (congrArg (Cert.ReferenceIdeal.ReadP.val_main_v42 (F := Ideal) (kIn m c).tgt)
    (funext fun a => by match a with | ⟨0, _⟩ => rfl)).trans (Cert.RefSide.msk1 (kIn m c) b)

/-- The indicators as the regions find them: column j of the [8192, 2] array is class j's indicator. -/
theorem V1_ind (b : Fin 8192) (j : Fin 2) : V1 (F := Ideal) m ρ c main_v8 (ix2 b j) = msk (kIn m c) (cls j.val) b := by
  match j with
  | ⟨0, _⟩ => exact V1_ind0 m ρ c b
  | ⟨1, _⟩ => exact V1_ind1 m ρ c b

/-- With a member in the class, the guarded size max(n_0, 1) is the size. -/
theorem V1_cnt0 (hb : BothClasses (kIn m c)) (i : S_.Idx) : V1 (F := Ideal) m ρ c main_v10 i = cnt (kIn m c) 0#32 := by
  show StableHlo.after hostOps0 (W0 m ρ c) (Proc.devRef .tc main_v10) i = _
  after_results
  show max (Cert.ReferenceIdeal.ReadP.val_main_v3 (F := Ideal) (kIn m c).tgt i) (Ideal.ofBits .f32 0x3F800000#32) = _
  rw [Cert.RefSide.cnt0, Cert.Spec.max_cnt_one _ _ hb.c0]

theorem V1_cnt1 (hb : BothClasses (kIn m c)) (i : S_.Idx) : V1 (F := Ideal) m ρ c main_v12 i = cnt (kIn m c) 1#32 := by
  show StableHlo.after hostOps0 (W0 m ρ c) (Proc.devRef .tc main_v12) i = _
  after_results
  show max (Cert.ReferenceIdeal.ReadP.val_main_v43 (F := Ideal) (kIn m c).tgt i) (Ideal.ofBits .f32 0x3F800000#32) = _
  rw [Cert.RefSide.cnt1, Cert.Spec.max_cnt_one _ _ hb.c1]

/-- A host quotient at an index, on the extended reals. -/
theorem hostDivf_at {s : Shape} (a b : FVec Ideal s .f32) (i : s.Idx) : Host.divf a b i = Ideal.div (a i) (b i) := rfl

/-- The class's mean of logdet, its divisor the guarded size. -/
theorem V1_ldm0 (hb : BothClasses (kIn m c)) (i : S_.Idx) : V1 (F := Ideal) m ρ c main_v15 i = ldm (kIn m c) 0#32 := by
  show StableHlo.after hostOps0 (W0 m ρ c) (Proc.devRef .tc main_v15) i = _
  after_results_simp
  refine Eq.trans ?_ ((Cert.ReferenceIdeal.ReadP.val_main_v6_apply (F := Ideal) (kIn m c).tgt (kIn m c).ldt i).symm.trans
    (Cert.RefSide.ldm0 (kIn m c) i))
  show FloatOps.hostDivf (Cert.ReferenceIdeal.ReadP.val_main_v5 (F := Ideal) (kIn m c).tgt (kIn m c).ldt i)
    (max (Cert.ReferenceIdeal.ReadP.val_main_v3 (F := Ideal) (kIn m c).tgt i) (Ideal.ofBits .f32 0x3F800000#32)) = _
  rw [Cert.RefSide.cnt0, Cert.Spec.max_cnt_one _ _ hb.c0]

theorem V1_ldm1 (hb : BothClasses (kIn m c)) (i : S_.Idx) : V1 (F := Ideal) m ρ c main_v18 i = ldm (kIn m c) 1#32 := by
  show StableHlo.after hostOps0 (W0 m ρ c) (Proc.devRef .tc main_v18) i = _
  after_results_simp
  refine Eq.trans ?_ ((Cert.ReferenceIdeal.ReadP.val_main_v46_apply (F := Ideal) (kIn m c).tgt (kIn m c).ldt i).symm.trans
    (Cert.RefSide.ldm1 (kIn m c) i))
  show FloatOps.hostDivf (Cert.ReferenceIdeal.ReadP.val_main_v45 (F := Ideal) (kIn m c).tgt (kIn m c).ldt i)
    (max (Cert.ReferenceIdeal.ReadP.val_main_v43 (F := Ideal) (kIn m c).tgt i) (Ideal.ofBits .f32 0x3F800000#32)) = _
  rw [Cert.RefSide.cnt1, Cert.Spec.max_cnt_one _ _ hb.c1]

/-- The stretch writes none of the arguments. -/
theorem V1_arg0 : V1 (F := Ideal) m ρ c main_arg0 = (kIn m c).z :=
  StableHlo.after_of_writes_sub hostOps0 _ hostOps0_writes (by decide)
theorem V1_arg1 : V1 (F := Ideal) m ρ c main_arg1 = (kIn m c).mean :=
  StableHlo.after_of_writes_sub hostOps0 _ hostOps0_writes (by decide)
theorem V1_arg2 : V1 (F := Ideal) m ρ c main_arg2 = (kIn m c).lsd :=
  StableHlo.after_of_writes_sub hostOps0 _ hostOps0_writes (by decide)

end Cert.KernelIdeal.Hand

end
-- ==== Proof.LibRowForms.lean ====
/-
  Three reads at an index beside the library's layout lemmas, at any extents.

  A sum DOWN the columns of an `[a, b]` array (a reduction along its first axis) at column `c` runs over `k ↦ (k, c)`.
  A unit-stride slice of a matrix with an offset on BOTH axes (a diagonal block), or of a vector, reads its operand at
  the index moved by the offsets. A matrix `[a, b]` flattened to a row `[1, n]` reads, at position `k = p·b + q`, the
  matrix at `(p, q)`. The indices are written by coordinates, so each lemma applies to a printed operation by
  unification.
-/
import Idealize.ShloMosaic.Lib.ValueLayout
import Idealize.ShloMosaic.PureOps.Ideal.Laws

namespace Idealize.ShloMosaic.ValueIdx

open Idealize.ShloMosaic

variable {α : Type}

/-- Over a reduction of `[a, b]` along its FIRST axis, the source index above column `c` with `k` on the dropped axis is `(k, c)`. -/
theorem lift_col {a b : ℕ} (h : (⟨2, ![a, b]⟩ : Shape).Reduces [(0 : Fin 2)] ⟨1, ![b]⟩) (c : Fin b) (k : Fin a) :
    h.lift (ix1 c) k = ix2 k c :=
  funext fun d => Fin.ext (by match d with | ⟨0, _⟩ => rfl | ⟨1, _⟩ => rfl)

variable {φ : FTy}

/-- A sum down the columns of an `[a, b]` array at column `c`, at the exact values: the sum over the column. -/
theorem multiReduction_add_col {a b : ℕ} (src : FVec Ideal ⟨2, ![a, b]⟩ φ) (acc : BitVec φ.bits)
    (h : (⟨2, ![a, b]⟩ : Shape).Reduces [(0 : Fin 2)] ⟨1, ![b]⟩) (hφ : FKind.Formats φ) (hacc : acc = FKind.add.neutral φ hφ) (c : Fin b) :
    multiReduction .add [(0 : Fin 2)] ⟨1, ![b]⟩ src acc h hφ hacc (ix1 c) = ∑ k : Fin a, src (ix2 k c) := by
  refine (Ideal.multiReduction_add_single src acc h hφ hacc (ix1 c)).trans ?_
  exact Finset.sum_congr rfl fun k _ => congrArg src (lift_col h c k)

/-- A unit-stride slice of a matrix reads the matrix at the index moved by the offsets. -/
theorem slice2_apply {A B a b : ℕ} (o0 o1 : ℕ) (x : (⟨2, ![A, B]⟩ : Shape).Idx → α)
    (h : (⟨2, ![A, B]⟩ : Shape).Slices ![o0, o1] ⟨2, ![a, b]⟩) (p : Fin a) (q : Fin b) (P : Fin A) (Q : Fin B)
    (hP : P.val = o0 + p.val) (hQ : Q.val = o1 + q.val) :
    extractStridedSlice ⟨2, ![a, b]⟩ ![o0, o1] x h (ix2 p q) = x (ix2 P Q) :=
  extractStridedSlice_apply ![o0, o1] x h (ix2 p q) (ix2 P Q) fun ax => by
    match ax with
    | ⟨0, _⟩ => exact hP
    | ⟨1, _⟩ => exact hQ

/-- A unit-stride slice of a vector reads the vector at the index moved by the offset. -/
theorem slice1_apply {A a : ℕ} (o : ℕ) (x : (⟨1, ![A]⟩ : Shape).Idx → α)
    (h : (⟨1, ![A]⟩ : Shape).Slices ![o] ⟨1, ![a]⟩) (p : Fin a) (P : Fin A) (hP : P.val = o + p.val) :
    extractStridedSlice ⟨1, ![a]⟩ ![o] x h (ix1 p) = x (ix1 P) :=
  extractStridedSlice_apply ![o] x h (ix1 p) (ix1 P) fun ax => by
    match ax with
    | ⟨0, _⟩ => exact hP

/-- A matrix `[a, b]` flattened to the row `[1, a·b]` reads, at `(u, k)`, the matrix at `(k / b, k % b)`. -/
theorem shapeCast_ab_1n_apply {a b n : ℕ} (v : (⟨2, ![a, b]⟩ : Shape).Idx → α) (h : (⟨2, ![a, b]⟩ : Shape).ShapeCasts ⟨2, ![1, n]⟩)
    (u : Fin 1) (k : Fin n) (p : Fin a) (q : Fin b) (hk : k.val = p.val * b + q.val) :
    shapeCast ⟨2, ![1, n]⟩ v h (ix2 u k) = v (ix2 p q) :=
  shapeCast_apply v h _ _ (by
    have hu : u.val = 0 := by omega
    rw [Shape.rowMajor_val_two, Shape.rowMajor_val_two]
    show p.val * b + q.val = u.val * n + k.val
    rw [hu, hk, Nat.zero_mul, Nat.zero_add])

end Idealize.ShloMosaic.ValueIdx
-- ==== Proof.LibKeepdims.lean ====
/-
  Row reductions that keep their axis, read at an index.

  A kernel's `jnp.max(x, axis=-1, keepdims=True)` or `jnp.sum(…, keepdims=True)` on an `[a, b]` array prints as a lane
  reduction to `[a]`, a shape cast to the column `[a, 1]` and a broadcast of the column back to `[a, b]`.  Read at
  `(r, c)` each step names one index of its operand: the broadcast reads the column at `(r, 0)`, the cast reads the vector
  at `r`, and the reduction at `r` runs over the row `k ↦ (r, k)` — as a fold of `max` from the accumulator's value for a
  maximum, as a plain sum for an addition.  All at any extents `a`, `b` and any float format; the indices are written by
  coordinates (`ix1`, `ix2`), so each lemma applies to a printed operation by unification.
-/
import Idealize.ShloMosaic.Lib.ValueLayout
import Idealize.ShloMosaic.PureOps.Ideal.Laws

namespace Idealize.ShloMosaic.ValueIdx

open Idealize.ShloMosaic

variable {α : Type}

/-- An `[a]` vector cast to the column `[a, 1]` reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Over a reduction of `[a, b]` along its last axis, the source index above `r` with `k` on the dropped axis is `(r, k)`. -/
theorem lift_row {a b : ℕ} (h : (⟨2, ![a, b]⟩ : Shape).Reduces [(1 : Fin 2)] ⟨1, ![a]⟩) (r : Fin a) (k : Fin b) :
    h.lift (ix1 r) k = ix2 r k :=
  funext fun c => Fin.ext (by match c with | ⟨0, _⟩ => rfl | ⟨1, _⟩ => rfl)

variable {φ : FTy}

/-- A lane maximum of an `[a, b]` array at row `r`, at the exact values: the fold of `max` from the accumulator's value over the row. -/
theorem multiReduction_maximumf_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (r : Fin a) :
    multiReduction .maximumf [(1 : Fin 2)] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (Finset.fold max (Ideal.ofBits φ acc) · (Finset.univ : Finset (Fin b))) (funext fun k => congrArg src (lift_row h r k))

/-- A lane sum of an `[a, b]` array at row `r`, at the exact values: the sum over the row. -/
theorem multiReduction_add_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (r : Fin a) :
    multiReduction .add [(1 : Fin 2)] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end Idealize.ShloMosaic.ValueIdx
-- ==== Proof.LibStackedPieces.lean ====
/-
  Arrays laid one after another along their first axis, read at an entry.

  `jnp.concatenate([x1, x2, x3], axis=0)` of matrices of one width (or of vectors) reads, at row r, the piece whose span of
  rows holds r, at the row r less the rows of the pieces before it; every other coordinate is unchanged. Stated for three
  and for two pieces, for matrices [n, w] and for vectors [n], at any extents and any element type, with the row inside
  the piece given by the caller together with the one arithmetic fact that places it (so each lemma applies to a printed
  concatenation by unification and the side goal is closed by `rfl` or `omega`).
-/
import Idealize.ShloMosaic.Lib.Pipeline.Value
import Idealize.ShloMosaic.Lib.ValueIdx

noncomputable section

namespace Cert.LibStackedPieces

open Idealize.ShloMosaic Idealize.ShloMosaic.ValueIdx

section Stack
variable {α : Type}

/-- Three matrices stacked by rows: row r of the stack is row r' of the piece whose span holds r. -/
theorem stack3_rows_0 {n1 n2 n3 n w : Nat} (x1 : (⟨2, ![n1, w]⟩ : Shape).Idx → α) (x2 : (⟨2, ![n2, w]⟩ : Shape).Idx → α)
    (x3 : (⟨2, ![n3, w]⟩ : Shape).Idx → α) (h : Shape.Concatenates [⟨2, ![n1, w]⟩, ⟨2, ![n2, w]⟩, ⟨2, ![n3, w]⟩] ⟨2, ![n, w]⟩ 0)
    (r : Fin n) (e : Fin w) (r' : Fin n1) (hr : r.val = r'.val) :
    concatenate ⟨2, ![n, w]⟩ 0 [⟨⟨2, ![n1, w]⟩, x1⟩, ⟨⟨2, ![n2, w]⟩, x2⟩, ⟨⟨2, ![n3, w]⟩, x3⟩] h (ix2 r e) = x1 (ix2 r' e) :=
  concatenate_apply_piece 0 [⟨⟨2, ![n1, w]⟩, x1⟩, ⟨⟨2, ![n2, w]⟩, x2⟩, ⟨⟨2, ![n3, w]⟩, x3⟩] h (ix2 r e) 0 (by simp) _ x1 rfl rfl 0 (by simp) (ix2 r' e)
    (fun b hb => by match b with | ⟨0, _⟩ => exact absurd rfl hb | ⟨1, _⟩ => rfl) (by show 0 + r'.val = r.val; omega)
theorem stack3_rows_1 {n1 n2 n3 n w : Nat} (x1 : (⟨2, ![n1, w]⟩ : Shape).Idx → α) (x2 : (⟨2, ![n2, w]⟩ : Shape).Idx → α)
    (x3 : (⟨2, ![n3, w]⟩ : Shape).Idx → α) (h : Shape.Concatenates [⟨2, ![n1, w]⟩, ⟨2, ![n2, w]⟩, ⟨2, ![n3, w]⟩] ⟨2, ![n, w]⟩ 0)
    (r : Fin n) (e : Fin w) (r' : Fin n2) (hr : r.val = n1 + r'.val) :
    concatenate ⟨2, ![n, w]⟩ 0 [⟨⟨2, ![n1, w]⟩, x1⟩, ⟨⟨2, ![n2, w]⟩, x2⟩, ⟨⟨2, ![n3, w]⟩, x3⟩] h (ix2 r e) = x2 (ix2 r' e) :=
  concatenate_apply_piece 0 [⟨⟨2, ![n1, w]⟩, x1⟩, ⟨⟨2, ![n2, w]⟩, x2⟩, ⟨⟨2, ![n3, w]⟩, x3⟩] h (ix2 r e) 1 (by simp) _ x2 rfl rfl n1 (by simp) (ix2 r' e)
    (fun b hb => by match b with | ⟨0, _⟩ => exact absurd rfl hb | ⟨1, _⟩ => rfl) (by show n1 + r'.val = r.val; omega)
theorem stack3_rows_2 {n1 n2 n3 n w : Nat} (x1 : (⟨2, ![n1, w]⟩ : Shape).Idx → α) (x2 : (⟨2, ![n2, w]⟩ : Shape).Idx → α)
    (x3 : (⟨2, ![n3, w]⟩ : Shape).Idx → α) (h : Shape.Concatenates [⟨2, ![n1, w]⟩, ⟨2, ![n2, w]⟩, ⟨2, ![n3, w]⟩] ⟨2, ![n, w]⟩ 0)
    (r : Fin n) (e : Fin w) (r' : Fin n3) (hr : r.val = n1 + n2 + r'.val) :
    concatenate ⟨2, ![n, w]⟩ 0 [⟨⟨2, ![n1, w]⟩, x1⟩, ⟨⟨2, ![n2, w]⟩, x2⟩, ⟨⟨2, ![n3, w]⟩, x3⟩] h (ix2 r e) = x3 (ix2 r' e) :=
  concatenate_apply_piece 0 [⟨⟨2, ![n1, w]⟩, x1⟩, ⟨⟨2, ![n2, w]⟩, x2⟩, ⟨⟨2, ![n3, w]⟩, x3⟩] h (ix2 r e) 2 (by simp) _ x3 rfl rfl (n1 + n2) (by simp) (ix2 r' e)
    (fun b hb => by match b with | ⟨0, _⟩ => exact absurd rfl hb | ⟨1, _⟩ => rfl) (by show n1 + n2 + r'.val = r.val; omega)

/-- Three vectors laid end to end. -/
theorem stack3_vec_0 {n1 n2 n3 n : Nat} (x1 : (⟨1, ![n1]⟩ : Shape).Idx → α) (x2 : (⟨1, ![n2]⟩ : Shape).Idx → α)
    (x3 : (⟨1, ![n3]⟩ : Shape).Idx → α) (h : Shape.Concatenates [⟨1, ![n1]⟩, ⟨1, ![n2]⟩, ⟨1, ![n3]⟩] ⟨1, ![n]⟩ 0)
    (r : Fin n) (r' : Fin n1) (hr : r.val = r'.val) :
    concatenate ⟨1, ![n]⟩ 0 [⟨⟨1, ![n1]⟩, x1⟩, ⟨⟨1, ![n2]⟩, x2⟩, ⟨⟨1, ![n3]⟩, x3⟩] h (ix1 r) = x1 (ix1 r') :=
  concatenate_apply_piece 0 [⟨⟨1, ![n1]⟩, x1⟩, ⟨⟨1, ![n2]⟩, x2⟩, ⟨⟨1, ![n3]⟩, x3⟩] h (ix1 r) 0 (by simp) _ x1 rfl rfl 0 (by simp) (ix1 r')
    (fun b hb => by match b with | ⟨0, _⟩ => exact absurd rfl hb) (by show 0 + r'.val = r.val; omega)
theorem stack3_vec_1 {n1 n2 n3 n : Nat} (x1 : (⟨1, ![n1]⟩ : Shape).Idx → α) (x2 : (⟨1, ![n2]⟩ : Shape).Idx → α)
    (x3 : (⟨1, ![n3]⟩ : Shape).Idx → α) (h : Shape.Concatenates [⟨1, ![n1]⟩, ⟨1, ![n2]⟩, ⟨1, ![n3]⟩] ⟨1, ![n]⟩ 0)
    (r : Fin n) (r' : Fin n2) (hr : r.val = n1 + r'.val) :
    concatenate ⟨1, ![n]⟩ 0 [⟨⟨1, ![n1]⟩, x1⟩, ⟨⟨1, ![n2]⟩, x2⟩, ⟨⟨1, ![n3]⟩, x3⟩] h (ix1 r) = x2 (ix1 r') :=
  concatenate_apply_piece 0 [⟨⟨1, ![n1]⟩, x1⟩, ⟨⟨1, ![n2]⟩, x2⟩, ⟨⟨1, ![n3]⟩, x3⟩] h (ix1 r) 1 (by simp) _ x2 rfl rfl n1 (by simp) (ix1 r')
    (fun b hb => by match b with | ⟨0, _⟩ => exact absurd rfl hb) (by show n1 + r'.val = r.val; omega)
theorem stack3_vec_2 {n1 n2 n3 n : Nat} (x1 : (⟨1, ![n1]⟩ : Shape).Idx → α) (x2 : (⟨1, ![n2]⟩ : Shape).Idx → α)
    (x3 : (⟨1, ![n3]⟩ : Shape).Idx → α) (h : Shape.Concatenates [⟨1, ![n1]⟩, ⟨1, ![n2]⟩, ⟨1, ![n3]⟩] ⟨1, ![n]⟩ 0)
    (r : Fin n) (r' : Fin n3) (hr : r.val = n1 + n2 + r'.val) :
    concatenate ⟨1, ![n]⟩ 0 [⟨⟨1, ![n1]⟩, x1⟩, ⟨⟨1, ![n2]⟩, x2⟩, ⟨⟨1, ![n3]⟩, x3⟩] h (ix1 r) = x3 (ix1 r') :=
  concatenate_apply_piece 0 [⟨⟨1, ![n1]⟩, x1⟩, ⟨⟨1, ![n2]⟩, x2⟩, ⟨⟨1, ![n3]⟩, x3⟩] h (ix1 r) 2 (by simp) _ x3 rfl rfl (n1 + n2) (by simp) (ix1 r')
    (fun b hb => by match b with | ⟨0, _⟩ => exact absurd rfl hb) (by show n1 + n2 + r'.val = r.val; omega)

/-- Two matrices stacked by rows, and two vectors laid end to end. -/
theorem stack2_rows_0 {n1 n2 n w : Nat} (x1 : (⟨2, ![n1, w]⟩ : Shape).Idx → α) (x2 : (⟨2, ![n2, w]⟩ : Shape).Idx → α)
    (h : Shape.Concatenates [⟨2, ![n1, w]⟩, ⟨2, ![n2, w]⟩] ⟨2, ![n, w]⟩ 0) (r : Fin n) (e : Fin w) (r' : Fin n1) (hr : r.val = r'.val) :
    concatenate ⟨2, ![n, w]⟩ 0 [⟨⟨2, ![n1, w]⟩, x1⟩, ⟨⟨2, ![n2, w]⟩, x2⟩] h (ix2 r e) = x1 (ix2 r' e) :=
  concatenate_apply_piece 0 [⟨⟨2, ![n1, w]⟩, x1⟩, ⟨⟨2, ![n2, w]⟩, x2⟩] h (ix2 r e) 0 (by simp) _ x1 rfl rfl 0 (by simp) (ix2 r' e)
    (fun b hb => by match b with | ⟨0, _⟩ => exact absurd rfl hb | ⟨1, _⟩ => rfl) (by show 0 + r'.val = r.val; omega)
theorem stack2_rows_1 {n1 n2 n w : Nat} (x1 : (⟨2, ![n1, w]⟩ : Shape).Idx → α) (x2 : (⟨2, ![n2, w]⟩ : Shape).Idx → α)
    (h : Shape.Concatenates [⟨2, ![n1, w]⟩, ⟨2, ![n2, w]⟩] ⟨2, ![n, w]⟩ 0) (r : Fin n) (e : Fin w) (r' : Fin n2) (hr : r.val = n1 + r'.val) :
    concatenate ⟨2, ![n, w]⟩ 0 [⟨⟨2, ![n1, w]⟩, x1⟩, ⟨⟨2, ![n2, w]⟩, x2⟩] h (ix2 r e) = x2 (ix2 r' e) :=
  concatenate_apply_piece 0 [⟨⟨2, ![n1, w]⟩, x1⟩, ⟨⟨2, ![n2, w]⟩, x2⟩] h (ix2 r e) 1 (by simp) _ x2 rfl rfl n1 (by simp) (ix2 r' e)
    (fun b hb => by match b with | ⟨0, _⟩ => exact absurd rfl hb | ⟨1, _⟩ => rfl) (by show n1 + r'.val = r.val; omega)
theorem stack2_vec_0 {n1 n2 n : Nat} (x1 : (⟨1, ![n1]⟩ : Shape).Idx → α) (x2 : (⟨1, ![n2]⟩ : Shape).Idx → α)
    (h : Shape.Concatenates [⟨1, ![n1]⟩, ⟨1, ![n2]⟩] ⟨1, ![n]⟩ 0) (r : Fin n) (r' : Fin n1) (hr : r.val = r'.val) :
    concatenate ⟨1, ![n]⟩ 0 [⟨⟨1, ![n1]⟩, x1⟩, ⟨⟨1, ![n2]⟩, x2⟩] h (ix1 r) = x1 (ix1 r') :=
  concatenate_apply_piece 0 [⟨⟨1, ![n1]⟩, x1⟩, ⟨⟨1, ![n2]⟩, x2⟩] h (ix1 r) 0 (by simp) _ x1 rfl rfl 0 (by simp) (ix1 r')
    (fun b hb => by match b with | ⟨0, _⟩ => exact absurd rfl hb) (by show 0 + r'.val = r.val; omega)
theorem stack2_vec_1 {n1 n2 n : Nat} (x1 : (⟨1, ![n1]⟩ : Shape).Idx → α) (x2 : (⟨1, ![n2]⟩ : Shape).Idx → α)
    (h : Shape.Concatenates [⟨1, ![n1]⟩, ⟨1, ![n2]⟩] ⟨1, ![n]⟩ 0) (r : Fin n) (r' : Fin n2) (hr : r.val = n1 + r'.val) :
    concatenate ⟨1, ![n]⟩ 0 [⟨⟨1, ![n1]⟩, x1⟩, ⟨⟨1, ![n2]⟩, x2⟩] h (ix1 r) = x2 (ix1 r') :=
  concatenate_apply_piece 0 [⟨⟨1, ![n1]⟩, x1⟩, ⟨⟨1, ![n2]⟩, x2⟩] h (ix1 r) 1 (by simp) _ x2 rfl rfl n1 (by simp) (ix1 r')
    (fun b hb => by match b with | ⟨0, _⟩ => exact absurd rfl hb) (by show n1 + r'.val = r.val; omega)

end Stack

end Cert.LibStackedPieces

end
-- ==== Proof.KI.R0Value1.lean ====
/-
  The first kernel region's values, part one: what each case of the body leaves in an accumulator or an output's buffer
  as ONE term of the point's input blocks and of what the accumulator held (the body's arithmetic, with its loads filled
  in), and that term read at an entry on the extended reals: entry (j, d) of an accumulator after a point is what it held
  plus the sum, down the block's 1024 rows, of the big operand's entry (r, d) times the class-j indicator of row r.
-/
import proofs.«179402_j71244917506189_2_alg».proof.Proof.KI.R0Frame
import proofs.«179402_j71244917506189_2_alg».proof.Proof.LibRowForms
import proofs.«179402_j71244917506189_2_alg».proof.Proof.LibKeepdims
import proofs.«179402_j71244917506189_2_alg».proof.Proof.LibStackedPieces
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.LibStackedPieces

theorem hz2 : (![0, 0] : Fin 2 → Nat) = fun _ => 0 := funext fun a => by fin_cases a <;> rfl

/-- The two columns of a mask block, as the body loads them. -/
abbrev mcol0 (x2 : Vec F S1024x2 .f32) : Vec F S1024x1 .f32 :=
  View.ld x2 (Rect.unit (s := S1024x2) ![0, 0] S1024x1.size Facts₀.inb_S1024x2_S1024x1_0_0)
abbrev mcol1 (x2 : Vec F S1024x2 .f32) : Vec F S1024x1 .f32 :=
  View.ld x2 (Rect.unit (s := S1024x2) ![0, 1] S1024x1.size Facts₀.inb_S1024x2_S1024x1_0_1)

/-! ## What each case leaves, as a term -/

theorem soutA0_eq (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x2 .f32) (harg4 : arg4.IsWhole) (arg5 : Memref sig .tc .vmem S2x1024 .f32) (harg5 : arg5.IsWhole) (arg6 : Memref sig .tc .vmem S2x1024 .f32) (harg6 : arg6.IsWhole) (arg7 : Memref sig .tc .vmem S2x1024 .f32) (harg7 : arg7.IsWhole) (arg8 : Memref sig .tc .vmem S2x1024 .f32) (harg8 : arg8.IsWhole) (hc0 : cond0_0 i) (hc1 : ¬cond0_1 i)
    (x0 : Vec F S1024x1024 .f32) (x1 : Vec F S1024x1024 .f32) (x2 : Vec F S1024x2 .f32) :
    sout0_A_0 c i arg2 harg2 arg3 harg3 arg4 harg4 arg5 harg5 arg6 harg6 arg7 harg7 arg8 harg8 hc0 hc1 x0 x1 x2 = k0_pay6 (mcol0 x2) (mcol1 x2) x0 k0_pay2 := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  try sl_unfold_words
  rw [View.canon_cons_unit_zero hz2, View.readCov_unit_zero (S := S2x1024) _ hz2]
  simp only [View.readAt_eq_ld, harg2.read_unread, harg3.read_unread, harg4.read_unread, harg7.read_unread, harg8.read_unread, View.ld_unit_zero (S := S2x1024) hz2, View.ld_unit_zero (S := S1024x1024) hz2]
  try rfl

theorem soutA1_eq (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x2 .f32) (harg4 : arg4.IsWhole) (arg5 : Memref sig .tc .vmem S2x1024 .f32) (harg5 : arg5.IsWhole) (arg6 : Memref sig .tc .vmem S2x1024 .f32) (harg6 : arg6.IsWhole) (arg7 : Memref sig .tc .vmem S2x1024 .f32) (harg7 : arg7.IsWhole) (arg8 : Memref sig .tc .vmem S2x1024 .f32) (harg8 : arg8.IsWhole) (hc0 : cond0_0 i) (hc1 : ¬cond0_1 i)
    (x0 : Vec F S1024x1024 .f32) (x1 : Vec F S1024x1024 .f32) (x2 : Vec F S1024x2 .f32) :
    sout0_A_1 c i arg2 harg2 arg3 harg3 arg4 harg4 arg5 harg5 arg6 harg6 arg7 harg7 arg8 harg8 hc0 hc1 x0 x1 x2 = k0_pay1 (k0_pay7 (mcol0 x2) (mcol1 x2) x1 k0_pay3) := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  try sl_unfold_words
  rw [View.canon_cons_unit_zero hz2, View.readCov_unit_zero (S := S2x1024) _ hz2]
  simp only [View.readAt_eq_ld, harg2.read_unread, harg3.read_unread, harg4.read_unread, harg7.read_unread, harg8.read_unread, View.ld_unit_zero (S := S2x1024) hz2, View.ld_unit_zero (S := S1024x1024) hz2]
  try rfl

theorem soutB0_eq (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x2 .f32) (harg4 : arg4.IsWhole) (arg5 : Memref sig .tc .vmem S2x1024 .f32) (harg5 : arg5.IsWhole) (arg6 : Memref sig .tc .vmem S2x1024 .f32) (harg6 : arg6.IsWhole) (arg7 : Memref sig .tc .vmem S2x1024 .f32) (harg7 : arg7.IsWhole) (arg8 : Memref sig .tc .vmem S2x1024 .f32) (harg8 : arg8.IsWhole) (hc0 : ¬cond0_0 i) (hc1 : ¬cond0_1 i)
    (x0 : Vec F S1024x1024 .f32) (x1 : Vec F S1024x1024 .f32) (x2 : Vec F S1024x2 .f32) (xs0 : Vec F S2x1024 .f32) (xs1 : Vec F S2x1024 .f32) :
    sout0_B_0 c i arg2 harg2 arg3 harg3 arg4 harg4 arg5 harg5 arg6 harg6 arg7 harg7 arg8 harg8 hc0 hc1 x0 x1 x2 xs0 xs1 = k0_pay6 (mcol0 x2) (mcol1 x2) x0 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1)]
  unfold kernelRun0_B
  dsimp only
  try sl_unfold_words
  rw [View.canon_unit_zero hz2]
  simp only [View.readAt_eq_ld, harg2.read_unread, harg3.read_unread, harg4.read_unread, harg7.read_unread, harg8.read_unread, View.ld_unit_zero (S := S2x1024) hz2, View.ld_unit_zero (S := S1024x1024) hz2]
  try rfl

theorem soutB1_eq (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x2 .f32) (harg4 : arg4.IsWhole) (arg5 : Memref sig .tc .vmem S2x1024 .f32) (harg5 : arg5.IsWhole) (arg6 : Memref sig .tc .vmem S2x1024 .f32) (harg6 : arg6.IsWhole) (arg7 : Memref sig .tc .vmem S2x1024 .f32) (harg7 : arg7.IsWhole) (arg8 : Memref sig .tc .vmem S2x1024 .f32) (harg8 : arg8.IsWhole) (hc0 : ¬cond0_0 i) (hc1 : ¬cond0_1 i)
    (x0 : Vec F S1024x1024 .f32) (x1 : Vec F S1024x1024 .f32) (x2 : Vec F S1024x2 .f32) (xs0 : Vec F S2x1024 .f32) (xs1 : Vec F S2x1024 .f32) :
    sout0_B_1 c i arg2 harg2 arg3 harg3 arg4 harg4 arg5 harg5 arg6 harg6 arg7 harg7 arg8 harg8 hc0 hc1 x0 x1 x2 xs0 xs1 = k0_pay1 (k0_pay7 (mcol0 x2) (mcol1 x2) x1 xs1) := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1)]
  unfold kernelRun0_B
  dsimp only
  try sl_unfold_words
  rw [View.canon_unit_zero hz2]
  simp only [View.readAt_eq_ld, harg2.read_unread, harg3.read_unread, harg4.read_unread, harg7.read_unread, harg8.read_unread, View.ld_unit_zero (S := S2x1024) hz2, View.ld_unit_zero (S := S1024x1024) hz2]
  try rfl

theorem soutC0_eq (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x2 .f32) (harg4 : arg4.IsWhole) (arg5 : Memref sig .tc .vmem S2x1024 .f32) (harg5 : arg5.IsWhole) (arg6 : Memref sig .tc .vmem S2x1024 .f32) (harg6 : arg6.IsWhole) (arg7 : Memref sig .tc .vmem S2x1024 .f32) (harg7 : arg7.IsWhole) (arg8 : Memref sig .tc .vmem S2x1024 .f32) (harg8 : arg8.IsWhole) (hc0 : ¬cond0_0 i) (hc1 : cond0_1 i)
    (x0 : Vec F S1024x1024 .f32) (x1 : Vec F S1024x1024 .f32) (x2 : Vec F S1024x2 .f32) (xs0 : Vec F S2x1024 .f32) (xs1 : Vec F S2x1024 .f32) :
    sout0_C_0 c i arg2 harg2 arg3 harg3 arg4 harg4 arg5 harg5 arg6 harg6 arg7 harg7 arg8 harg8 hc0 hc1 x0 x1 x2 xs0 xs1 = k0_pay6 (mcol0 x2) (mcol1 x2) x0 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1)]
  unfold kernelRun0_C
  dsimp only
  try sl_unfold_words
  rw [View.canon_unit_zero hz2]
  simp only [View.readAt_eq_ld, harg2.read_unread, harg3.read_unread, harg4.read_unread, harg7.read_unread, harg8.read_unread, View.ld_unit_zero (S := S2x1024) hz2, View.ld_unit_zero (S := S1024x1024) hz2]
  try rfl

theorem soutC1_eq (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x2 .f32) (harg4 : arg4.IsWhole) (arg5 : Memref sig .tc .vmem S2x1024 .f32) (harg5 : arg5.IsWhole) (arg6 : Memref sig .tc .vmem S2x1024 .f32) (harg6 : arg6.IsWhole) (arg7 : Memref sig .tc .vmem S2x1024 .f32) (harg7 : arg7.IsWhole) (arg8 : Memref sig .tc .vmem S2x1024 .f32) (harg8 : arg8.IsWhole) (hc0 : ¬cond0_0 i) (hc1 : cond0_1 i)
    (x0 : Vec F S1024x1024 .f32) (x1 : Vec F S1024x1024 .f32) (x2 : Vec F S1024x2 .f32) (xs0 : Vec F S2x1024 .f32) (xs1 : Vec F S2x1024 .f32) :
    sout0_C_1 c i arg2 harg2 arg3 harg3 arg4 harg4 arg5 harg5 arg6 harg6 arg7 harg7 arg8 harg8 hc0 hc1 x0 x1 x2 xs0 xs1 = k0_pay1 (k0_pay7 (mcol0 x2) (mcol1 x2) x1 xs1) := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1)]
  unfold kernelRun0_C
  dsimp only
  try sl_unfold_words
  rw [View.canon_unit_zero hz2]
  simp only [View.readAt_eq_ld, harg2.read_unread, harg3.read_unread, harg4.read_unread, harg7.read_unread, harg8.read_unread, View.ld_unit_zero (S := S2x1024) hz2, View.ld_unit_zero (S := S1024x1024) hz2]
  try rfl

theorem outC3_eq (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x2 .f32) (harg4 : arg4.IsWhole) (arg5 : Memref sig .tc .vmem S2x1024 .f32) (harg5 : arg5.IsWhole) (arg6 : Memref sig .tc .vmem S2x1024 .f32) (harg6 : arg6.IsWhole) (arg7 : Memref sig .tc .vmem S2x1024 .f32) (harg7 : arg7.IsWhole) (arg8 : Memref sig .tc .vmem S2x1024 .f32) (harg8 : arg8.IsWhole) (hc0 : ¬cond0_0 i) (hc1 : cond0_1 i)
    (x0 : Vec F S1024x1024 .f32) (x1 : Vec F S1024x1024 .f32) (x2 : Vec F S1024x2 .f32) (xs0 : Vec F S2x1024 .f32) (xs1 : Vec F S2x1024 .f32) :
    out0_C_3 c i arg2 harg2 arg3 harg3 arg4 harg4 arg5 harg5 arg6 harg6 arg7 harg7 arg8 harg8 hc0 hc1 x0 x1 x2 xs0 xs1 = k0_pay6 (mcol0 x2) (mcol1 x2) x0 xs0 := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1)]
  unfold kernelRun0_C
  dsimp only
  try sl_unfold_words
  rw [View.canon_unit_zero hz2, View.readCov_unit_zero (S := S2x1024) _ hz2]
  simp only [View.readAt_eq_ld, harg2.read_unread, harg3.read_unread, harg4.read_unread, harg7.read_unread, harg8.read_unread, View.ld_unit_zero (S := S2x1024) hz2, View.ld_unit_zero (S := S1024x1024) hz2]
  try rfl

theorem outC4_eq (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x2 .f32) (harg4 : arg4.IsWhole) (arg5 : Memref sig .tc .vmem S2x1024 .f32) (harg5 : arg5.IsWhole) (arg6 : Memref sig .tc .vmem S2x1024 .f32) (harg6 : arg6.IsWhole) (arg7 : Memref sig .tc .vmem S2x1024 .f32) (harg7 : arg7.IsWhole) (arg8 : Memref sig .tc .vmem S2x1024 .f32) (harg8 : arg8.IsWhole) (hc0 : ¬cond0_0 i) (hc1 : cond0_1 i)
    (x0 : Vec F S1024x1024 .f32) (x1 : Vec F S1024x1024 .f32) (x2 : Vec F S1024x2 .f32) (xs0 : Vec F S2x1024 .f32) (xs1 : Vec F S2x1024 .f32) :
    out0_C_4 c i arg2 harg2 arg3 harg3 arg4 harg4 arg5 harg5 arg6 harg6 arg7 harg7 arg8 harg8 hc0 hc1 x0 x1 x2 xs0 xs1 = k0_pay1 (k0_pay7 (mcol0 x2) (mcol1 x2) x1 xs1) := by
  unfold out0_C_4
  rw [View.read_writes_eq_canon _ _ _ (cover0_C_4 c i arg2 harg2 arg3 harg3 arg4 harg4 arg5 harg5 arg6 harg6 arg7 harg7 arg8 harg8 hc0 hc1 x0 x1 x2 xs0 xs1)]
  unfold kernelRun0_C
  dsimp only
  try sl_unfold_words
  rw [View.canon_unit_zero hz2, View.readCov_unit_zero (S := S2x1024) _ hz2]
  simp only [View.readAt_eq_ld, harg2.read_unread, harg3.read_unread, harg4.read_unread, harg7.read_unread, harg8.read_unread, View.ld_unit_zero (S := S2x1024) hz2, View.ld_unit_zero (S := S1024x1024) hz2]
  try rfl

end Cert.KernelIdeal.Hand

end
-- ==== Proof.KI.R0Value2.lean ====
/-
  The first kernel region's values, part two: the body's arithmetic read at an entry, on the extended reals. Entry (j, d)
  of the updated accumulator is its old entry plus the block's masked column sum: the sum over the block's 1024 rows r of
  the big operand's entry (r, d) times the class-j column of the mask block at row r. The two rows j = 0, 1 come from the
  two stacked row vectors; a row vector is a column sum viewed as one row; the mask column is broadcast along the row.
-/
import proofs.«179402_j71244917506189_2_alg».proof.Proof.KI.R0Value1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.LibStackedPieces

/-- The block's masked column sum at column d: down the rows, operand times indicator column. -/
def colsum (big : Vec Ideal S1024x1024 .f32) (v : Vec Ideal S1024x1 .f32) (d : Fin 1024) : EReal :=
  ∑ r : Fin 1024, (big (ix2 r d) : EReal) * (v (ix2 r (0 : Fin 1)) : EReal)

theorem pay6_row0 (v3 v5 : Vec Ideal S1024x1 .f32) (v7 : Vec Ideal S1024x1024 .f32) (v25 : Vec Ideal S2x1024 .f32) (d : Fin 1024) :
    (k0_pay6 (F := Ideal) v3 v5 v7 v25 (ix2 (0 : Fin 2) d) : EReal) = (v25 (ix2 (0 : Fin 2) d) : EReal) + colsum v7 v3 d := by
  unfold k0_pay6 k0_pay4 k0_pay5 colsum
  simp only [shapeCast_self]
  show (v25 (ix2 (0 : Fin 2) d) : EReal) + _ = _
  congr 1
  refine (stack2_rows_0 _ _ _ (0 : Fin 2) d (0 : Fin 1) rfl).trans ?_
  refine (shapeCast_a_1a_apply _ _ (0 : Fin 1) d).trans ?_
  refine (multiReduction_add_col _ _ _ _ _ d).trans ?_
  refine Finset.sum_congr rfl fun r _ => ?_
  show (v7 (ix2 r d) : EReal) * _ = _
  congr 1
  exact (broadcastTo_a1_ab_apply _ _ r d).trans (congrFun (shapeCast_self _ _) _)

theorem pay6_row1 (v3 v5 : Vec Ideal S1024x1 .f32) (v7 : Vec Ideal S1024x1024 .f32) (v25 : Vec Ideal S2x1024 .f32) (d : Fin 1024) :
    (k0_pay6 (F := Ideal) v3 v5 v7 v25 (ix2 (1 : Fin 2) d) : EReal) = (v25 (ix2 (1 : Fin 2) d) : EReal) + colsum v7 v5 d := by
  unfold k0_pay6 k0_pay4 k0_pay5 colsum
  simp only [shapeCast_self]
  show (v25 (ix2 (1 : Fin 2) d) : EReal) + _ = _
  congr 1
  refine (stack2_rows_1 _ _ _ (1 : Fin 2) d (0 : Fin 1) rfl).trans ?_
  refine (shapeCast_a_1a_apply _ _ (0 : Fin 1) d).trans ?_
  refine (multiReduction_add_col _ _ _ _ _ d).trans ?_
  refine Finset.sum_congr rfl fun r _ => ?_
  show (v7 (ix2 r d) : EReal) * _ = _
  congr 1
  exact (broadcastTo_a1_ab_apply _ _ r d).trans (congrFun (shapeCast_self _ _) _)

theorem pay7_row0 (v3 v5 : Vec Ideal S1024x1 .f32) (v8 : Vec Ideal S1024x1024 .f32) (v31 : Vec Ideal S2x1024 .f32) (d : Fin 1024) :
    (k0_pay7 (F := Ideal) v3 v5 v8 v31 (ix2 (0 : Fin 2) d) : EReal) = (v31 (ix2 (0 : Fin 2) d) : EReal) + colsum v8 v3 d := by
  unfold k0_pay7 k0_pay4 k0_pay5 colsum
  simp only [shapeCast_self]
  show (v31 (ix2 (0 : Fin 2) d) : EReal) + _ = _
  congr 1
  refine (stack2_rows_0 _ _ _ (0 : Fin 2) d (0 : Fin 1) rfl).trans ?_
  refine (shapeCast_a_1a_apply _ _ (0 : Fin 1) d).trans ?_
  refine (multiReduction_add_col _ _ _ _ _ d).trans ?_
  refine Finset.sum_congr rfl fun r _ => ?_
  show (v8 (ix2 r d) : EReal) * _ = _
  congr 1
  exact (broadcastTo_a1_ab_apply _ _ r d).trans (congrFun (shapeCast_self _ _) _)

theorem pay7_row1 (v3 v5 : Vec Ideal S1024x1 .f32) (v8 : Vec Ideal S1024x1024 .f32) (v31 : Vec Ideal S2x1024 .f32) (d : Fin 1024) :
    (k0_pay7 (F := Ideal) v3 v5 v8 v31 (ix2 (1 : Fin 2) d) : EReal) = (v31 (ix2 (1 : Fin 2) d) : EReal) + colsum v8 v5 d := by
  unfold k0_pay7 k0_pay4 k0_pay5 colsum
  simp only [shapeCast_self]
  show (v31 (ix2 (1 : Fin 2) d) : EReal) + _ = _
  congr 1
  refine (stack2_rows_1 _ _ _ (1 : Fin 2) d (0 : Fin 1) rfl).trans ?_
  refine (shapeCast_a_1a_apply _ _ (0 : Fin 1) d).trans ?_
  refine (multiReduction_add_col _ _ _ _ _ d).trans ?_
  refine Finset.sum_congr rfl fun r _ => ?_
  show (v8 (ix2 r d) : EReal) * _ = _
  congr 1
  exact (broadcastTo_a1_ab_apply _ _ r d).trans (congrFun (shapeCast_self _ _) _)

/-- A cast to the same shape changes nothing. -/
theorem pay1_eq (v : FVec Ideal S2x1024 .f32) : k0_pay1 (F := Ideal) v = v := by
  unfold k0_pay1; exact shapeCast_self _ _

/-- The zero the accumulators are reset to. -/
theorem pay2_apply (i : S2x1024.Idx) : (k0_pay2 (F := Ideal) i : EReal) = 0 := by
  unfold k0_pay2; simp only [shapeCast_self]; show Ideal.ofBits .f32 0x00000000#32 = 0; exact Ideal.ofBits_zero_f32
theorem pay3_apply (i : S2x1024.Idx) : (k0_pay3 (F := Ideal) i : EReal) = 0 := by
  unfold k0_pay3; simp only [shapeCast_self]; show Ideal.ofBits .f32 0x00000000#32 = 0; exact Ideal.ofBits_zero_f32

/-- A mask block's column j at row r is the block's entry (r, j). -/
theorem mcol0_apply (x2 : Vec Ideal S1024x2 .f32) (r : Fin 1024) : mcol0 x2 (ix2 r (0 : Fin 1)) = x2 (ix2 r (0 : Fin 2)) := by
  show x2 _ = x2 _
  congr 1; funext a; apply Fin.ext
  match a with
  | ⟨0, _⟩ => simp only [LoadRect.idx_apply, Rect.emb_apply, Rect.off_unit, Rect.stride_unit, Nat.one_mul]; simp
  | ⟨1, _⟩ => simp only [LoadRect.idx_apply, Rect.emb_apply, Rect.off_unit, Rect.stride_unit, Nat.one_mul]; simp
theorem mcol1_apply (x2 : Vec Ideal S1024x2 .f32) (r : Fin 1024) : mcol1 x2 (ix2 r (0 : Fin 1)) = x2 (ix2 r (1 : Fin 2)) := by
  show x2 _ = x2 _
  congr 1; funext a; apply Fin.ext
  match a with
  | ⟨0, _⟩ => simp only [LoadRect.idx_apply, Rect.emb_apply, Rect.off_unit, Rect.stride_unit, Nat.one_mul]; simp
  | ⟨1, _⟩ => simp only [LoadRect.idx_apply, Rect.emb_apply, Rect.off_unit, Rect.stride_unit, Nat.one_mul]; simp

end Cert.KernelIdeal.Hand

end
-- ==== Proof.KI.R0Value3.lean ====
/-
  The first kernel region's values, part three: along a sweep of eight row blocks the accumulator's entry (j, d) is the
  running sum of the blocks' masked column sums. A block's entries are the arrays' entries at the block's offsets: the
  point numbered t works on row block t mod 8 of column block t div 8. So after the point at position n of its sweep the
  accumulator holds, at (j, d), the sum over the first n + 1 row blocks k of the sums over r of
  operand[1024 k + r, 1024 (t div 8) + d] * mask[1024 k + r, j].
-/
import proofs.«179402_j71244917506189_2_alg».proof.Proof.KI.R0Value2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-- Where each operand's block sits at point t, decided over the grid. -/
theorem idx_facts0 : ∀ t : Fin cfg0.N,
    win0_0.index t (0 : Fin 2) = t.val % 8 ∧ win0_0.index t (1 : Fin 2) = t.val / 8
    ∧ win0_1.index t (0 : Fin 2) = t.val % 8 ∧ win0_1.index t (1 : Fin 2) = t.val / 8
    ∧ win0_2.index t (0 : Fin 2) = t.val % 8 ∧ win0_2.index t (1 : Fin 2) = 0
    ∧ win0_3.index t (0 : Fin 2) = 0 ∧ win0_3.index t (1 : Fin 2) = t.val / 8
    ∧ win0_4.index t (0 : Fin 2) = 0 ∧ win0_4.index t (1 : Fin 2) = t.val / 8 :=
  (by decide +kernel : ∀ t : Fin grid0.N, _)

/-- Entry (r, d) of big operand 0's block at point t. -/
theorem iblk0_0_apply (c : Dev nD) (t : Fin cfg0.N) (r d : Fin 1024) (R : Fin 8192) (D : Fin 4096)
    (hR : R.val = (t.val % 8) * 1024 + r.val) (hD : D.val = (t.val / 8) * 1024 + d.val) :
    ((iblk0 V c 0 t : Vec Ideal S1024x1024 .f32) (ix2 r d) : EReal) = (V c main_arg1 : S8192x4096.Idx → EReal) (ix2 R D) := by
  obtain ⟨e00, e01, e10, e11, -⟩ := idx_facts0 t
  unfold iblk0
  rw [View.read_apply]
  show (V c main_arg1 : S8192x4096.Idx → EReal) _ = _
  congr 1
  funext a
  apply Fin.ext
  match a with
  | ⟨0, _⟩ => show win0_0.index t (0 : Fin 2) * 1024 + 1 * r.val = R.val; rw [e00, hR]; omega
  | ⟨1, _⟩ => show win0_0.index t (1 : Fin 2) * 1024 + 1 * d.val = D.val; rw [e01, hD]; omega
/-- Entry (r, d) of big operand 1's block at point t. -/
theorem iblk0_1_apply (c : Dev nD) (t : Fin cfg0.N) (r d : Fin 1024) (R : Fin 8192) (D : Fin 4096)
    (hR : R.val = (t.val % 8) * 1024 + r.val) (hD : D.val = (t.val / 8) * 1024 + d.val) :
    ((iblk0 V c 1 t : Vec Ideal S1024x1024 .f32) (ix2 r d) : EReal) = (V c main_arg2 : S8192x4096.Idx → EReal) (ix2 R D) := by
  obtain ⟨e00, e01, e10, e11, -⟩ := idx_facts0 t
  unfold iblk0
  rw [View.read_apply]
  show (V c main_arg2 : S8192x4096.Idx → EReal) _ = _
  congr 1
  funext a
  apply Fin.ext
  match a with
  | ⟨0, _⟩ => show win0_1.index t (0 : Fin 2) * 1024 + 1 * r.val = R.val; rw [e10, hR]; omega
  | ⟨1, _⟩ => show win0_1.index t (1 : Fin 2) * 1024 + 1 * d.val = D.val; rw [e11, hD]; omega
/-- Entry (r, j) of the mask block at point t. -/
theorem iblk0_2_apply (c : Dev nD) (t : Fin cfg0.N) (r : Fin 1024) (j : Fin 2) (R : Fin 8192)
    (hR : R.val = (t.val % 8) * 1024 + r.val) :
    ((iblk0 V c 2 t : Vec Ideal S1024x2 .f32) (ix2 r j) : EReal) = (V c main_v8 : S8192x2.Idx → EReal) (ix2 R j) := by
  obtain ⟨-, -, -, -, e20, e21, -⟩ := idx_facts0 t
  unfold iblk0
  rw [View.read_apply]
  show (V c main_v8 : S8192x2.Idx → EReal) _ = _
  congr 1
  funext a
  apply Fin.ext
  match a with
  | ⟨0, _⟩ => show win0_2.index t (0 : Fin 2) * 1024 + 1 * r.val = R.val; rw [e20, hR]; omega
  | ⟨1, _⟩ => show win0_2.index t (1 : Fin 2) * 2 + 1 * j.val = j.val; rw [e21]; omega

/-- Row block k's masked column sum of the array A at column D, class j. -/
def bsumN (A : S8192x4096.Idx → EReal) (M : S8192x2.Idx → EReal) (k : ℕ) (j : Fin 2) (D : Fin 4096) : EReal :=
  ∑ r : Fin 1024, if h : k * 1024 + r.val < 8192 then A (ix2 ⟨k * 1024 + r.val, h⟩ D) * M (ix2 ⟨k * 1024 + r.val, h⟩ j) else 0

/-- The column index of entry d of column block t div 8. -/
abbrev colOf (n : ℕ) (hn : n < 32) (d : Fin 1024) : Fin 4096 := ⟨(n / 8) * 1024 + d.val, by have := d.isLt; omega⟩

/-- The block's masked column sum at point t, class 0, is row block t mod 8's. -/
theorem blk_colsum0_0 (c : Dev nD) (t : Fin cfg0.N) (ht : t.val < 32) (d : Fin 1024) :
    colsum (iblk0 V c 0 t) (mcol0 (iblk0 V c 2 t)) d = bsumN (V c main_arg1) (V c main_v8) (t.val % 8) (0 : Fin 2) (colOf t.val ht d) := by
  unfold colsum bsumN
  refine Finset.sum_congr rfl fun r _ => ?_
  have hlt : t.val % 8 * 1024 + r.val < 8192 := by have := r.isLt; omega
  rw [dif_pos hlt, mcol0_apply, iblk0_0_apply V c t r d ⟨t.val % 8 * 1024 + r.val, hlt⟩ (colOf t.val ht d) rfl rfl,
    iblk0_2_apply V c t r (0 : Fin 2) ⟨t.val % 8 * 1024 + r.val, hlt⟩ rfl]
/-- The block's masked column sum at point t, class 1, is row block t mod 8's. -/
theorem blk_colsum0_1 (c : Dev nD) (t : Fin cfg0.N) (ht : t.val < 32) (d : Fin 1024) :
    colsum (iblk0 V c 0 t) (mcol1 (iblk0 V c 2 t)) d = bsumN (V c main_arg1) (V c main_v8) (t.val % 8) (1 : Fin 2) (colOf t.val ht d) := by
  unfold colsum bsumN
  refine Finset.sum_congr rfl fun r _ => ?_
  have hlt : t.val % 8 * 1024 + r.val < 8192 := by have := r.isLt; omega
  rw [dif_pos hlt, mcol1_apply, iblk0_0_apply V c t r d ⟨t.val % 8 * 1024 + r.val, hlt⟩ (colOf t.val ht d) rfl rfl,
    iblk0_2_apply V c t r (1 : Fin 2) ⟨t.val % 8 * 1024 + r.val, hlt⟩ rfl]
/-- The block's masked column sum at point t, class 0, is row block t mod 8's. -/
theorem blk_colsum1_0 (c : Dev nD) (t : Fin cfg0.N) (ht : t.val < 32) (d : Fin 1024) :
    colsum (iblk0 V c 1 t) (mcol0 (iblk0 V c 2 t)) d = bsumN (V c main_arg2) (V c main_v8) (t.val % 8) (0 : Fin 2) (colOf t.val ht d) := by
  unfold colsum bsumN
  refine Finset.sum_congr rfl fun r _ => ?_
  have hlt : t.val % 8 * 1024 + r.val < 8192 := by have := r.isLt; omega
  rw [dif_pos hlt, mcol0_apply, iblk0_1_apply V c t r d ⟨t.val % 8 * 1024 + r.val, hlt⟩ (colOf t.val ht d) rfl rfl,
    iblk0_2_apply V c t r (0 : Fin 2) ⟨t.val % 8 * 1024 + r.val, hlt⟩ rfl]
/-- The block's masked column sum at point t, class 1, is row block t mod 8's. -/
theorem blk_colsum1_1 (c : Dev nD) (t : Fin cfg0.N) (ht : t.val < 32) (d : Fin 1024) :
    colsum (iblk0 V c 1 t) (mcol1 (iblk0 V c 2 t)) d = bsumN (V c main_arg2) (V c main_v8) (t.val % 8) (1 : Fin 2) (colOf t.val ht d) := by
  unfold colsum bsumN
  refine Finset.sum_congr rfl fun r _ => ?_
  have hlt : t.val % 8 * 1024 + r.val < 8192 := by have := r.isLt; omega
  rw [dif_pos hlt, mcol1_apply, iblk0_1_apply V c t r d ⟨t.val % 8 * 1024 + r.val, hlt⟩ (colOf t.val ht d) rfl rfl,
    iblk0_2_apply V c t r (1 : Fin 2) ⟨t.val % 8 * 1024 + r.val, hlt⟩ rfl]

end Cert.KernelIdeal.Hand

end
-- ==== Proof.LibBlockSums.lean ====
/-
  Two re-indexing facts for sums cut into consecutive blocks of equal length, in any additive commutative monoid.

  A sum over the first a * b natural numbers is the sum, over the a blocks, of the sums over the b positions inside a
  block, the position k of block c being the number c * b + k. The same for a sum over Fin n with a * b = n, where
  the summand at block k, position r is read at the index k * b + r (which is below n, so the guard on the index is
  always satisfied).
-/
import Mathlib.Algebra.BigOperators.Fin
import Mathlib.Algebra.BigOperators.Intervals

open scoped BigOperators

namespace Cert.LibBlockSums

/-- A sum over the first a * b natural numbers, cut into a consecutive blocks of length b: the block c holds the numbers
    c * b + k for k below b. By induction on the number of blocks, splitting the last block off the range. -/
theorem sum_range_mul {M : Type*} [AddCommMonoid M] (a b : ℕ) (g : ℕ → M) :
    ∑ c ∈ Finset.range a, ∑ k ∈ Finset.range b, g (c * b + k) = ∑ t ∈ Finset.range (a * b), g t := by
  induction a with
  | zero => simp
  | succ a ih => rw [Finset.sum_range_succ, ih, add_one_mul, Finset.sum_range_add]

/-- A sum over Fin n with a * b = n, cut into a consecutive blocks of length b: block k, position r reads the index
    k * b + r. The guard k * b + r < n holds for every k below a, so the guarded summand is the function's value; the
    guarded function on the natural numbers (the value below n, zero from n on) turns both sides into sums over ranges,
    where the cut is `sum_range_mul`. -/
theorem sum_blocks {M : Type*} [AddCommMonoid M] (a b n : ℕ) (hn : a * b = n) (f : Fin n → M) :
    ∑ k ∈ Finset.range a, ∑ r : Fin b, (if h : k * b + r.val < n then f ⟨k * b + r.val, h⟩ else 0) = ∑ i : Fin n, f i := by
  have hg : ∀ k : ℕ, (∑ r : Fin b, (if h : k * b + r.val < n then f ⟨k * b + r.val, h⟩ else 0))
      = ∑ r ∈ Finset.range b, (fun t : ℕ => if h : t < n then f ⟨t, h⟩ else 0) (k * b + r) := fun k =>
    (Finset.sum_range fun r : ℕ => (fun t : ℕ => if h : t < n then f ⟨t, h⟩ else 0) (k * b + r)).symm
  rw [Finset.sum_congr rfl fun k _ => hg k, sum_range_mul a b fun t : ℕ => if h : t < n then f ⟨t, h⟩ else 0, hn,
    Finset.sum_range]
  exact Finset.sum_congr rfl fun i _ => dif_pos i.2

end Cert.LibBlockSums
-- ==== Proof.KI.HostReads1.lean ====
/-
  The second stretch of host operations, read at what the first region leaves. The region's two [2, 4096] arrays hold,
  at (j, D), the sum over its eight blocks of 1024 rows of the block's masked column sum, which is the masked column
  sum over all 8192 rows; divided by the two guarded class sizes stacked, made a column and spread along the features,
  they are the per-class column means of mean and of log_sd. From the latter come the inverse variances exp(-2 ls)
  and the constant parts, kappa - ls summed over the features from the zero word. The stretch and the region leave
  the operand z, the indicators, the sizes and the logdet means as the first stretch made them.
-/
import proofs.«179402_j71244917506189_2_alg».proof.Proof.KI.HostReads0
import proofs.«179402_j71244917506189_2_alg».proof.Proof.KI.R0Value3
import proofs.«179402_j71244917506189_2_alg».proof.Proof.LibBlockSums

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL.Sem
open Idealize.ShloMosaic.ValueIdx
open Cert.Spec (Inputs msk cnt ldm mu ls kappa half mtwo two rowlp lp prior cls out0 out1 out2 out3 musel ivsel rowsq ssq cpart klp Finite BothClasses)

variable (m : (ℓ : Loc nD τ sig) → Buf (Elt Ideal) ℓ) (ρ : Dev nD → PrngReg) (c : Dev nD)

/-! ## Layout operations of the later stretches, read at an index -/

/-- A host exponential at an index, on the extended reals. -/
theorem hostExp_at {s : Shape} (a : FVec Ideal s .f32) (i : s.Idx) : Host.exp a i = Ideal.exp (a i) := rfl

/-- A two-entry vector made a column and spread along the features: entry (j, D) is the vector's entry j. -/
theorem spread_apply (v : FVec Ideal S2 .f32) (j : Fin 2) (D : Fin 4096) :
    broadcastInDim S2x4096 ![0, 1] bcast_S2x1_S2x4096_0_1 (broadcastInDim S2x1 ![0] bcast_S2_S2x1_0 v) (ix2 j D) = v (ix1 j) := by
  refine (broadcastInDim_apply _ bcast_S2x1_S2x4096_0_1 _ (ix2 j D) (ix2 j (0 : Fin 1)) (fun a => by
    match a with
    | ⟨0, _⟩ => show j.val = if (2 : Nat) = 1 then 0 else j.val; rw [if_neg (by decide)]
    | ⟨1, _⟩ => show 0 = if (1 : Nat) = 1 then 0 else D.val; rw [if_pos rfl])).trans ?_
  exact broadcastInDim_apply _ bcast_S2_S2x1_0 v (ix2 j (0 : Fin 1)) (ix1 j) (fun a => by
    match a with
    | ⟨0, _⟩ => show j.val = if (2 : Nat) = 1 then 0 else j.val; rw [if_neg (by decide)])

/-- Two scalars stacked into a two-entry vector: entry 0 is the first. -/
theorem stack0 (x y : FVec Ideal S_ .f32) : (concatenate S2 0 [⟨S1, broadcastInDim S1 ![] bcast_S_S1 x⟩, ⟨S1, broadcastInDim S1 ![] bcast_S_S1 y⟩] concatenates_S1_S1_S2_d0) (ix1 (0 : Fin 2)) = x ix0 := by
  refine (concatenate_pair_apply_left (t := S2) (s₁ := S1) (s₂ := S1) 0 _ _ concatenates_S1_S1_S2_d0 (ix1 (0 : Fin 2)) rfl
    (ix1 (0 : Fin 1)) (fun a => by match a with | ⟨0, _⟩ => rfl)).trans ?_
  exact broadcastInDim_apply _ bcast_S_S1 x (ix1 (0 : Fin 1)) ix0 (fun a => a.elim0)

/-- Entry 1 is the second. -/
theorem stack1 (x y : FVec Ideal S_ .f32) : (concatenate S2 0 [⟨S1, broadcastInDim S1 ![] bcast_S_S1 x⟩, ⟨S1, broadcastInDim S1 ![] bcast_S_S1 y⟩] concatenates_S1_S1_S2_d0) (ix1 (1 : Fin 2)) = y ix0 := by
  refine (concatenate_pair_apply_right (t := S2) (s₁ := S1) (s₂ := S1) 0 _ _ concatenates_S1_S1_S2_d0 (ix1 (1 : Fin 2)) rfl rfl
    (ix1 (0 : Fin 1)) (fun a ha => by match a with | ⟨0, _⟩ => exact absurd rfl ha) rfl).trans ?_
  exact broadcastInDim_apply _ bcast_S_S1 y (ix1 (0 : Fin 1)) ix0 (fun a => a.elim0)

/-- Two scalars that are the two class sizes, stacked: entry j is class j's size. -/
theorem sizes_at (I : Inputs) (x y : FVec Ideal S_ .f32) (hx : x ix0 = cnt I 0#32) (hy : y ix0 = cnt I 1#32) (j : Fin 2) :
    (concatenate S2 0 [⟨S1, broadcastInDim S1 ![] bcast_S_S1 x⟩, ⟨S1, broadcastInDim S1 ![] bcast_S_S1 y⟩] concatenates_S1_S1_S2_d0) (ix1 j) = cnt I (cls j.val) := by
  match j with
  | ⟨0, _⟩ => exact (stack0 x y).trans hx
  | ⟨1, _⟩ => exact (stack1 x y).trans hy

/-- An array over the two class sizes stacked, made a column and spread along the features. -/
theorem quot_at (I : Inputs) (num : FVec Ideal S2x4096 .f32) (x y : FVec Ideal S_ .f32) (hx : x ix0 = cnt I 0#32) (hy : y ix0 = cnt I 1#32)
    (j : Fin 2) (D : Fin 4096) :
    Host.divf num (broadcastInDim S2x4096 ![0, 1] bcast_S2x1_S2x4096_0_1 (broadcastInDim S2x1 ![0] bcast_S2_S2x1_0 (concatenate S2 0 [⟨S1, broadcastInDim S1 ![] bcast_S_S1 x⟩, ⟨S1, broadcastInDim S1 ![] bcast_S_S1 y⟩] concatenates_S1_S1_S2_d0))) (ix2 j D)
      = Ideal.div (num (ix2 j D)) (cnt I (cls j.val)) := by
  rw [hostDivf_at, spread_apply, sizes_at I x y hx hy]

/-- A scalar word spread over a [2, 4096] array reads the word's value everywhere. -/
theorem splat_at (w : BitVec 32) (i : S2x4096.Idx) :
    broadcastInDim S2x4096 ![] bcast_S_S2x4096 (constant (F := Ideal) S_ .f32 w) i = Ideal.ofBits .f32 w :=
  broadcastInDim_apply _ bcast_S_S2x4096 _ i ix0 (fun a => a.elim0)

/-- A sum along the features of a [2, 4096] array, from an initial value, at row j. -/
theorem rowsum_at (y : FVec Ideal S2x4096 .f32) (init : FVec Ideal S_ .f32) (j : Fin 2) :
    Host.reduceAdd (F := Ideal) y init reducesTo_S2x4096_S2_d1 h_S_ (ix1 j) = init (Shape.Idx.first h_S_) + ∑ k : Fin 4096, y (ix2 j k) := by
  simp only [Host.reduceAdd, Ideal.hostReduceAdd_def]
  rw [Ideal.hostReduceAdd_single reducesTo_S2x4096_S2_d1 (by decide)]
  refine congrArg (_ + ·) (Finset.sum_congr rfl fun k _ => ?_)
  exact congrArg y (funext fun a => Fin.ext (by match a with | ⟨0, _⟩ => rfl | ⟨1, _⟩ => rfl))

/-! ## What the first region and the second stretch find of the first stretch -/

theorem W2_v8 : W2 (F := Ideal) m ρ c (Proc.devRef .tc main_v8) = W1 m ρ c (Proc.devRef .tc main_v8) :=
  (W2_arr m ρ c 2).trans (((dat0 (V1 m ρ) c).arrAt_in 2 rfl _).trans (A_eq0 (V1 m ρ) c 2))

theorem W2_cnt0 (hb : BothClasses (kIn m c)) : W2 (F := Ideal) m ρ c (Proc.devRef .tc main_v10) ix0 = cnt (kIn m c) 0#32 :=
  (congrFun (W2_of_ne m ρ c main_v10 (by decide)) ix0).trans (V1_cnt0 m ρ c hb ix0)
theorem W2_cnt1 (hb : BothClasses (kIn m c)) : W2 (F := Ideal) m ρ c (Proc.devRef .tc main_v12) ix0 = cnt (kIn m c) 1#32 :=
  (congrFun (W2_of_ne m ρ c main_v12 (by decide)) ix0).trans (V1_cnt1 m ρ c hb ix0)

/-- The first region's eight row blocks of masked column sums add up to the masked column sum over all rows. -/
theorem colsum_eq (A : S8192x4096.Idx → EReal) (j : Fin 2) (D : Fin 4096) :
    ∑ k ∈ Finset.range 8, bsumN A (V1 (F := Ideal) m ρ c main_v8) k j D
      = ∑ b : Fin 8192, A (ix2 b D) * msk (kIn m c) (cls j.val) b := by
  unfold bsumN
  refine (Cert.LibBlockSums.sum_blocks 8 1024 8192 rfl
    (fun b : Fin 8192 => A (ix2 b D) * V1 (F := Ideal) m ρ c main_v8 (ix2 b j))).trans ?_
  exact Finset.sum_congr rfl fun b _ => by rw [V1_ind]

/-! ## The second stretch: the per-class column means, the inverse variances, the constant parts -/

/-- The per-class column means of `mean`: the region's sums over the guarded sizes. -/
theorem V3_mu (hb : BothClasses (kIn m c))
    (h3 : ∀ (j : Fin 2) (D : Fin 4096), W2 (F := Ideal) m ρ c (Proc.devRef .tc main_v19_0) (ix2 j D)
      = ∑ k ∈ Finset.range 8, bsumN (V1 m ρ c main_arg1) (V1 m ρ c main_v8) k j D) (j : Fin 2) (D : Fin 4096) :
    V3 (F := Ideal) m ρ c main_v25 (ix2 j D) = mu (kIn m c) (cls j.val) D := by
  show StableHlo.after hostOps1 (W2 m ρ c) (Proc.devRef .tc main_v25) (ix2 j D) = _
  after_results
  rw [quot_at (kIn m c) _ _ _ (W2_cnt0 m ρ c hb) (W2_cnt1 m ρ c hb), h3, colsum_eq, V1_arg1]
  rfl

/-- The per-class column means of `log_sd`. -/
theorem V3_ls (hb : BothClasses (kIn m c))
    (h4 : ∀ (j : Fin 2) (D : Fin 4096), W2 (F := Ideal) m ρ c (Proc.devRef .tc main_v19_1) (ix2 j D)
      = ∑ k ∈ Finset.range 8, bsumN (V1 m ρ c main_arg2) (V1 m ρ c main_v8) k j D) (j : Fin 2) (D : Fin 4096) :
    V3 (F := Ideal) m ρ c main_v27 (ix2 j D) = ls (kIn m c) (cls j.val) D := by
  show StableHlo.after hostOps1 (W2 m ρ c) (Proc.devRef .tc main_v27) (ix2 j D) = _
  after_results
  rw [quot_at (kIn m c) _ _ _ (W2_cnt0 m ρ c hb) (W2_cnt1 m ρ c hb), h4, colsum_eq, V1_arg2]
  rfl

/-- The per-class inverse variances exp(-2 ls). -/
theorem V3_iv (hb : BothClasses (kIn m c))
    (h4 : ∀ (j : Fin 2) (D : Fin 4096), W2 (F := Ideal) m ρ c (Proc.devRef .tc main_v19_1) (ix2 j D)
      = ∑ k ∈ Finset.range 8, bsumN (V1 m ρ c main_arg2) (V1 m ρ c main_v8) k j D) (j : Fin 2) (D : Fin 4096) :
    V3 (F := Ideal) m ρ c main_v30 (ix2 j D) = Ideal.exp (mtwo * ls (kIn m c) (cls j.val) D) := by
  show StableHlo.after hostOps1 (W2 m ρ c) (Proc.devRef .tc main_v30) (ix2 j D) = _
  after_results
  rw [hostExp_at, mulf_apply, splat_at, quot_at (kIn m c) _ _ _ (W2_cnt0 m ρ c hb) (W2_cnt1 m ρ c hb), h4, colsum_eq, V1_arg2]
  rfl

/-- The per-class constant parts: kappa - ls summed over the features, from a zero initial value. -/
theorem V3_cpart (hb : BothClasses (kIn m c))
    (h4 : ∀ (j : Fin 2) (D : Fin 4096), W2 (F := Ideal) m ρ c (Proc.devRef .tc main_v19_1) (ix2 j D)
      = ∑ k ∈ Finset.range 8, bsumN (V1 m ρ c main_arg2) (V1 m ρ c main_v8) k j D) (j : Fin 2) :
    V3 (F := Ideal) m ρ c main_v33 (ix1 j) = cpart (kIn m c) (cls j.val) := by
  show StableHlo.after hostOps1 (W2 m ρ c) (Proc.devRef .tc main_v33) (ix1 j) = _
  after_results
  rw [rowsum_at, constant_apply, Ideal.ofBits_zero_f32, zero_add]
  unfold Cert.Spec.cpart
  show @Eq EReal _ _
  exact Finset.sum_congr rfl fun k _ => by
    rw [subf_apply, splat_at, quot_at (kIn m c) _ _ _ (W2_cnt0 m ρ c hb) (W2_cnt1 m ρ c hb), h4, colsum_eq, V1_arg2]
    rfl
/-! ## What the second stretch leaves alone -/

theorem V3_arg0 : V3 (F := Ideal) m ρ c main_arg0 = (kIn m c).z :=
  (StableHlo.after_of_writes_sub hostOps1 _ hostOps1_writes (by decide)).trans
    ((W2_of_ne m ρ c main_arg0 (by decide)).trans (V1_arg0 m ρ c))

theorem V3_v8 : V3 (F := Ideal) m ρ c main_v8 = V1 m ρ c main_v8 :=
  (StableHlo.after_of_writes_sub hostOps1 _ hostOps1_writes (by decide)).trans (W2_v8 m ρ c)

/-- The indicators as the second region finds them. -/
theorem V3_ind (b : Fin 8192) (j : Fin 2) : V3 (F := Ideal) m ρ c main_v8 (ix2 b j) = msk (kIn m c) (cls j.val) b := by
  rw [V3_v8]; exact V1_ind m ρ c b j

theorem V3_cnt0 (hb : BothClasses (kIn m c)) (i : S_.Idx) : V3 (F := Ideal) m ρ c main_v10 i = cnt (kIn m c) 0#32 :=
  (congrFun ((StableHlo.after_of_writes_sub hostOps1 _ hostOps1_writes (by decide)).trans
    (W2_of_ne m ρ c main_v10 (by decide))) i).trans (V1_cnt0 m ρ c hb i)
theorem V3_cnt1 (hb : BothClasses (kIn m c)) (i : S_.Idx) : V3 (F := Ideal) m ρ c main_v12 i = cnt (kIn m c) 1#32 :=
  (congrFun ((StableHlo.after_of_writes_sub hostOps1 _ hostOps1_writes (by decide)).trans
    (W2_of_ne m ρ c main_v12 (by decide))) i).trans (V1_cnt1 m ρ c hb i)
theorem V3_ldm0 (hb : BothClasses (kIn m c)) (i : S_.Idx) : V3 (F := Ideal) m ρ c main_v15 i = ldm (kIn m c) 0#32 :=
  (congrFun ((StableHlo.after_of_writes_sub hostOps1 _ hostOps1_writes (by decide)).trans
    (W2_of_ne m ρ c main_v15 (by decide))) i).trans (V1_ldm0 m ρ c hb i)
theorem V3_ldm1 (hb : BothClasses (kIn m c)) (i : S_.Idx) : V3 (F := Ideal) m ρ c main_v18 i = ldm (kIn m c) 1#32 :=
  (congrFun ((StableHlo.after_of_writes_sub hostOps1 _ hostOps1_writes (by decide)).trans
    (W2_of_ne m ρ c main_v18 (by decide))) i).trans (V1_ldm1 m ρ c hb i)

end Cert.KernelIdeal.Hand

end
-- ==== Proof.KI.R1Defs.lean ====
/-
  What the second kernel region leaves in its 2 x 1 x 2 output array, as a function of the arrays it is entered with: the
  8192 x 4096 operand z, the 8192 x 2 class indicators, and the two 2 x 4096 arrays of per-class means and inverse variances.
  A row's quantity is the sum over the 4096 features of (z - blended mean)^2 * blended inverse variance, the blends taken
  with the row's two indicators. Entry (h, 0, j) of the output is the sum, over the sixteen blocks of 256 rows of half h of
  the batch, of the block's sum of row quantities times the class-j indicator.
-/
import proofs.«179402_j71244917506189_2_alg».proof.Proof.KI.R1Frame
import Idealize.ShloMosaic.PureOps.Ideal
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- Row R's sum of squared, scaled differences from its blended mean, over arrays Z (operand), M (indicators), MU (means), IV (inverse variances). -/
def rowqA (Z : S8192x4096.Idx → EReal) (M : S8192x2.Idx → EReal) (MU IV : S2x4096.Idx → EReal) (R : Fin 8192) : EReal :=
  ∑ d : Fin 4096,
    ((Z (ix2 R d) - (M (ix2 R (0 : Fin 2)) * MU (ix2 (0 : Fin 2) d) + M (ix2 R (1 : Fin 2)) * MU (ix2 (1 : Fin 2) d)))
      * (Z (ix2 R d) - (M (ix2 R (0 : Fin 2)) * MU (ix2 (0 : Fin 2) d) + M (ix2 R (1 : Fin 2)) * MU (ix2 (1 : Fin 2) d))))
    * (M (ix2 R (0 : Fin 2)) * IV (ix2 (0 : Fin 2) d) + M (ix2 R (1 : Fin 2)) * IV (ix2 (1 : Fin 2) d))

/-- Block t (256 rows) of the batch: its sum of row quantities times the class-j indicator. -/
def qsumA (Z : S8192x4096.Idx → EReal) (M : S8192x2.Idx → EReal) (MU IV : S2x4096.Idx → EReal) (t : ℕ) (j : Fin 2) : EReal :=
  ∑ r : Fin 256, if h : t * 256 + r.val < 8192 then rowqA Z M MU IV ⟨t * 256 + r.val, h⟩ * M (ix2 ⟨t * 256 + r.val, h⟩ j) else 0

variable (V : (c : Dev nD) → (b : Ref sig .tc) → Buf (Elt Ideal) ((c : Thread nD τ).loc b))

/-- The same at the arrays a valuation holds: z, the indicators, the means, the inverse variances. -/
def rowq (c : Dev nD) (R : Fin 8192) : EReal := rowqA (V c main_arg0) (V c main_v8) (V c main_v25) (V c main_v30) R
def qsumN (c : Dev nD) (t : ℕ) (j : Fin 2) : EReal := qsumA (V c main_arg0) (V c main_v8) (V c main_v25) (V c main_v30) t j

/-- The output array after the region. -/
def G34 (c : Dev nD) : S2x1x2.Idx → EReal := fun i =>
  ∑ k ∈ Finset.range 16, qsumN V c ((i 0).val * 16 + k) ⟨(i 2).val, (i 2).isLt⟩

end Cert.KernelIdeal.Hand

end
-- ==== Proof.KI.HostReads2.lean ====
/-
  The second region's output against the specification. With the arrays it is entered with read as the operand z, the
  two indicators, the per-class column means and the inverse variances, a row's quantity is the sum over the features
  of (z - blended mean)^2 times the blended inverse variance, the specification's; the region's output at (h, 0, j)
  sums, over the sixteen blocks of 256 rows of half h of the batch, the rows' quantities times class j's indicator,
  so its two halves add up to class j's total over all 8192 rows. The two arrays of column means are written neither by
  the second region nor by the last stretch.
-/
import proofs.«179402_j71244917506189_2_alg».proof.Proof.KI.HostReads1
import proofs.«179402_j71244917506189_2_alg».proof.Proof.KI.R1Defs

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL.Sem
open Idealize.ShloMosaic.ValueIdx
open Cert.Spec (Inputs msk cnt ldm mu ls kappa half mtwo two rowlp lp prior cls out0 out1 out2 out3 musel ivsel rowsq ssq cpart klp Finite BothClasses)

variable (m : (ℓ : Loc nD τ sig) → Buf (Elt Ideal) ℓ) (ρ : Dev nD → PrngReg) (c : Dev nD)

/-! ## The second region's row quantity and its class totals, over the specification's statistics -/

/-- A row's sum of squared, scaled differences from its blended mean, at the arrays the second region is entered
    with, is the specification's. -/
theorem rowq_eq (hb : BothClasses (kIn m c))
    (h3 : ∀ (j : Fin 2) (D : Fin 4096), W2 (F := Ideal) m ρ c (Proc.devRef .tc main_v19_0) (ix2 j D)
      = ∑ k ∈ Finset.range 8, bsumN (V1 m ρ c main_arg1) (V1 m ρ c main_v8) k j D)
    (h4 : ∀ (j : Fin 2) (D : Fin 4096), W2 (F := Ideal) m ρ c (Proc.devRef .tc main_v19_1) (ix2 j D)
      = ∑ k ∈ Finset.range 8, bsumN (V1 m ρ c main_arg2) (V1 m ρ c main_v8) k j D) (R : Fin 8192) :
    rowq (V3 (F := Ideal) m ρ) c R = rowsq (kIn m c) R := by
  unfold rowq rowqA Cert.Spec.rowsq Cert.Spec.musel Cert.Spec.ivsel
  refine Finset.sum_congr rfl fun d _ => ?_
  rw [V3_arg0, V3_ind m ρ c R (0 : Fin 2), V3_ind m ρ c R (1 : Fin 2), V3_mu m ρ c hb h3 (0 : Fin 2) d, V3_mu m ρ c hb h3 (1 : Fin 2) d,
    V3_iv m ρ c hb h4 (0 : Fin 2) d, V3_iv m ρ c hb h4 (1 : Fin 2) d]
  rfl

/-- The second region's output summed over its two halves of the batch: class j's total of the row quantities.
    Two halves of sixteen blocks are thirty-two blocks of 256 rows, which are the 8192 rows. -/
theorem halves_sum_eq (hb : BothClasses (kIn m c))
    (h3 : ∀ (j : Fin 2) (D : Fin 4096), W2 (F := Ideal) m ρ c (Proc.devRef .tc main_v19_0) (ix2 j D)
      = ∑ k ∈ Finset.range 8, bsumN (V1 m ρ c main_arg1) (V1 m ρ c main_v8) k j D)
    (h4 : ∀ (j : Fin 2) (D : Fin 4096), W2 (F := Ideal) m ρ c (Proc.devRef .tc main_v19_1) (ix2 j D)
      = ∑ k ∈ Finset.range 8, bsumN (V1 m ρ c main_arg2) (V1 m ρ c main_v8) k j D) (j : Fin 2) :
    ∑ h : Fin 2, G34 (V3 (F := Ideal) m ρ) c (ix3 h (0 : Fin 1) j) = ssq (kIn m c) (cls j.val) := by
  show ∑ h : Fin 2, ∑ k ∈ Finset.range 16,
    qsumA (V3 (F := Ideal) m ρ c main_arg0) (V3 m ρ c main_v8) (V3 m ρ c main_v25) (V3 m ρ c main_v30) (h.val * 16 + k) j = _
  refine (Finset.sum_range (fun h : ℕ => ∑ k ∈ Finset.range 16,
    qsumA (V3 (F := Ideal) m ρ c main_arg0) (V3 m ρ c main_v8) (V3 m ρ c main_v25) (V3 m ρ c main_v30) (h * 16 + k) j)).symm.trans ?_
  rw [Cert.LibBlockSums.sum_range_mul 2 16 (fun t : ℕ =>
    qsumA (V3 (F := Ideal) m ρ c main_arg0) (V3 m ρ c main_v8) (V3 m ρ c main_v25) (V3 m ρ c main_v30) t j)]
  unfold qsumA
  refine (Cert.LibBlockSums.sum_blocks 32 256 8192 rfl (fun b : Fin 8192 =>
    rowqA (V3 (F := Ideal) m ρ c main_arg0) (V3 m ρ c main_v8) (V3 m ρ c main_v25) (V3 m ρ c main_v30) b
      * V3 (F := Ideal) m ρ c main_v8 (ix2 b j))).trans ?_
  unfold Cert.Spec.ssq
  exact Finset.sum_congr rfl fun b _ => by
    rw [V3_ind, ← rowq_eq m ρ c hb h3 h4 b]
    rfl

/-! ## The two arrays of column means reach the end as the second stretch made them -/

theorem W5_v25 : W5 (F := Ideal) m ρ c (Proc.devRef .tc main_v25) = V3 m ρ c main_v25 :=
  (StableHlo.after_of_writes_sub hostOps2 _ hostOps2_writes (by decide)).trans
    ((W4_arr m ρ c 2).trans (((dat1 (V3 m ρ) c).arrAt_in 2 rfl _).trans (A_eq1 (V3 m ρ) c 2)))

theorem W5_v27 : W5 (F := Ideal) m ρ c (Proc.devRef .tc main_v27) = V3 m ρ c main_v27 :=
  (StableHlo.after_of_writes_sub hostOps2 _ hostOps2_writes (by decide)).trans (W4_of_ne m ρ c main_v27 (by decide))

end Cert.KernelIdeal.Hand

end
-- ==== Proof.Law.lean ====
/-
  The law: the kernel's arrangement of a class's log-density is the reference's.

  Write 1_j(b) for the class indicator, n_j for its sum over the rows, e_j(d) = exp(-2 ls_j(d)),
  C_j = sum_d (kappa - ls_j(d)) and Q_j(b) = sum_d (z[b,d] - mu_j(d))^2 * e_j(d).

  First, with no hypothesis on the inputs: on a row with 1_j(b) = 1 the other class's indicator is 0 (the two class
  words differ), so the row's blended mean and inverse variance are class j's own, 1 * x + 0 * y = x; on a row with
  1_j(b) = 0 both summands carry the factor 0. Hence the kernel's total is S_j = sum_b Q_j(b) * 1_j(b).

  Then, every quantity being a real number and n_j not zero, over the reals
      (sum_b (sum_d ((kappa - ls_j(d)) - (1/2 * sq(b,d)) * e_j(d))) * 1_j(b)) / n_j
        = (sum_b (C_j - 1/2 * Q_j(b)) * 1_j(b)) / n_j = (C_j * n_j - 1/2 * S_j) / n_j = C_j - (1/2 * S_j) / n_j,
  using sum_b 1_j(b) = n_j. The extended reals are not a ring, so the identity is proved over the reals, for abstract
  finite index types, and carried over by choosing a real for every quantity and moving the inclusion of the reals
  outward through the sums, differences and products.
-/
import proofs.«179402_j71244917506189_2_alg».proof.Proof.LawBase

noncomputable section

open scoped BigOperators

namespace Cert.Spec

open Idealize.ShloMosaic Idealize.ShloMosaic.ValueIdx Cert.LibRealClosed

/-! ### The identity over the reals -/

/-- A masked mean of rows "constant part minus scaled square part" is the constant part minus the scaled masked total of
    the square parts over the mask's sum, when that sum is not zero. -/
theorem law_real {B D : Type*} [Fintype B] [Fintype D] (z : B → D → ℝ) (m l : D → ℝ) (k h t : ℝ) (a : B → ℝ) (n : ℝ)
    (hn : n ≠ 0) (hsum : ∑ b, a b = n) :
    (∑ d, (k - l d)) - (h * ∑ b, (∑ d, ((z b d - m d) * (z b d - m d)) * Real.exp (t * l d)) * a b) * (1 / n)
      = (∑ b, (∑ d, ((k - l d) - (h * ((z b d - m d) * (z b d - m d))) * Real.exp (t * l d))) * a b) * (1 / n) := by
  have h1 : ∀ b, (∑ d, ((k - l d) - (h * ((z b d - m d) * (z b d - m d))) * Real.exp (t * l d)))
      = (∑ d, (k - l d)) - h * ∑ d, ((z b d - m d) * (z b d - m d)) * Real.exp (t * l d) := by
    intro b
    rw [Finset.sum_sub_distrib, Finset.mul_sum]
    congr 1
    exact Finset.sum_congr rfl fun d _ => by ring
  have h2 : (∑ b, ((∑ d, (k - l d)) - h * ∑ d, ((z b d - m d) * (z b d - m d)) * Real.exp (t * l d)) * a b)
      = (∑ d, (k - l d)) * n - h * ∑ b, (∑ d, ((z b d - m d) * (z b d - m d)) * Real.exp (t * l d)) * a b := by
    rw [← hsum, Finset.mul_sum, Finset.mul_sum, ← Finset.sum_sub_distrib]
    exact Finset.sum_congr rfl fun b _ => by ring
  have h3 : (∑ b, (∑ d, ((k - l d) - (h * ((z b d - m d) * (z b d - m d))) * Real.exp (t * l d))) * a b)
      = ∑ b, ((∑ d, (k - l d)) - h * ∑ d, ((z b d - m d) * (z b d - m d)) * Real.exp (t * l d)) * a b :=
    Finset.sum_congr rfl fun b _ => by rw [h1 b]
  rw [h3, h2, sub_mul, mul_assoc (∑ d, (k - l d)) n, mul_one_div_cancel hn, mul_one]

/-! ### The blend on a row of the class -/

variable (I : Inputs)

/-- On a row of class j the blended mean is class j's mean: the other class's indicator is 0. -/
theorem musel_of_mem (j : BitVec 32) (hj : j = 0#32 ∨ j = 1#32) (b : Fin 8192) (h : I.tgt (ix1 b) = j) (d : Fin 4096) :
    musel I b d = mu I j d := by
  unfold musel msk
  rcases hj with rfl | rfl
  · have h1 : ¬ I.tgt (ix1 b) = 1#32 := by rw [h]; decide
    rw [if_pos h, if_neg h1, one_mul, zero_mul, add_zero]
  · have h0 : ¬ I.tgt (ix1 b) = 0#32 := by rw [h]; decide
    rw [if_neg h0, if_pos h, zero_mul, one_mul, zero_add]

/-- On a row of class j the blended inverse variance is class j's. -/
theorem ivsel_of_mem (j : BitVec 32) (hj : j = 0#32 ∨ j = 1#32) (b : Fin 8192) (h : I.tgt (ix1 b) = j) (d : Fin 4096) :
    ivsel I b d = Ideal.exp (mtwo * ls I j d) := by
  unfold ivsel msk
  rcases hj with rfl | rfl
  · have h1 : ¬ I.tgt (ix1 b) = 1#32 := by rw [h]; decide
    rw [if_pos h, if_neg h1, one_mul, zero_mul, add_zero]
  · have h0 : ¬ I.tgt (ix1 b) = 0#32 := by rw [h]; decide
    rw [if_neg h0, if_pos h, zero_mul, one_mul, zero_add]

/-- The kernel's total for class j is the masked total of class j's own row sums. -/
theorem ssq_eq (j : BitVec 32) (hj : j = 0#32 ∨ j = 1#32) :
    ssq I j = ∑ b : Fin 8192, (∑ d : Fin 4096,
      ((I.z (ix2 b d) - mu I j d) * (I.z (ix2 b d) - mu I j d)) * Ideal.exp (mtwo * ls I j d)) * msk I j b := by
  unfold ssq
  refine Finset.sum_congr rfl fun b _ => ?_
  by_cases h : I.tgt (ix1 b) = j
  · congr 1
    unfold rowsq
    refine Finset.sum_congr rfl fun d _ => ?_
    rw [musel_of_mem I j hj b h d, ivsel_of_mem I j hj b h d]
  · have h0 : msk I j b = 0 := by unfold msk; rw [if_neg h]
    rw [h0, mul_zero, mul_zero]

/-! ### The law -/

/-- With real inputs and a member in each class, the kernel's arrangement of class j's log-density is the reference's. -/
theorem klp_eq_lp (hf : Finite I) (hb : BothClasses I) (j : BitVec 32) (hj : j = 0#32 ∨ j = 1#32) : klp I j = lp I j := by
  have hmem : ∃ b : Fin 8192, I.tgt (ix1 b) = j := by
    rcases hj with rfl | rfl
    · exact hb.c0
    · exact hb.c1
  -- a real number for every quantity in sight
  choose zr hz using fun (b : Fin 8192) (d : Fin 4096) => hf.z (ix2 b d)
  choose m hm using fun d => mu_real I hf j hmem d
  choose l hl using fun d => ls_real I hf j hmem d
  obtain ⟨k, hk⟩ := kappa_real
  obtain ⟨h, hh⟩ := half_real
  obtain ⟨t, ht⟩ := mtwo_real
  choose a ha using (fun b => msk_real I j b : ∀ b : Fin 8192, ∃ r : ℝ, msk I j b = (r : EReal))
  have hcnt : cnt I j = ((∑ b, a b : ℝ) : EReal) := by
    unfold cnt
    rw [coe_finset_sum]
    exact Finset.sum_congr rfl fun b _ => ha b
  have hn : (∑ b, a b) ≠ 0 := by
    intro h0
    apply cnt_ne_zero I j hmem
    rw [hcnt, h0, EReal.coe_zero]
  -- both sides as images of real expressions
  unfold klp lp cpart rowlp
  rw [ssq_eq I j hj]
  simp only [hz, hm, hl, hk, hh, ht, ha, hcnt]
  rw [Ideal.div_coe hn, Ideal.div_coe hn]
  simp only [Ideal.exp_coe, ← EReal.coe_mul, ← EReal.coe_sub, ← coe_finset_sum]
  exact congrArg _ (law_real zr m l k h t a _ hn rfl)

end Cert.Spec

end
-- ==== Proof.LibIndexSums.lean ====
import Idealize.ShloMosaic.Lib.ValueIdx

/-! # Sums over the index set of an array as iterated sums over its coordinates

The index set of a rank-1 array `[n]` is `Fin n` through `ix1`, and the index set of a rank-3 array `[n0, n1, n2]` is
`Fin n0 × Fin n1 × Fin n2` through `ix3`, so a sum over every index of the array is the sum over the coordinate, or
the triple sum over the three coordinates, and the array has `n0 · n1 · n2` indices. Generic in the extents and in the
commutative monoid summed in. (The rank-2 form is the library's `ValueIdx.sum_idx2`.) -/

noncomputable section

namespace Cert.IndexSums

open Idealize.ShloMosaic Idealize.ShloMosaic.ValueIdx

/-- A rank-1 index set is its coordinate's range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over its coordinate. -/
theorem sum_idx1 {A : Type*} [AddCommMonoid A] {n : Nat} (f : (⟨1, ![n]⟩ : Shape).Idx → A) : ∑ i, f i = ∑ a : Fin n, f (ix1 a) := by
  rw [← Equiv.sum_comp (idxEquiv1 (n := n)).symm f]
  rfl

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {A : Type*} [AddCommMonoid A] {n0 n1 n2 : Nat} (f : (⟨3, ![n0, n1, n2]⟩ : Shape).Idx → A) :
    ∑ q, f q = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-3 array has as many indices as the product of its extents. -/
theorem card_idx3 {n0 n1 n2 : Nat} : (Finset.univ : Finset (⟨3, ![n0, n1, n2]⟩ : Shape).Idx).card = n0 * (n1 * n2) := by
  rw [Finset.card_univ, Fintype.card_congr (idxEquiv3 (n0 := n0) (n1 := n1) (n2 := n2))]
  simp [Fintype.card_prod]

end Cert.IndexSums

end
-- ==== Proof.KI.HostTail.lean ====
/-
  The last stretch of host operations, read at what the second kernel region leaves.

  From the region's partial sums (a [2, 1, 2] array whose entry (h, 0, j) is core-half h's part of class j's total S_j),
  the two class sizes n_0, n_1, the two constant parts C_0, C_1 and the two class means of logdet, the stretch forms
      lp_j = C_j - (1/2 * (0 + S_j)) / n_j        (the sum over the halves starts from the zero word)
  as a vector of two entries, the two sizes and the two logdet means having been laid side by side as vectors of two
  entries, and then the scalar ((lp_0 + ldm_0) + (lp_1 + ldm_1)) / 2, the sum over the two entries again starting from
  the zero word. The first is the kernel's arrangement of the class's log-density, which is the reference's by the law;
  the second is then the reference's scalar result as written.

  The stretch's eighteen operations are cut after the tenth (the one that writes the vector of the lp_j), so that the
  scalar is read over the valuation the first ten leave, in which the vector's entries are already known.
-/
import proofs.«179402_j71244917506189_2_alg».proof.Proof.KI.Run
import proofs.«179402_j71244917506189_2_alg».proof.Proof.SpecK
import proofs.«179402_j71244917506189_2_alg».proof.Proof.Law
import proofs.«179402_j71244917506189_2_alg».proof.Proof.LibIndexSums
import proofs.«179402_j71244917506189_2_alg».proof.Proof.LibStackedPieces
import Idealize.ShloMosaic.Lib.ValueLayout
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem

/-! ## The sum over the first two axes of a [2, 1, 2] array -/

/-- The host's sum over the first two axes of a [2, 1, 2] array, at entry j: the initial value plus the two entries
    (a, 0, j). An index (a, b, e) reduces into entry e, so the indices that reduce into j are those with e = j. -/
theorem hostReduceAdd_212 (h : S2x1x2.ReducesTo [0, 1] S2) (x : S2x1x2.Idx → EReal) (init : EReal) (j : Fin 2) :
    Ideal.hostReduceAdd h x init (ix1 j) = init + ∑ a : Fin 2, x (ix3 a (0 : Fin 1) j) := by
  unfold Ideal.hostReduceAdd
  congr 1
  rw [Finset.sum_filter, Cert.IndexSums.sum_idx3]
  refine Finset.sum_congr rfl fun a _ => ?_
  rw [Fin.sum_univ_one]
  have hd : ∀ e : Fin 2, (h.drop (ix3 a (0 : Fin 1) e) = ix1 j) ↔ e = j := by
    intro e
    constructor
    · intro he
      exact Fin.ext (congrArg (fun i : S2.Idx => (i 0).val) he)
    · rintro rfl
      funext d
      match d with
      | ⟨0, _⟩ => rfl
  simp only [hd, Finset.sum_ite_eq', Finset.mem_univ, if_true]

/-! ## The two values as terms over the stretch's inputs -/

/-- The vector of the per-class log-densities, as the stretch forms it from the constant parts, the partial sums and the
    sizes, at entry j: the kernel's arrangement, hence the reference's log-density of class j. -/
theorem lp_term (I : Cert.Spec.Inputs) (hf : Cert.Spec.Finite I) (hb : Cert.Spec.BothClasses I)
    (x33 : FVec Ideal S2 .f32) (x34 : FVec Ideal S2x1x2 .f32) (x10 x12 : FVec Ideal S_ .f32)
    (h10 : (x10 ix0 : EReal) = Cert.Spec.cnt I 0#32) (h12 : (x12 ix0 : EReal) = Cert.Spec.cnt I 1#32)
    (h33 : ∀ j : Fin 2, (x33 (ix1 j) : EReal) = Cert.Spec.cpart I (Cert.Spec.cls j.val))
    (h34 : ∀ j : Fin 2, ∑ h : Fin 2, (x34 (ix3 h (0 : Fin 1) j) : EReal) = Cert.Spec.ssq I (Cert.Spec.cls j.val))
    (j : Fin 2) :
    (subf (F := Ideal) x33 (Host.divf (F := Ideal)
        (mulf (F := Ideal) (broadcastInDim S2 ![] bcast_S_S2 (constant (F := Ideal) S_ .f32 0x3F000000#32))
          (Host.reduceAdd (F := Ideal) x34 (constant (F := Ideal) S_ .f32 0x00000000#32) reducesTo_S2x1x2_S2_d0_1 h_S_))
        (concatenate S2 0 [⟨S1, broadcastInDim S1 ![] bcast_S_S1 x10⟩, ⟨S1, broadcastInDim S1 ![] bcast_S_S1 x12⟩]
          concatenates_S1_S1_S2_d0)) (ix1 j) : EReal)
      = Cert.Spec.lp I (Cert.Spec.cls j.val) := by
  have hj : Cert.Spec.cls j.val = 0#32 ∨ Cert.Spec.cls j.val = 1#32 := by
    match j with
    | ⟨0, _⟩ => exact Or.inl rfl
    | ⟨1, _⟩ => exact Or.inr rfl
  rw [← Cert.Spec.klp_eq_lp I hf hb _ hj]
  unfold Cert.Spec.klp
  show (x33 (ix1 j) : EReal) - Ideal.div ((_ : EReal) * (_ : EReal)) (_ : EReal) = _
  refine congrArg₂ (fun x y : EReal => x - y) (h33 j)
    (congrArg₂ Ideal.div (congrArg₂ (fun x y : EReal => x * y) rfl ?_) ?_)
  · refine (hostReduceAdd_212 _ _ _ j).trans ?_
    show Ideal.ofBits .f32 0x00000000#32 + _ = _
    rw [Ideal.ofBits_zero_f32, zero_add]
    exact h34 j
  · match j with
    | ⟨0, _⟩ =>
      exact (Cert.LibStackedPieces.stack2_vec_0 _ _ _ (0 : Fin 2) (0 : Fin 1) rfl).trans
        ((broadcastInDim_apply _ _ _ _ ix0 fun a => a.elim0).trans h10)
    | ⟨1, _⟩ =>
      exact (Cert.LibStackedPieces.stack2_vec_1 _ _ _ (1 : Fin 2) (0 : Fin 1) rfl).trans
        ((broadcastInDim_apply _ _ _ _ ix0 fun a => a.elim0).trans h12)

/-- The scalar result, as the stretch forms it from the vector of log-densities and the two logdet means. -/
theorem prior_term (I : Cert.Spec.Inputs) (y42 : FVec Ideal S2 .f32) (x15 x18 : FVec Ideal S_ .f32)
    (h42 : ∀ j : Fin 2, (y42 (ix1 j) : EReal) = Cert.Spec.lp I (Cert.Spec.cls j.val))
    (h15 : (x15 ix0 : EReal) = Cert.Spec.ldm I 0#32) (h18 : (x18 ix0 : EReal) = Cert.Spec.ldm I 1#32) :
    (Host.divf (F := Ideal) (Host.reduceAdd (F := Ideal)
        (addf (F := Ideal) y42
          (concatenate S2 0 [⟨S1, broadcastInDim S1 ![] bcast_S_S1 x15⟩, ⟨S1, broadcastInDim S1 ![] bcast_S_S1 x18⟩]
            concatenates_S1_S1_S2_d0))
        (constant (F := Ideal) S_ .f32 0x00000000#32) reducesTo_S2_S_d0 h_S_)
      (constant (F := Ideal) S_ .f32 0x40000000#32) ix0 : EReal) = Cert.Spec.prior I := by
  unfold Cert.Spec.prior
  show Ideal.div (_ : EReal) (_ : EReal) = _
  refine congrArg₂ Ideal.div ?_ rfl
  refine (Ideal.hostReduceAdd_total _ (fun b => b.elim0) _ _ ix0).trans ?_
  rw [Cert.IndexSums.sum_idx1, Fin.sum_univ_two]
  show Ideal.ofBits .f32 0x00000000#32 + _ = _
  rw [Ideal.ofBits_zero_f32, zero_add]
  refine congrArg₂ (fun x y : EReal => x + y) ?_ ?_
  · show (y42 (ix1 (0 : Fin 2)) : EReal) + (_ : EReal) = _
    refine congrArg₂ (fun x y : EReal => x + y) (h42 0) ?_
    exact (Cert.LibStackedPieces.stack2_vec_0 _ _ _ (0 : Fin 2) (0 : Fin 1) rfl).trans
      ((broadcastInDim_apply _ _ _ _ ix0 fun a => a.elim0).trans h15)
  · show (y42 (ix1 (1 : Fin 2)) : EReal) + (_ : EReal) = _
    refine congrArg₂ (fun x y : EReal => x + y) (h42 1) ?_
    exact (Cert.LibStackedPieces.stack2_vec_1 _ _ _ (1 : Fin 2) (0 : Fin 1) rfl).trans
      ((broadcastInDim_apply _ _ _ _ ix0 fun a => a.elim0).trans h18)

/-! ## The stretch, cut after its tenth operation -/

section Cut
variable {F : FTy → Type} [FloatOps F]

/-- The stretch's first ten operations, in order: through the vector of per-class log-densities. -/
def tailA : List (HloOp τ sig (Elt F)) :=
  [ StableHlo.nullary main_cst_9 (constant S_ .f32 0x00000000#32),
    StableHlo.binary main_v34 main_cst_9 main_v35 ((fun x v => Host.reduceAdd x v reducesTo_S2x1x2_S2_d0_1 h_S_) : (⟨S2x1x2, .f32⟩ : BufTy).Contents (Elt F) → (⟨S_, .f32⟩ : BufTy).Contents (Elt F) → (⟨S2, .f32⟩ : BufTy).Contents (Elt F)),
    StableHlo.unary main_v10 main_v36 (broadcastInDim S1 ![] bcast_S_S1 : (⟨S_, .f32⟩ : BufTy).Contents (Elt F) → (⟨S1, .f32⟩ : BufTy).Contents (Elt F)),
    StableHlo.unary main_v12 main_v37 (broadcastInDim S1 ![] bcast_S_S1 : (⟨S_, .f32⟩ : BufTy).Contents (Elt F) → (⟨S1, .f32⟩ : BufTy).Contents (Elt F)),
    StableHlo.binary main_v36 main_v37 main_v38 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    StableHlo.nullary main_cst_10 (constant S_ .f32 0x3F000000#32),
    StableHlo.unary main_cst_10 main_v39 (broadcastInDim S2 ![] bcast_S_S2 : (⟨S_, .f32⟩ : BufTy).Contents (Elt F) → (⟨S2, .f32⟩ : BufTy).Contents (Elt F)),
    StableHlo.binary main_v39 main_v35 main_v40 (mulf : (⟨S2, .f32⟩ : BufTy).Contents (Elt F) → (⟨S2, .f32⟩ : BufTy).Contents (Elt F) → (⟨S2, .f32⟩ : BufTy).Contents (Elt F)),
    StableHlo.binary main_v40 main_v38 main_v41 (Host.divf : (⟨S2, .f32⟩ : BufTy).Contents (Elt F) → (⟨S2, .f32⟩ : BufTy).Contents (Elt F) → (⟨S2, .f32⟩ : BufTy).Contents (Elt F)),
    StableHlo.binary main_v33 main_v41 main_v42 (subf : (⟨S2, .f32⟩ : BufTy).Contents (Elt F) → (⟨S2, .f32⟩ : BufTy).Contents (Elt F) → (⟨S2, .f32⟩ : BufTy).Contents (Elt F)) ]

/-- The stretch's last eight operations, in order: the logdet means added, the sum of the two entries, its half. -/
abbrev tailB : List (HloOp τ sig (Elt F)) :=
  [ StableHlo.unary main_v15 main_v43 (broadcastInDim S1 ![] bcast_S_S1 : (⟨S_, .f32⟩ : BufTy).Contents (Elt F) → (⟨S1, .f32⟩ : BufTy).Contents (Elt F)),
    StableHlo.unary main_v18 main_v44 (broadcastInDim S1 ![] bcast_S_S1 : (⟨S_, .f32⟩ : BufTy).Contents (Elt F) → (⟨S1, .f32⟩ : BufTy).Contents (Elt F)),
    StableHlo.binary main_v43 main_v44 main_v45 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    StableHlo.binary main_v42 main_v45 main_v46 (addf : (⟨S2, .f32⟩ : BufTy).Contents (Elt F) → (⟨S2, .f32⟩ : BufTy).Contents (Elt F) → (⟨S2, .f32⟩ : BufTy).Contents (Elt F)),
    StableHlo.nullary main_cst_11 (constant S_ .f32 0x00000000#32),
    StableHlo.binary main_v46 main_cst_11 main_v47 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    StableHlo.nullary main_cst_12 (constant S_ .f32 0x40000000#32),
    StableHlo.binary main_v47 main_cst_12 main_v48 (Host.divf : (⟨S_, .f32⟩ : BufTy).Contents (Elt F) → (⟨S_, .f32⟩ : BufTy).Contents (Elt F) → (⟨S_, .f32⟩ : BufTy).Contents (Elt F)) ]

theorem hostOps2_cut : (hostOps2 : List (HloOp τ sig (Elt F))) = tailA ++ tailB := rfl

end Cut

/-! ## The two results -/

theorem tail_values (m : (ℓ : Loc nD τ sig) → Buf (Elt Ideal) ℓ) (ρ : Dev nD → PrngReg) (c : Dev nD) (I : Cert.Spec.Inputs)
    (hf : Cert.Spec.Finite I) (hb : Cert.Spec.BothClasses I)
    (h10 : (V4 m ρ c main_v10 ix0 : EReal) = Cert.Spec.cnt I 0#32)
    (h12 : (V4 m ρ c main_v12 ix0 : EReal) = Cert.Spec.cnt I 1#32)
    (h15 : (V4 m ρ c main_v15 ix0 : EReal) = Cert.Spec.ldm I 0#32)
    (h18 : (V4 m ρ c main_v18 ix0 : EReal) = Cert.Spec.ldm I 1#32)
    (h33 : ∀ j : Fin 2, (V4 m ρ c main_v33 (ix1 j) : EReal) = Cert.Spec.cpart I (Cert.Spec.cls j.val))
    (h34 : ∀ j : Fin 2, (∑ h : Fin 2, V4 m ρ c main_v34 (ix3 h (0 : Fin 1) j) : EReal) = Cert.Spec.ssq I (Cert.Spec.cls j.val)) :
    W5 m ρ c (Proc.devRef .tc main_v42) = Cert.Spec.out3 I ∧ W5 m ρ c (Proc.devRef .tc main_v48) = Cert.Spec.out0 I := by
  constructor
  · funext i
    obtain ⟨j, rfl⟩ : ∃ j : Fin 2, i = ix1 j := ⟨i 0, eq_ix1 i⟩
    show StableHlo.after hostOps2 (W4 m ρ c) (Proc.devRef .tc main_v42) (ix1 j) = Cert.Spec.lp I (Cert.Spec.cls j.val)
    after_results
    exact lp_term I hf hb _ _ _ _ h10 h12 h33 h34 j
  · funext i
    obtain rfl : i = ix0 := eq_ix0 i
    show StableHlo.after (tailA ++ tailB) (W4 m ρ c) (Proc.devRef .tc main_v48) ix0 = Cert.Spec.prior I
    rw [StableHlo.after_append]
    after_results
    refine prior_term I _ _ _ (fun j => ?_) ?_ ?_
    · show StableHlo.after tailA (W4 m ρ c) (Proc.devRef .tc main_v42) (ix1 j) = _
      unfold tailA
      after_results
      exact lp_term I hf hb _ _ _ _ h10 h12 h33 h34 j
    · show StableHlo.after tailA (W4 m ρ c) (Proc.devRef .tc main_v15) ix0 = _
      unfold tailA
      after_results
      exact h15
    · show StableHlo.after tailA (W4 m ρ c) (Proc.devRef .tc main_v18) ix0 = _
      unfold tailA
      after_results
      exact h18

end Cert.KernelIdeal.Hand

end
-- ==== Proof.KI.R0Value4.lean ====
/-
  The first kernel region's values, part four: the sweep. At the first row block of a column block an accumulator is reset
  and receives the block's masked column sums; at each later row block it receives the next block's on top. By induction
  along the sweep, after the point at position n it holds the first n + 1 row blocks' sums; at the eighth point it holds all
  eight, that is what the body stores into the output's buffer and what the launch loop writes back to the output array's
  block for this column block. The four column blocks' write-backs cover the 2 x 4096 array, so after the region the array
  is one function of the region's input arrays: entry (j, D) = sum over the eight row blocks k, and over the 1024 rows r of
  block k, of operand[1024 k + r, D] * mask[1024 k + r, j].
-/
import proofs.«179402_j71244917506189_2_alg».proof.Proof.KI.R0Value3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-! ## Accumulator 0 (over `main_arg1`) -/

/-- At the first row block of a sweep the accumulator is the block's own masked column sum. -/
theorem acc0_first (c : Dev nD) (t : Fin cfg0.N) (ht : t.val < 32) (h0 : t.val % 8 = 0) (j : Fin 2) (d : Fin 1024) :
    (((outsAt0 V c t.val t.isLt).2.2.1 : Vec Ideal S2x1024 .f32) (ix2 j d) : EReal)
      = bsumN (V c main_arg1) (V c main_v8) (t.val % 8) j (colOf t.val ht d) := by
  rw [outsAt0_A V c t h0]
  dsimp only
  rw [soutA0_eq]
  skip
  match j with
  | ⟨0, _⟩ =>
    show ((k0_pay6 (F := Ideal) _ _ _ _ : Vec Ideal S2x1024 .f32) (ix2 (0 : Fin 2) d) : EReal) = _
    rw [pay6_row0, blk_colsum0_0 V c t ht d, pay2_apply, zero_add]
    rfl
  | ⟨1, _⟩ =>
    show ((k0_pay6 (F := Ideal) _ _ _ _ : Vec Ideal S2x1024 .f32) (ix2 (1 : Fin 2) d) : EReal) = _
    rw [pay6_row1, blk_colsum0_1 V c t ht d, pay2_apply, zero_add]
    rfl

/-- At a later row block it is what the point before left plus the block's masked column sum. -/
theorem acc0_next (c : Dev nD) (t : Fin cfg0.N) (ht : t.val < 32) (h0 : ¬t.val % 8 = 0) (j : Fin 2) (d : Fin 1024) :
    (((outsAt0 V c t.val t.isLt).2.2.1 : Vec Ideal S2x1024 .f32) (ix2 j d) : EReal)
      = (((outsAt0 V c (t.val - 1) (Nat.lt_of_le_of_lt (Nat.sub_le _ _) t.isLt)).2.2.1 : Vec Ideal S2x1024 .f32) (ix2 j d) : EReal)
        + bsumN (V c main_arg1) (V c main_v8) (t.val % 8) j (colOf t.val ht d) := by
  by_cases h1 : t.val % 8 = 7
  · rw [outsAt0_C V c t h0 h1]
    dsimp only
    rw [soutC0_eq]
    skip
    match j with
    | ⟨0, _⟩ =>
      show ((k0_pay6 (F := Ideal) _ _ _ _ : Vec Ideal S2x1024 .f32) (ix2 (0 : Fin 2) d) : EReal) = _
      rw [pay6_row0, blk_colsum0_0 V c t ht d]
      rfl
    | ⟨1, _⟩ =>
      show ((k0_pay6 (F := Ideal) _ _ _ _ : Vec Ideal S2x1024 .f32) (ix2 (1 : Fin 2) d) : EReal) = _
      rw [pay6_row1, blk_colsum0_1 V c t ht d]
      rfl
  · rw [outsAt0_B V c t h0 h1]
    dsimp only
    rw [soutB0_eq]
    skip
    match j with
    | ⟨0, _⟩ =>
      show ((k0_pay6 (F := Ideal) _ _ _ _ : Vec Ideal S2x1024 .f32) (ix2 (0 : Fin 2) d) : EReal) = _
      rw [pay6_row0, blk_colsum0_0 V c t ht d]
      rfl
    | ⟨1, _⟩ =>
      show ((k0_pay6 (F := Ideal) _ _ _ _ : Vec Ideal S2x1024 .f32) (ix2 (1 : Fin 2) d) : EReal) = _
      rw [pay6_row1, blk_colsum0_1 V c t ht d]
      rfl

/-- Along a sweep: after the point at position n mod 8 the accumulator holds the first n mod 8 + 1 row blocks' sums. -/
theorem acc0_sweep (c : Dev nD) : ∀ (n : ℕ) (hn : n < cfg0.N) (hn' : n < 32) (j : Fin 2) (d : Fin 1024),
    (((outsAt0 V c n hn).2.2.1 : Vec Ideal S2x1024 .f32) (ix2 j d) : EReal)
      = ∑ k ∈ Finset.range (n % 8 + 1), bsumN (V c main_arg1) (V c main_v8) k j (colOf n hn' d)
  | 0, hn, hn', j, d => by
    rw [acc0_first V c ⟨0, hn⟩ hn' rfl j d]
    simp
  | n + 1, hn, hn', j, d => by
    by_cases h0 : (n + 1) % 8 = 0
    · rw [acc0_first V c ⟨n + 1, hn⟩ hn' h0 j d]
      show bsumN _ _ ((n + 1) % 8) j _ = _
      rw [h0]; simp
    · have hcol : colOf n (by omega) d = colOf (n + 1) hn' d := Fin.ext (by show n / 8 * 1024 + d.val = (n + 1) / 8 * 1024 + d.val; omega)
      have e1 : (n + 1) % 8 = n % 8 + 1 := by omega
      rw [acc0_next V c ⟨n + 1, hn⟩ hn' h0 j d]
      show (((outsAt0 V c n _).2.2.1 : Vec Ideal S2x1024 .f32) (ix2 j d) : EReal) + bsumN _ _ ((n + 1) % 8) j _ = _
      rw [acc0_sweep c n (Nat.lt_of_succ_lt hn) (by omega) j d, hcol, e1, Finset.sum_range_succ (n := n % 8 + 1)]

/-- The array output 3 ends as: entry (j, D) is the sum over all eight row blocks of column D's masked sums. -/
def G3 (c : Dev nD) : S2x4096.Idx → EReal := fun i =>
  ∑ k ∈ Finset.range 8, bsumN (V c main_arg1) (V c main_v8) k ⟨(i 0).val, idx2_lt0 i⟩ ⟨(i 1).val, idx2_lt1 i⟩

/-! ## Accumulator 1 (over `main_arg2`) -/

/-- At the first row block of a sweep the accumulator is the block's own masked column sum. -/
theorem acc1_first (c : Dev nD) (t : Fin cfg0.N) (ht : t.val < 32) (h0 : t.val % 8 = 0) (j : Fin 2) (d : Fin 1024) :
    (((outsAt0 V c t.val t.isLt).2.2.2 : Vec Ideal S2x1024 .f32) (ix2 j d) : EReal)
      = bsumN (V c main_arg2) (V c main_v8) (t.val % 8) j (colOf t.val ht d) := by
  rw [outsAt0_A V c t h0]
  dsimp only
  rw [soutA1_eq]
  rw [pay1_eq]
  match j with
  | ⟨0, _⟩ =>
    show ((k0_pay7 (F := Ideal) _ _ _ _ : Vec Ideal S2x1024 .f32) (ix2 (0 : Fin 2) d) : EReal) = _
    rw [pay7_row0, blk_colsum1_0 V c t ht d, pay3_apply, zero_add]
    rfl
  | ⟨1, _⟩ =>
    show ((k0_pay7 (F := Ideal) _ _ _ _ : Vec Ideal S2x1024 .f32) (ix2 (1 : Fin 2) d) : EReal) = _
    rw [pay7_row1, blk_colsum1_1 V c t ht d, pay3_apply, zero_add]
    rfl

/-- At a later row block it is what the point before left plus the block's masked column sum. -/
theorem acc1_next (c : Dev nD) (t : Fin cfg0.N) (ht : t.val < 32) (h0 : ¬t.val % 8 = 0) (j : Fin 2) (d : Fin 1024) :
    (((outsAt0 V c t.val t.isLt).2.2.2 : Vec Ideal S2x1024 .f32) (ix2 j d) : EReal)
      = (((outsAt0 V c (t.val - 1) (Nat.lt_of_le_of_lt (Nat.sub_le _ _) t.isLt)).2.2.2 : Vec Ideal S2x1024 .f32) (ix2 j d) : EReal)
        + bsumN (V c main_arg2) (V c main_v8) (t.val % 8) j (colOf t.val ht d) := by
  by_cases h1 : t.val % 8 = 7
  · rw [outsAt0_C V c t h0 h1]
    dsimp only
    rw [soutC1_eq]
    rw [pay1_eq]
    match j with
    | ⟨0, _⟩ =>
      show ((k0_pay7 (F := Ideal) _ _ _ _ : Vec Ideal S2x1024 .f32) (ix2 (0 : Fin 2) d) : EReal) = _
      rw [pay7_row0, blk_colsum1_0 V c t ht d]
      rfl
    | ⟨1, _⟩ =>
      show ((k0_pay7 (F := Ideal) _ _ _ _ : Vec Ideal S2x1024 .f32) (ix2 (1 : Fin 2) d) : EReal) = _
      rw [pay7_row1, blk_colsum1_1 V c t ht d]
      rfl
  · rw [outsAt0_B V c t h0 h1]
    dsimp only
    rw [soutB1_eq]
    rw [pay1_eq]
    match j with
    | ⟨0, _⟩ =>
      show ((k0_pay7 (F := Ideal) _ _ _ _ : Vec Ideal S2x1024 .f32) (ix2 (0 : Fin 2) d) : EReal) = _
      rw [pay7_row0, blk_colsum1_0 V c t ht d]
      rfl
    | ⟨1, _⟩ =>
      show ((k0_pay7 (F := Ideal) _ _ _ _ : Vec Ideal S2x1024 .f32) (ix2 (1 : Fin 2) d) : EReal) = _
      rw [pay7_row1, blk_colsum1_1 V c t ht d]
      rfl

/-- Along a sweep: after the point at position n mod 8 the accumulator holds the first n mod 8 + 1 row blocks' sums. -/
theorem acc1_sweep (c : Dev nD) : ∀ (n : ℕ) (hn : n < cfg0.N) (hn' : n < 32) (j : Fin 2) (d : Fin 1024),
    (((outsAt0 V c n hn).2.2.2 : Vec Ideal S2x1024 .f32) (ix2 j d) : EReal)
      = ∑ k ∈ Finset.range (n % 8 + 1), bsumN (V c main_arg2) (V c main_v8) k j (colOf n hn' d)
  | 0, hn, hn', j, d => by
    rw [acc1_first V c ⟨0, hn⟩ hn' rfl j d]
    simp
  | n + 1, hn, hn', j, d => by
    by_cases h0 : (n + 1) % 8 = 0
    · rw [acc1_first V c ⟨n + 1, hn⟩ hn' h0 j d]
      show bsumN _ _ ((n + 1) % 8) j _ = _
      rw [h0]; simp
    · have hcol : colOf n (by omega) d = colOf (n + 1) hn' d := Fin.ext (by show n / 8 * 1024 + d.val = (n + 1) / 8 * 1024 + d.val; omega)
      have e1 : (n + 1) % 8 = n % 8 + 1 := by omega
      rw [acc1_next V c ⟨n + 1, hn⟩ hn' h0 j d]
      show (((outsAt0 V c n _).2.2.2 : Vec Ideal S2x1024 .f32) (ix2 j d) : EReal) + bsumN _ _ ((n + 1) % 8) j _ = _
      rw [acc1_sweep c n (Nat.lt_of_succ_lt hn) (by omega) j d, hcol, e1, Finset.sum_range_succ (n := n % 8 + 1)]

/-- The array output 4 ends as: entry (j, D) is the sum over all eight row blocks of column D's masked sums. -/
def G4 (c : Dev nD) : S2x4096.Idx → EReal := fun i =>
  ∑ k ∈ Finset.range 8, bsumN (V c main_arg2) (V c main_v8) k ⟨(i 0).val, idx2_lt0 i⟩ ⟨(i 1).val, idx2_lt1 i⟩

end Cert.KernelIdeal.Hand

end
-- ==== Proof.KI.R0Value5.lean ====
/-
  The first kernel region's values, part five: from blocks to the arrays. The launch loop writes an output's block back only
  at the last row block of a column block, when the body has just stored the accumulator into it; that block is then the
  block, at this column block, of one whole-array function (entry (j, D) = the sum over all eight row blocks of column D's
  class-j masked sums). The four write-backs' blocks cover the 2 x 4096 array, so after the region the array is that function.
-/
import proofs.«179402_j71244917506189_2_alg».proof.Proof.KI.R0Value4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-- The accumulator's entry at an index of the block, by the sweep. -/
theorem acc0_at (c : Dev nD) (t : Fin cfg0.N) (ht : t.val < 32) (y : S2x1024.Idx) :
    (((outsAt0 V c t.val t.isLt).2.2.1 : Vec Ideal S2x1024 .f32) y : EReal)
      = ∑ k ∈ Finset.range (t.val % 8 + 1), bsumN (V c main_arg1) (V c main_v8) k ⟨(y 0).val, idx2_lt0 y⟩ (colOf t.val ht ⟨(y 1).val, idx2_lt1 y⟩) := by
  have e := acc0_sweep V c t.val t.isLt ht ⟨(y 0).val, idx2_lt0 y⟩ ⟨(y 1).val, idx2_lt1 y⟩
  rw [← e]
  exact congrArg _ (funext fun a => by match a with | ⟨0, _⟩ => rfl | ⟨1, _⟩ => rfl)

set_option maxHeartbeats 800000 in
/-- What the last point of a sweep writes back is its block of that function. -/
theorem flushed3_eq (c : Dev nD) (t : Fin cfg0.N) (hf : (cfg0.win 3).flush t = true) :
    (dat0 V c).flushed 3 t = ((cfg0.win 3).blk t).view.read (Elt Ideal) (G3 V c) := by
  have ht : t.val < 32 := lt_of_lt_of_eq t.isLt (show cfg0.N = 32 from N_0)
  have h7 : t.val % 8 = 7 := (flush0_3 t).mp hf
  have h0 : ¬t.val % 8 = 0 := by omega
  obtain ⟨-, -, -, -, -, -, e30, e31, e40, e41⟩ := idx_facts0 t
  show (cfg0.win 3).cut (grid0.coords t) ((dat0 V c).after 3 t) = _
  rw [after0_3]
  have hsame : (outsAt0 V c t.val t.isLt).1 = (outsAt0 V c t.val t.isLt).2.2.1 := by
    rw [outsAt0_C V c t h0 h7]; dsimp only; rw [outC3_eq, soutC0_eq]
  rw [hsame]
  refine funext fun (y : S2x1024.Idx) => ?_
  show (((outsAt0 V c t.val t.isLt).2.2.1 : Vec Ideal S2x1024 .f32) y : EReal) = G3 V c (((cfg0.win 3).blk t).view.emb y)
  rw [acc0_at V c t ht y, h7]
  unfold G3
  refine Finset.sum_congr rfl fun k _ => ?_
  have hj : (⟨(y 0).val, idx2_lt0 y⟩ : Fin 2) = ⟨((((cfg0.win 3).blk t).view.emb y) 0).val, idx2_lt0 _⟩ :=
    Fin.ext (by show (y 0).val = win0_3.index t (0 : Fin 2) * 2 + 1 * (y 0).val; rw [e30]; omega)
  have hD : colOf t.val ht ⟨(y 1).val, idx2_lt1 y⟩ = ⟨((((cfg0.win 3).blk t).view.emb y) 1).val, idx2_lt1 _⟩ :=
    Fin.ext (by show t.val / 8 * 1024 + (y 1).val = win0_3.index t (1 : Fin 2) * 1024 + 1 * (y 1).val; rw [e31]; omega)
  rw [hj, hD]
/-- An entry is in point t's block of output 3 iff each coordinate is in the block's range. -/
theorem mem_blk3 (t : Fin cfg0.N) (i : S2x4096.Idx) :
    i ∈ ((cfg0.win 3).blk t).view.set ↔ ∀ a : Fin 2, win0_3.index t a * S2x1024.size a ≤ (i a).val ∧ (i a).val < win0_3.index t a * S2x1024.size a + S2x1024.size a := by
  show i ∈ ((View.whole main_v19_0).slice (win0_3.rect t)).set ↔ _
  rw [View.set_slice_whole, Rect.mem_set_unit]
  exact Iff.rfl

/-- After the region the whole array is that function: every entry lies in the block of its column block's last point. -/
theorem final3 (c : Dev nD) : (dat0 V c).arrAt 3 cfg0.N = G3 V c :=
  (dat0 V c).arrAt_eq_of_cover 3 (G3 V c) (flushed3_eq V c) fun i => by
    have hi0 : (i 0).val < 2 := idx2_lt0 i
    have hi1 : (i 1).val < 4096 := idx2_lt1 i
    have hN : cfg0.N = 32 := N_0
    refine ⟨⟨(i 1).val / 1024 * 8 + 7, by rw [hN]; omega⟩, (flush0_3 _).mpr (by show ((i 1).val / 1024 * 8 + 7) % 8 = 7; omega), ?_⟩
    rw [mem_blk3]
    obtain ⟨-, -, -, -, -, -, e30, e31, e40, e41⟩ := idx_facts0 ⟨(i 1).val / 1024 * 8 + 7, by rw [hN]; omega⟩
    intro a
    match a with
    | ⟨0, _⟩ => show win0_3.index _ (0 : Fin 2) * 2 ≤ (i 0).val ∧ (i 0).val < win0_3.index _ (0 : Fin 2) * 2 + 2; rw [e30]; omega
    | ⟨1, _⟩ => show win0_3.index _ (1 : Fin 2) * 1024 ≤ (i 1).val ∧ (i 1).val < win0_3.index _ (1 : Fin 2) * 1024 + 1024; rw [e31]; show ((i 1).val / 1024 * 8 + 7) / 8 * 1024 ≤ _ ∧ _ < ((i 1).val / 1024 * 8 + 7) / 8 * 1024 + 1024; omega

/-- The accumulator's entry at an index of the block, by the sweep. -/
theorem acc1_at (c : Dev nD) (t : Fin cfg0.N) (ht : t.val < 32) (y : S2x1024.Idx) :
    (((outsAt0 V c t.val t.isLt).2.2.2 : Vec Ideal S2x1024 .f32) y : EReal)
      = ∑ k ∈ Finset.range (t.val % 8 + 1), bsumN (V c main_arg2) (V c main_v8) k ⟨(y 0).val, idx2_lt0 y⟩ (colOf t.val ht ⟨(y 1).val, idx2_lt1 y⟩) := by
  have e := acc1_sweep V c t.val t.isLt ht ⟨(y 0).val, idx2_lt0 y⟩ ⟨(y 1).val, idx2_lt1 y⟩
  rw [← e]
  exact congrArg _ (funext fun a => by match a with | ⟨0, _⟩ => rfl | ⟨1, _⟩ => rfl)

set_option maxHeartbeats 800000 in
/-- What the last point of a sweep writes back is its block of that function. -/
theorem flushed4_eq (c : Dev nD) (t : Fin cfg0.N) (hf : (cfg0.win 4).flush t = true) :
    (dat0 V c).flushed 4 t = ((cfg0.win 4).blk t).view.read (Elt Ideal) (G4 V c) := by
  have ht : t.val < 32 := lt_of_lt_of_eq t.isLt (show cfg0.N = 32 from N_0)
  have h7 : t.val % 8 = 7 := (flush0_4 t).mp hf
  have h0 : ¬t.val % 8 = 0 := by omega
  obtain ⟨-, -, -, -, -, -, e30, e31, e40, e41⟩ := idx_facts0 t
  show (cfg0.win 4).cut (grid0.coords t) ((dat0 V c).after 4 t) = _
  rw [after0_4]
  have hsame : (outsAt0 V c t.val t.isLt).2.1 = (outsAt0 V c t.val t.isLt).2.2.2 := by
    rw [outsAt0_C V c t h0 h7]; dsimp only; rw [outC4_eq, soutC1_eq]
  rw [hsame]
  refine funext fun (y : S2x1024.Idx) => ?_
  show (((outsAt0 V c t.val t.isLt).2.2.2 : Vec Ideal S2x1024 .f32) y : EReal) = G4 V c (((cfg0.win 4).blk t).view.emb y)
  rw [acc1_at V c t ht y, h7]
  unfold G4
  refine Finset.sum_congr rfl fun k _ => ?_
  have hj : (⟨(y 0).val, idx2_lt0 y⟩ : Fin 2) = ⟨((((cfg0.win 4).blk t).view.emb y) 0).val, idx2_lt0 _⟩ :=
    Fin.ext (by show (y 0).val = win0_4.index t (0 : Fin 2) * 2 + 1 * (y 0).val; rw [e40]; omega)
  have hD : colOf t.val ht ⟨(y 1).val, idx2_lt1 y⟩ = ⟨((((cfg0.win 4).blk t).view.emb y) 1).val, idx2_lt1 _⟩ :=
    Fin.ext (by show t.val / 8 * 1024 + (y 1).val = win0_4.index t (1 : Fin 2) * 1024 + 1 * (y 1).val; rw [e41]; omega)
  rw [hj, hD]
/-- An entry is in point t's block of output 4 iff each coordinate is in the block's range. -/
theorem mem_blk4 (t : Fin cfg0.N) (i : S2x4096.Idx) :
    i ∈ ((cfg0.win 4).blk t).view.set ↔ ∀ a : Fin 2, win0_4.index t a * S2x1024.size a ≤ (i a).val ∧ (i a).val < win0_4.index t a * S2x1024.size a + S2x1024.size a := by
  show i ∈ ((View.whole main_v19_1).slice (win0_4.rect t)).set ↔ _
  rw [View.set_slice_whole, Rect.mem_set_unit]
  exact Iff.rfl

/-- After the region the whole array is that function: every entry lies in the block of its column block's last point. -/
theorem final4 (c : Dev nD) : (dat0 V c).arrAt 4 cfg0.N = G4 V c :=
  (dat0 V c).arrAt_eq_of_cover 4 (G4 V c) (flushed4_eq V c) fun i => by
    have hi0 : (i 0).val < 2 := idx2_lt0 i
    have hi1 : (i 1).val < 4096 := idx2_lt1 i
    have hN : cfg0.N = 32 := N_0
    refine ⟨⟨(i 1).val / 1024 * 8 + 7, by rw [hN]; omega⟩, (flush0_4 _).mpr (by show ((i 1).val / 1024 * 8 + 7) % 8 = 7; omega), ?_⟩
    rw [mem_blk4]
    obtain ⟨-, -, -, -, -, -, e30, e31, e40, e41⟩ := idx_facts0 ⟨(i 1).val / 1024 * 8 + 7, by rw [hN]; omega⟩
    intro a
    match a with
    | ⟨0, _⟩ => show win0_4.index _ (0 : Fin 2) * 2 ≤ (i 0).val ∧ (i 0).val < win0_4.index _ (0 : Fin 2) * 2 + 2; rw [e40]; omega
    | ⟨1, _⟩ => show win0_4.index _ (1 : Fin 2) * 1024 ≤ (i 1).val ∧ (i 1).val < win0_4.index _ (1 : Fin 2) * 1024 + 1024; rw [e41]; show ((i 1).val / 1024 * 8 + 7) / 8 * 1024 ≤ _ ∧ _ < ((i 1).val / 1024 * 8 + 7) / 8 * 1024 + 1024; omega

end Cert.KernelIdeal.Hand

end
-- ==== Proof.KI.R1Value1.lean ====
/-
  The second kernel region's values, part one. The body's stores into its 1 x 1 x 2 output block are of single entries: entry
  1 receives what it held plus the block's class-1 sum, entry 0 what it held plus the class-0 sum; at the first block of a
  half the whole block is zeroed first, so there "what it held" is read back from the zero store. A list of such stores is
  read at an entry by finding the last store that covers it.
-/
import proofs.«179402_j71244917506189_2_alg».proof.Proof.KI.R1Defs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem hz2b : (![0, 0] : Fin 2 → Nat) = fun _ => 0 := funext fun a => by fin_cases a <;> rfl
theorem hz3 : (![0, 0, 0] : Fin 3 → Nat) = fun _ => 0 := funext fun a => by fin_cases a <;> rfl

/-- The loads the body makes: the two indicator columns of the mask block, the two rows of each statistics array, the
    two entries of the output block. -/
abbrev rcol0 (x1 : Vec F S256x2 .f32) : Vec F S256x1 .f32 := View.ld x1 (Rect.unit (s := S256x2) ![0, 0] S256x1.size Facts₀.inb_S256x2_S256x1_0_0)
abbrev rcol1 (x1 : Vec F S256x2 .f32) : Vec F S256x1 .f32 := View.ld x1 (Rect.unit (s := S256x2) ![0, 1] S256x1.size Facts₀.inb_S256x2_S256x1_0_1)
abbrev srow0 (x : Vec F S2x4096 .f32) : Vec F S1x4096 .f32 := View.ld x (Rect.unit (s := S2x4096) ![0, 0] S1x4096.size Facts₀.inb_S2x4096_S1x4096_0_0)
abbrev srow1 (x : Vec F S2x4096 .f32) : Vec F S1x4096 .f32 := View.ld x (Rect.unit (s := S2x4096) ![1, 0] S1x4096.size Facts₀.inb_S2x4096_S1x4096_1_0)
abbrev r000 : Rect S1x1x2 := Rect.unit (s := S1x1x2) ![0, 0, 0] S1x1x1.size Facts₀.inb_S1x1x2_S1x1x1_0_0_0
abbrev r001 : Rect S1x1x2 := Rect.unit (s := S1x1x2) ![0, 0, 1] S1x1x1.size Facts₀.inb_S1x1x2_S1x1x1_0_0_1
abbrev rwhole : Rect S1x1x2 := Rect.unit (s := S1x1x2) ![0, 0, 0] S1x1x2.size Facts₀.inb_S1x1x2_S1x1x2_0_0_0
abbrev oent0 (xo : Vec F S1x1x2 .f32) : Vec F S1x1x1 .f32 := View.ld xo r000
abbrev oent1 (xo : Vec F S1x1x2 .f32) : Vec F S1x1x1 .f32 := View.ld xo r001
/-- The block's class-0 total and class-1 per-row products, as the body forms them from its loads. -/
abbrev q7 (x0 : Vec F S256x4096 .f32) (x1 : Vec F S256x2 .f32) (x2 : Vec F S2x4096 .f32) (x3 : Vec F S2x4096 .f32) : FVec F S1x1 .f32 :=
  k1_pay7 (rcol0 x1) (rcol1 x1) (srow0 x2) (srow1 x2) (srow0 x3) (srow1 x3) x0
abbrev q8 (x0 : Vec F S256x4096 .f32) (x1 : Vec F S256x2 .f32) (x2 : Vec F S2x4096 .f32) (x3 : Vec F S2x4096 .f32) : FVec F S256x1 .f32 :=
  k1_pay8 (rcol0 x1) (rcol1 x1) (srow0 x2) (srow1 x2) (srow0 x3) (srow1 x3) x0

/-! ## A list of single-entry stores read at an entry -/

theorem e000 : (ix3 (0 : Fin 1) (0 : Fin 1) (0 : Fin 2) : S1x1x2.Idx) = r000.emb (ix3 (0 : Fin 1) (0 : Fin 1) (0 : Fin 1)) := by
  funext a; apply Fin.ext
  match a with
  | ⟨0, _⟩ => rfl
  | ⟨1, _⟩ => rfl
  | ⟨2, _⟩ => rfl
theorem e001 : (ix3 (0 : Fin 1) (0 : Fin 1) (1 : Fin 2) : S1x1x2.Idx) = r001.emb (ix3 (0 : Fin 1) (0 : Fin 1) (0 : Fin 1)) := by
  funext a; apply Fin.ext
  match a with
  | ⟨0, _⟩ => rfl
  | ⟨1, _⟩ => rfl
  | ⟨2, _⟩ => rfl
theorem n001 : (ix3 (0 : Fin 1) (0 : Fin 1) (0 : Fin 2) : S1x1x2.Idx) ∉ r001.set := by
  rw [Rect.mem_set_unit]; intro h; have := (h 2).1; revert this; decide
theorem n000 : (ix3 (0 : Fin 1) (0 : Fin 1) (1 : Fin 2) : S1x1x2.Idx) ∉ r000.set := by
  rw [Rect.mem_set_unit]; intro h; have := (h 2).2; revert this; decide

/-- Entry 0 of [store to entry 1, store to entry 0, earlier stores]: the store to entry 0. -/
theorem canon_at0 (w1 w0 : S1x1x1.Idx → Elt F .f32) (L : List (View.Piece (Elt F) S1x1x2 .f32)) :
    View.canon ((⟨r001, w1⟩ : View.Piece (Elt F) S1x1x2 .f32) :: ⟨r000, w0⟩ :: L) (ix3 (0 : Fin 1) (0 : Fin 1) (0 : Fin 2)) = w0 (ix3 (0 : Fin 1) (0 : Fin 1) (0 : Fin 1)) := by
  rw [View.canon_cons_of_not_mem _ _ n001, e000, View.canon_cons_emb]
/-- Entry 1 of the same list: the store to entry 1. -/
theorem canon_at1 (w1 : S1x1x1.Idx → Elt F .f32) (L : List (View.Piece (Elt F) S1x1x2 .f32)) :
    View.canon ((⟨r001, w1⟩ : View.Piece (Elt F) S1x1x2 .f32) :: L) (ix3 (0 : Fin 1) (0 : Fin 1) (1 : Fin 2)) = w1 (ix3 (0 : Fin 1) (0 : Fin 1) (0 : Fin 1)) := by
  rw [e001, View.canon_cons_emb]

/-! ## What each case leaves, as a list of stores -/

/-- At a later block of a half: two stores, over the buffer's running contents. -/
theorem outB_eq (c : Dev nD) (i : grid1.Coords) (arg2 : Memref sig .tc .vmem S256x4096 .f32) (harg2 : arg2.IsWhole) (arg3 : Memref sig .tc .vmem S256x2 .f32) (harg3 : arg3.IsWhole) (arg4 : Memref sig .tc .vmem S2x4096 .f32) (harg4 : arg4.IsWhole) (arg5 : Memref sig .tc .vmem S2x4096 .f32) (harg5 : arg5.IsWhole) (arg6 : Memref sig .tc .vmem S1x1x2 .f32) (harg6 : arg6.IsWhole) (hc0 : ¬cond1_0 i)
    (x0 : Vec F S256x4096 .f32) (x1 : Vec F S256x2 .f32) (x2 : Vec F S2x4096 .f32) (x3 : Vec F S2x4096 .f32) (xo4 : Vec F S1x1x2 .f32) :
    out1_B_4 c i arg2 harg2 arg3 harg3 arg4 harg4 arg5 harg5 arg6 harg6 hc0 x0 x1 x2 x3 xo4
      = View.canon [(⟨r001, k1_pay2 (q8 x0 x1 x2 x3) (oent1 xo4)⟩ : View.Piece (Elt F) S1x1x2 .f32), ⟨r000, k1_pay1 (q7 x0 x1 x2 x3) (oent0 xo4)⟩] := by
  unfold out1_B_4
  rw [View.read_writes_eq_canon _ _ _ (cover1_B_4 c i arg2 harg2 arg3 harg3 arg4 harg4 arg5 harg5 arg6 harg6 hc0 x0 x1 x2 x3 xo4)]
  unfold kernelRun1_B
  dsimp only
  try sl_unfold_words
  simp only [View.readAt_eq_ld, harg2.read_unread, harg3.read_unread, harg4.read_unread, harg5.read_unread, harg6.read_unread, View.ld_unit_zero (S := S256x4096) hz2b]
  try rfl

/-- At the first block of a half: the zero store, then the two stores over what it wrote. -/
theorem outA_eq (c : Dev nD) (i : grid1.Coords) (arg2 : Memref sig .tc .vmem S256x4096 .f32) (harg2 : arg2.IsWhole) (arg3 : Memref sig .tc .vmem S256x2 .f32) (harg3 : arg3.IsWhole) (arg4 : Memref sig .tc .vmem S2x4096 .f32) (harg4 : arg4.IsWhole) (arg5 : Memref sig .tc .vmem S2x4096 .f32) (harg5 : arg5.IsWhole) (arg6 : Memref sig .tc .vmem S1x1x2 .f32) (harg6 : arg6.IsWhole) (hc0 : cond1_0 i)
    (x0 : Vec F S256x4096 .f32) (x1 : Vec F S256x2 .f32) (x2 : Vec F S2x4096 .f32) (x3 : Vec F S2x4096 .f32) :
    out1_A_4 c i arg2 harg2 arg3 harg3 arg4 harg4 arg5 harg5 arg6 harg6 hc0 x0 x1 x2 x3
      = View.canon [(⟨r001, k1_pay2 (q8 x0 x1 x2 x3) (arg6.view.readCov [(⟨r000, k1_pay1 (q7 x0 x1 x2 x3) (arg6.view.readCov [(⟨rwhole, k1_pay3⟩ : View.Piece (Elt F) S1x1x2 .f32)] r000.toLoadRect)⟩ : View.Piece (Elt F) S1x1x2 .f32), ⟨rwhole, k1_pay3⟩] r001.toLoadRect)⟩ : View.Piece (Elt F) S1x1x2 .f32),
          ⟨r000, k1_pay1 (q7 x0 x1 x2 x3) (arg6.view.readCov [(⟨rwhole, k1_pay3⟩ : View.Piece (Elt F) S1x1x2 .f32)] r000.toLoadRect)⟩,
          ⟨rwhole, k1_pay3⟩] := by
  unfold out1_A_4
  rw [View.read_writes_eq_canon _ _ _ (cover1_A_4 c i arg2 harg2 arg3 harg3 arg4 harg4 arg5 harg5 arg6 harg6 hc0 x0 x1 x2 x3)]
  unfold kernelRun1_A
  dsimp only
  try sl_unfold_words
  simp only [View.readAt_eq_ld, harg2.read_unread, harg3.read_unread, harg4.read_unread, harg5.read_unread, harg6.read_unread, View.ld_unit_zero (S := S256x4096) hz2b]
  try rfl

end Cert.KernelIdeal.Hand

end
-- ==== Proof.KI.R1Value2.lean ====
/-
  The second kernel region's values, part two: a block's entries are the arrays' entries at the block's offsets. The point
  numbered t works on rows 256 t .. 256 t + 255 of z and of the indicators; the two statistics arrays are staged whole; the
  output block of point t is block t div 16. And each sub-rectangle load of the body at an entry.
-/
import proofs.«179402_j71244917506189_2_alg».proof.Proof.KI.R1Value1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-- Where each operand's block sits at point t, decided over the grid. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val / 16 ∧ win1_4.index t (1 : Fin 3) = 0 ∧ win1_4.index t (2 : Fin 3) = 0 :=
  (by decide +kernel : ∀ t : Fin grid1.N, _)

/-- Entry (r, d) of the z block at point t. -/
theorem iblk1_0_apply (c : Dev nD) (t : Fin cfg1.N) (r : Fin 256) (d : Fin 4096) (R : Fin 8192) (hR : R.val = t.val * 256 + r.val) :
    ((iblk1 V c 0 t : Vec Ideal S256x4096 .f32) (ix2 r d) : EReal) = (V c main_arg0 : S8192x4096.Idx → EReal) (ix2 R d) := by
  obtain ⟨e00, e01, -⟩ := idx_facts1 t
  unfold iblk1
  rw [View.read_apply]
  show (V c main_arg0 : S8192x4096.Idx → EReal) _ = _
  congr 1
  funext a
  apply Fin.ext
  match a with
  | ⟨0, _⟩ => show win1_0.index t (0 : Fin 2) * 256 + 1 * r.val = R.val; rw [e00, hR]; omega
  | ⟨1, _⟩ => show win1_0.index t (1 : Fin 2) * 4096 + 1 * d.val = d.val; rw [e01]; omega
/-- Entry (r, j) of the indicator block at point t. -/
theorem iblk1_1_apply (c : Dev nD) (t : Fin cfg1.N) (r : Fin 256) (j : Fin 2) (R : Fin 8192) (hR : R.val = t.val * 256 + r.val) :
    ((iblk1 V c 1 t : Vec Ideal S256x2 .f32) (ix2 r j) : EReal) = (V c main_v8 : S8192x2.Idx → EReal) (ix2 R j) := by
  obtain ⟨-, -, e10, e11, -⟩ := idx_facts1 t
  unfold iblk1
  rw [View.read_apply]
  show (V c main_v8 : S8192x2.Idx → EReal) _ = _
  congr 1
  funext a
  apply Fin.ext
  match a with
  | ⟨0, _⟩ => show win1_1.index t (0 : Fin 2) * 256 + 1 * r.val = R.val; rw [e10, hR]; omega
  | ⟨1, _⟩ => show win1_1.index t (1 : Fin 2) * 2 + 1 * j.val = j.val; rw [e11]; omega
/-- The statistics array main_v25 is staged whole: its block is the array. -/
theorem iblk1_2_apply (c : Dev nD) (t : Fin cfg1.N) (j : Fin 2) (d : Fin 4096) :
    ((iblk1 V c 2 t : Vec Ideal S2x4096 .f32) (ix2 j d) : EReal) = (V c main_v25 : S2x4096.Idx → EReal) (ix2 j d) := by
  obtain ⟨-, -, -, -, e20, e21, e30, e31, -⟩ := idx_facts1 t
  unfold iblk1
  rw [View.read_apply]
  show (V c main_v25 : S2x4096.Idx → EReal) _ = _
  congr 1
  funext a
  apply Fin.ext
  match a with
  | ⟨0, _⟩ => show win1_2.index t (0 : Fin 2) * 2 + 1 * j.val = j.val; rw [e20]; omega
  | ⟨1, _⟩ => show win1_2.index t (1 : Fin 2) * 4096 + 1 * d.val = d.val; rw [e21]; omega
/-- The statistics array main_v30 is staged whole: its block is the array. -/
theorem iblk1_3_apply (c : Dev nD) (t : Fin cfg1.N) (j : Fin 2) (d : Fin 4096) :
    ((iblk1 V c 3 t : Vec Ideal S2x4096 .f32) (ix2 j d) : EReal) = (V c main_v30 : S2x4096.Idx → EReal) (ix2 j d) := by
  obtain ⟨-, -, -, -, e20, e21, e30, e31, -⟩ := idx_facts1 t
  unfold iblk1
  rw [View.read_apply]
  show (V c main_v30 : S2x4096.Idx → EReal) _ = _
  congr 1
  funext a
  apply Fin.ext
  match a with
  | ⟨0, _⟩ => show win1_3.index t (0 : Fin 2) * 2 + 1 * j.val = j.val; rw [e30]; omega
  | ⟨1, _⟩ => show win1_3.index t (1 : Fin 2) * 4096 + 1 * d.val = d.val; rw [e31]; omega

/-! ## The body's loads at an entry -/

theorem rcol0_apply (x1 : Vec Ideal S256x2 .f32) (r : Fin 256) : rcol0 x1 (ix2 r (0 : Fin 1)) = x1 (ix2 r (0 : Fin 2)) := by
  show x1 _ = x1 _
  congr 1; funext a; apply Fin.ext
  match a with
  | ⟨0, _⟩ => simp only [LoadRect.idx_apply, Rect.emb_apply, Rect.off_unit, Rect.stride_unit, Nat.one_mul]; simp
  | ⟨1, _⟩ => simp only [LoadRect.idx_apply, Rect.emb_apply, Rect.off_unit, Rect.stride_unit, Nat.one_mul]; simp
theorem rcol1_apply (x1 : Vec Ideal S256x2 .f32) (r : Fin 256) : rcol1 x1 (ix2 r (0 : Fin 1)) = x1 (ix2 r (1 : Fin 2)) := by
  show x1 _ = x1 _
  congr 1; funext a; apply Fin.ext
  match a with
  | ⟨0, _⟩ => simp only [LoadRect.idx_apply, Rect.emb_apply, Rect.off_unit, Rect.stride_unit, Nat.one_mul]; simp
  | ⟨1, _⟩ => simp only [LoadRect.idx_apply, Rect.emb_apply, Rect.off_unit, Rect.stride_unit, Nat.one_mul]; simp
theorem srow0_apply (x : Vec Ideal S2x4096 .f32) (d : Fin 4096) : srow0 x (ix2 (0 : Fin 1) d) = x (ix2 (0 : Fin 2) d) := by
  show x _ = x _
  congr 1; funext a; apply Fin.ext
  match a with
  | ⟨0, _⟩ => simp only [LoadRect.idx_apply, Rect.emb_apply, Rect.off_unit, Rect.stride_unit, Nat.one_mul]; simp
  | ⟨1, _⟩ => simp only [LoadRect.idx_apply, Rect.emb_apply, Rect.off_unit, Rect.stride_unit, Nat.one_mul]; simp
theorem srow1_apply (x : Vec Ideal S2x4096 .f32) (d : Fin 4096) : srow1 x (ix2 (0 : Fin 1) d) = x (ix2 (1 : Fin 2) d) := by
  show x _ = x _
  congr 1; funext a; apply Fin.ext
  match a with
  | ⟨0, _⟩ => simp only [LoadRect.idx_apply, Rect.emb_apply, Rect.off_unit, Rect.stride_unit, Nat.one_mul]; simp
  | ⟨1, _⟩ => simp only [LoadRect.idx_apply, Rect.emb_apply, Rect.off_unit, Rect.stride_unit, Nat.one_mul]; simp
theorem oent0_apply (xo : Vec Ideal S1x1x2 .f32)  : oent0 xo (ix3 (0 : Fin 1) (0 : Fin 1) (0 : Fin 1)) = xo (ix3 (0 : Fin 1) (0 : Fin 1) (0 : Fin 2)) := by
  show xo _ = xo _
  congr 1; funext a; apply Fin.ext
  match a with
  | ⟨0, _⟩ => simp only [LoadRect.idx_apply, Rect.emb_apply, Rect.off_unit, Rect.stride_unit, Nat.one_mul]; simp
  | ⟨1, _⟩ => simp only [LoadRect.idx_apply, Rect.emb_apply, Rect.off_unit, Rect.stride_unit, Nat.one_mul]; simp
  | ⟨2, _⟩ => simp only [LoadRect.idx_apply, Rect.emb_apply, Rect.off_unit, Rect.stride_unit, Nat.one_mul]; simp
theorem oent1_apply (xo : Vec Ideal S1x1x2 .f32)  : oent1 xo (ix3 (0 : Fin 1) (0 : Fin 1) (0 : Fin 1)) = xo (ix3 (0 : Fin 1) (0 : Fin 1) (1 : Fin 2)) := by
  show xo _ = xo _
  congr 1; funext a; apply Fin.ext
  match a with
  | ⟨0, _⟩ => simp only [LoadRect.idx_apply, Rect.emb_apply, Rect.off_unit, Rect.stride_unit, Nat.one_mul]; simp
  | ⟨1, _⟩ => simp only [LoadRect.idx_apply, Rect.emb_apply, Rect.off_unit, Rect.stride_unit, Nat.one_mul]; simp
  | ⟨2, _⟩ => simp only [LoadRect.idx_apply, Rect.emb_apply, Rect.off_unit, Rect.stride_unit, Nat.one_mul]; simp

end Cert.KernelIdeal.Hand

end
-- ==== Proof.KI.R1Pay.lean ====
/-
  The second kernel region's values: the body's arithmetic read at an entry, on the extended reals.

  For a block of 256 rows with indicator columns a0, a1 (each [256, 1]), the two rows m0, m1 of the means and the two
  rows e0, e1 of the inverse variances (each [1, 4096]) and the block z ([256, 4096]), the row term of row r is
      sum_d ((z[r,d] - (a0[r] * m0[d] + a1[r] * m1[d]))^2) * (a0[r] * e0[d] + a1[r] * e1[d]):
  the blended mean and inverse variance are sums of two products of a column broadcast along the row with a row
  broadcast down the column, the square and its scaling are entrywise, and the sum is a reduction along the row kept as a
  column. The first class's partial sum is the sum down the 256 rows of row term times a0; the second class's column is
  row term times a1, summed down the rows when it is added into the accumulator's entry. A cast to the same shape changes
  nothing, and a cast that only adds or drops unit axes reads the one entry.
-/
import proofs.«179402_j71244917506189_2_alg».proof.Proof.Gen.KernelIdeal.Skeleton
import proofs.«179402_j71244917506189_2_alg».proof.Proof.LibRowForms
import proofs.«179402_j71244917506189_2_alg».proof.Proof.LibKeepdims
import Idealize.ShloMosaic.Lib.ValueLayout
import Idealize.ShloMosaic.Lib.Pipeline.Value

set_option maxRecDepth 16384

noncomputable section

namespace Cert.KernelIdeal.Hand

open Cert.KernelIdeal Cert.KernelIdeal.Gen Idealize.ShloMosaic Idealize.ShloMosaic.ValueIdx

/-- Row r's sum over the features of the squared difference from the blended mean, scaled by the blended inverse variance. -/
def rowterm (v3 v5 : Vec Ideal S256x1 .f32) (v7 v9 v11 v13 : Vec Ideal S1x4096 .f32) (v29 : Vec Ideal S256x4096 .f32)
    (r : Fin 256) : EReal :=
  ∑ d : Fin 4096,
    (((v29 (ix2 r d) : EReal)
          - ((v3 (ix2 r (0 : Fin 1)) : EReal) * (v7 (ix2 (0 : Fin 1) d) : EReal)
            + (v5 (ix2 r (0 : Fin 1)) : EReal) * (v9 (ix2 (0 : Fin 1) d) : EReal)))
        * ((v29 (ix2 r d) : EReal)
          - ((v3 (ix2 r (0 : Fin 1)) : EReal) * (v7 (ix2 (0 : Fin 1) d) : EReal)
            + (v5 (ix2 r (0 : Fin 1)) : EReal) * (v9 (ix2 (0 : Fin 1) d) : EReal))))
      * ((v3 (ix2 r (0 : Fin 1)) : EReal) * (v11 (ix2 (0 : Fin 1) d) : EReal)
        + (v5 (ix2 r (0 : Fin 1)) : EReal) * (v13 (ix2 (0 : Fin 1) d) : EReal))

/-- The column of row terms at row r. -/
theorem kB_pay6_apply (v3 v5 : Vec Ideal S256x1 .f32) (v7 v9 v11 v13 : Vec Ideal S1x4096 .f32)
    (v29 : Vec Ideal S256x4096 .f32) (r : Fin 256) :
    (k1_pay6 (F := Ideal) v3 v5 v7 v9 v11 v13 v29 (ix2 r (0 : Fin 1)) : EReal) = rowterm v3 v5 v7 v9 v11 v13 v29 r := by
  unfold k1_pay6 k1_pay4 k1_pay5 rowterm
  simp only [shapeCast_self]
  refine (shapeCast_a_a1_apply _ _ r (0 : Fin 1)).trans ?_
  refine (multiReduction_add_row _ _ _ _ _ r).trans ?_
  refine Finset.sum_congr rfl fun d _ => ?_
  have h3 : broadcastTo S256x4096 v3 broadcasts_S256x1_S256x4096 (ix2 r d) = v3 (ix2 r (0 : Fin 1)) :=
    broadcastTo_a1_ab_apply _ _ r d
  have h5 : broadcastTo S256x4096 v5 broadcasts_S256x1_S256x4096 (ix2 r d) = v5 (ix2 r (0 : Fin 1)) :=
    broadcastTo_a1_ab_apply _ _ r d
  have h7 : broadcastTo S256x4096 v7 broadcasts_S1x4096_S256x4096 (ix2 r d) = v7 (ix2 (0 : Fin 1) d) :=
    broadcastTo_1b_ab_apply _ _ r d
  have h9 : broadcastTo S256x4096 v9 broadcasts_S1x4096_S256x4096 (ix2 r d) = v9 (ix2 (0 : Fin 1) d) :=
    broadcastTo_1b_ab_apply _ _ r d
  have h11 : broadcastTo S256x4096 v11 broadcasts_S1x4096_S256x4096 (ix2 r d) = v11 (ix2 (0 : Fin 1) d) :=
    broadcastTo_1b_ab_apply _ _ r d
  have h13 : broadcastTo S256x4096 v13 broadcasts_S1x4096_S256x4096 (ix2 r d) = v13 (ix2 (0 : Fin 1) d) :=
    broadcastTo_1b_ab_apply _ _ r d
  show (((v29 (ix2 r d) : EReal)
          - ((broadcastTo S256x4096 v3 broadcasts_S256x1_S256x4096 (ix2 r d) : EReal)
              * (broadcastTo S256x4096 v7 broadcasts_S1x4096_S256x4096 (ix2 r d) : EReal)
            + (broadcastTo S256x4096 v5 broadcasts_S256x1_S256x4096 (ix2 r d) : EReal)
              * (broadcastTo S256x4096 v9 broadcasts_S1x4096_S256x4096 (ix2 r d) : EReal)))
        * ((v29 (ix2 r d) : EReal)
          - ((broadcastTo S256x4096 v3 broadcasts_S256x1_S256x4096 (ix2 r d) : EReal)
              * (broadcastTo S256x4096 v7 broadcasts_S1x4096_S256x4096 (ix2 r d) : EReal)
            + (broadcastTo S256x4096 v5 broadcasts_S256x1_S256x4096 (ix2 r d) : EReal)
              * (broadcastTo S256x4096 v9 broadcasts_S1x4096_S256x4096 (ix2 r d) : EReal))))
      * ((broadcastTo S256x4096 v3 broadcasts_S256x1_S256x4096 (ix2 r d) : EReal)
            * (broadcastTo S256x4096 v11 broadcasts_S1x4096_S256x4096 (ix2 r d) : EReal)
          + (broadcastTo S256x4096 v5 broadcasts_S256x1_S256x4096 (ix2 r d) : EReal)
            * (broadcastTo S256x4096 v13 broadcasts_S1x4096_S256x4096 (ix2 r d) : EReal)) = _
  rw [h3, h5, h7, h9, h11, h13]

/-- The first class's partial sum over the block: down the rows, row term times the first indicator. -/
theorem kB_pay7_apply (v3 v5 : Vec Ideal S256x1 .f32) (v7 v9 v11 v13 : Vec Ideal S1x4096 .f32)
    (v29 : Vec Ideal S256x4096 .f32) :
    (k1_pay7 (F := Ideal) v3 v5 v7 v9 v11 v13 v29 (ix2 (0 : Fin 1) (0 : Fin 1)) : EReal)
      = ∑ r : Fin 256, rowterm v3 v5 v7 v9 v11 v13 v29 r * (v3 (ix2 r (0 : Fin 1)) : EReal) := by
  unfold k1_pay7 k1_pay4
  simp only [shapeCast_self]
  refine (shapeCast_a_a1_apply _ _ (0 : Fin 1) (0 : Fin 1)).trans ?_
  refine (multiReduction_add_col _ _ _ _ _ (0 : Fin 1)).trans ?_
  refine Finset.sum_congr rfl fun r _ => ?_
  show (k1_pay6 (F := Ideal) v3 v5 v7 v9 v11 v13 v29 (ix2 r (0 : Fin 1)) : EReal) * (v3 (ix2 r (0 : Fin 1)) : EReal) = _
  rw [kB_pay6_apply]

/-- The second class's column at row r: row term times the second indicator. -/
theorem kB_pay8_apply (v3 v5 : Vec Ideal S256x1 .f32) (v7 v9 v11 v13 : Vec Ideal S1x4096 .f32)
    (v29 : Vec Ideal S256x4096 .f32) (r : Fin 256) :
    (k1_pay8 (F := Ideal) v3 v5 v7 v9 v11 v13 v29 (ix2 r (0 : Fin 1)) : EReal)
      = rowterm v3 v5 v7 v9 v11 v13 v29 r * (v5 (ix2 r (0 : Fin 1)) : EReal) := by
  unfold k1_pay8 k1_pay5
  simp only [shapeCast_self]
  show (k1_pay6 (F := Ideal) v3 v5 v7 v9 v11 v13 v29 (ix2 r (0 : Fin 1)) : EReal) * (v5 (ix2 r (0 : Fin 1)) : EReal) = _
  rw [kB_pay6_apply]

/-- The accumulator's first entry after the block: what it held plus the first class's partial sum. -/
theorem kB_pay1_apply (v37 : FVec Ideal S1x1 .f32) (v41 : Vec Ideal S1x1x1 .f32) :
    (k1_pay1 (F := Ideal) v37 v41 (ix3 (0 : Fin 1) (0 : Fin 1) (0 : Fin 1)) : EReal)
      = (v41 (ix3 (0 : Fin 1) (0 : Fin 1) (0 : Fin 1)) : EReal) + (v37 (ix2 (0 : Fin 1) (0 : Fin 1)) : EReal) := by
  unfold k1_pay1
  simp only [shapeCast_self]
  show (v41 (ix3 (0 : Fin 1) (0 : Fin 1) (0 : Fin 1)) : EReal) + _ = _
  congr 1
  exact shapeCast_ab_1ab_apply _ _ (0 : Fin 1) (0 : Fin 1) (0 : Fin 1)

/-- The accumulator's second entry after the block: what it held plus the second class's column summed down the rows. -/
theorem kB_pay2_apply (v38 : FVec Ideal S256x1 .f32) (v46 : Vec Ideal S1x1x1 .f32) :
    (k1_pay2 (F := Ideal) v38 v46 (ix3 (0 : Fin 1) (0 : Fin 1) (0 : Fin 1)) : EReal)
      = (v46 (ix3 (0 : Fin 1) (0 : Fin 1) (0 : Fin 1)) : EReal) + ∑ r : Fin 256, (v38 (ix2 r (0 : Fin 1)) : EReal) := by
  unfold k1_pay2
  simp only [shapeCast_self]
  show (v46 (ix3 (0 : Fin 1) (0 : Fin 1) (0 : Fin 1)) : EReal) + _ = _
  congr 1
  refine (shapeCast_ab_1ab_apply _ _ (0 : Fin 1) (0 : Fin 1) (0 : Fin 1)).trans ?_
  refine (shapeCast_a_a1_apply _ _ (0 : Fin 1) (0 : Fin 1)).trans ?_
  exact multiReduction_add_col _ _ _ _ _ (0 : Fin 1)

/-- The zero the accumulator is reset to. -/
theorem kB_pay3_apply (i : S1x1x2.Idx) : (k1_pay3 (F := Ideal) i : EReal) = 0 := by
  unfold k1_pay3
  show Ideal.ofBits .f32 0x00000000#32 = 0
  exact Ideal.ofBits_zero_f32

end Cert.KernelIdeal.Hand

end
-- ==== Proof.KI.R1Value3.lean ====
/-
  The second kernel region's values, part three: the entries each case leaves, and the sweep. At a point the block's class-j
  total is the sum over its 256 rows of the row quantity times the class-j indicator; entry j of the output block receives it
  on top of what the entry held (zero, at the first block of a half). Along a half's sixteen blocks the entry is the running
  sum of the blocks' totals.
-/
import proofs.«179402_j71244917506189_2_alg».proof.Proof.KI.R1Value2
import proofs.«179402_j71244917506189_2_alg».proof.Proof.KI.R1Pay

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! ## The entries each case leaves (any blocks) -/

section Entries
variable (c : Dev nD) (i : grid1.Coords) (arg2 : Memref sig .tc .vmem S256x4096 .f32) (harg2 : arg2.IsWhole) (arg3 : Memref sig .tc .vmem S256x2 .f32) (harg3 : arg3.IsWhole) (arg4 : Memref sig .tc .vmem S2x4096 .f32) (harg4 : arg4.IsWhole) (arg5 : Memref sig .tc .vmem S2x4096 .f32) (harg5 : arg5.IsWhole) (arg6 : Memref sig .tc .vmem S1x1x2 .f32) (harg6 : arg6.IsWhole)
variable (x0 : Vec Ideal S256x4096 .f32) (x1 : Vec Ideal S256x2 .f32) (x2 : Vec Ideal S2x4096 .f32) (x3 : Vec Ideal S2x4096 .f32)

/-- A load of entry 0 after the zero store reads zero. -/
theorem readCov_zero0 : ((arg6.view.readCov [(⟨rwhole, k1_pay3 (F := Ideal)⟩ : View.Piece (Elt Ideal) S1x1x2 .f32)] r000.toLoadRect) (ix3 (0 : Fin 1) (0 : Fin 1) (0 : Fin 1)) : EReal) = 0 := by
  rw [View.readCov_eq_canon_ld _ _ _ (fun y => ⟨_, List.mem_singleton_self _, View.mem_set_unit_zero hz3 Facts₀.inb_S1x1x2_S1x1x2_0_0_0 y⟩)]
  show (View.canon [(⟨rwhole, k1_pay3 (F := Ideal)⟩ : View.Piece (Elt Ideal) S1x1x2 .f32)] _ : EReal) = 0
  rw [View.canon_unit_zero hz3]
  exact kB_pay3_apply _

/-- A load of entry 1 after the zero store and a store to entry 0 reads zero. -/
theorem readCov_zero1 (w0 : S1x1x1.Idx → Elt Ideal .f32) :
    ((arg6.view.readCov [(⟨r000, w0⟩ : View.Piece (Elt Ideal) S1x1x2 .f32), ⟨rwhole, k1_pay3 (F := Ideal)⟩] r001.toLoadRect) (ix3 (0 : Fin 1) (0 : Fin 1) (0 : Fin 1)) : EReal) = 0 := by
  rw [View.readCov_eq_canon_ld _ _ _ (fun y => ⟨_, List.mem_cons_of_mem _ (List.mem_singleton_self _), View.mem_set_unit_zero hz3 Facts₀.inb_S1x1x2_S1x1x2_0_0_0 y⟩)]
  refine (oent1_apply (View.canon [(⟨r000, w0⟩ : View.Piece (Elt Ideal) S1x1x2 .f32), ⟨rwhole, k1_pay3 (F := Ideal)⟩])).trans ?_
  refine (View.canon_cons_of_not_mem (⟨r000, w0⟩ : View.Piece (Elt Ideal) S1x1x2 .f32) [⟨rwhole, k1_pay3 (F := Ideal)⟩] n000).trans ?_
  rw [View.canon_unit_zero hz3]
  exact kB_pay3_apply _

theorem outA_at0 (hc0 : cond1_0 i) :
    (out1_A_4 c i arg2 harg2 arg3 harg3 arg4 harg4 arg5 harg5 arg6 harg6 hc0 x0 x1 x2 x3 (ix3 (0 : Fin 1) (0 : Fin 1) (0 : Fin 2)) : EReal) = (q7 x0 x1 x2 x3 (ix2 (0 : Fin 1) (0 : Fin 1)) : EReal) := by
  rw [outA_eq]
  refine (canon_at0 (F := Ideal) _ _ _).trans ?_
  rw [kB_pay1_apply, readCov_zero0, zero_add]
theorem outA_at1 (hc0 : cond1_0 i) :
    (out1_A_4 c i arg2 harg2 arg3 harg3 arg4 harg4 arg5 harg5 arg6 harg6 hc0 x0 x1 x2 x3 (ix3 (0 : Fin 1) (0 : Fin 1) (1 : Fin 2)) : EReal) = ∑ r : Fin 256, (q8 x0 x1 x2 x3 (ix2 r (0 : Fin 1)) : EReal) := by
  rw [outA_eq]
  refine (canon_at1 (F := Ideal) _ _).trans ?_
  rw [kB_pay2_apply, readCov_zero1, zero_add]
theorem outB_at0 (hc0 : ¬cond1_0 i) (xo4 : Vec Ideal S1x1x2 .f32) :
    (out1_B_4 c i arg2 harg2 arg3 harg3 arg4 harg4 arg5 harg5 arg6 harg6 hc0 x0 x1 x2 x3 xo4 (ix3 (0 : Fin 1) (0 : Fin 1) (0 : Fin 2)) : EReal) = (xo4 (ix3 (0 : Fin 1) (0 : Fin 1) (0 : Fin 2)) : EReal) + (q7 x0 x1 x2 x3 (ix2 (0 : Fin 1) (0 : Fin 1)) : EReal) := by
  rw [outB_eq]
  refine (canon_at0 (F := Ideal) _ _ _).trans ?_
  rw [kB_pay1_apply, oent0_apply xo4]
theorem outB_at1 (hc0 : ¬cond1_0 i) (xo4 : Vec Ideal S1x1x2 .f32) :
    (out1_B_4 c i arg2 harg2 arg3 harg3 arg4 harg4 arg5 harg5 arg6 harg6 hc0 x0 x1 x2 x3 xo4 (ix3 (0 : Fin 1) (0 : Fin 1) (1 : Fin 2)) : EReal) = (xo4 (ix3 (0 : Fin 1) (0 : Fin 1) (1 : Fin 2)) : EReal) + ∑ r : Fin 256, (q8 x0 x1 x2 x3 (ix2 r (0 : Fin 1)) : EReal) := by
  rw [outB_eq]
  refine (canon_at1 (F := Ideal) _ _).trans ?_
  rw [kB_pay2_apply, oent1_apply xo4]
end Entries

/-! ## A block's totals, in the arrays' entries -/

variable (V : (c : Dev nD) → (b : Ref sig .tc) → Buf (Elt Ideal) ((c : Thread nD τ).loc b))

/-- A row's quantity at point t's loads is the row's quantity in the arrays. -/
theorem rowterm_blk (c : Dev nD) (t : Fin cfg1.N) (r : Fin 256) (hlt : t.val * 256 + r.val < 8192) :
    rowterm (rcol0 (iblk1 V c 1 t)) (rcol1 (iblk1 V c 1 t)) (srow0 (iblk1 V c 2 t)) (srow1 (iblk1 V c 2 t)) (srow0 (iblk1 V c 3 t)) (srow1 (iblk1 V c 3 t)) (iblk1 V c 0 t) r
      = rowqA (V c main_arg0) (V c main_v8) (V c main_v25) (V c main_v30) ⟨t.val * 256 + r.val, hlt⟩ := by
  unfold rowterm rowqA
  refine Finset.sum_congr rfl fun d _ => ?_
  rw [rcol0_apply (iblk1 V c 1 t) r, rcol1_apply (iblk1 V c 1 t) r, srow0_apply (iblk1 V c 2 t) d, srow1_apply (iblk1 V c 2 t) d,
    srow0_apply (iblk1 V c 3 t) d, srow1_apply (iblk1 V c 3 t) d,
    iblk1_0_apply V c t r d ⟨t.val * 256 + r.val, hlt⟩ rfl, iblk1_1_apply V c t r (0 : Fin 2) ⟨t.val * 256 + r.val, hlt⟩ rfl,
    iblk1_1_apply V c t r (1 : Fin 2) ⟨t.val * 256 + r.val, hlt⟩ rfl,
    iblk1_2_apply V c t (0 : Fin 2) d, iblk1_2_apply V c t (1 : Fin 2) d, iblk1_3_apply V c t (0 : Fin 2) d, iblk1_3_apply V c t (1 : Fin 2) d]

theorem q7_blk (c : Dev nD) (t : Fin cfg1.N) (ht : t.val < 32) :
    (q7 (iblk1 V c 0 t) (iblk1 V c 1 t) (iblk1 V c 2 t) (iblk1 V c 3 t) (ix2 (0 : Fin 1) (0 : Fin 1)) : EReal) = qsumN V c t.val (0 : Fin 2) := by
  show (k1_pay7 (F := Ideal) _ _ _ _ _ _ _ (ix2 (0 : Fin 1) (0 : Fin 1)) : EReal) = _
  rw [kB_pay7_apply]
  unfold qsumN qsumA
  refine Finset.sum_congr rfl fun r _ => ?_
  have hlt : t.val * 256 + r.val < 8192 := by have := r.isLt; omega
  rw [dif_pos hlt, rowterm_blk V c t r hlt, rcol0_apply (iblk1 V c 1 t) r, iblk1_1_apply V c t r (0 : Fin 2) ⟨t.val * 256 + r.val, hlt⟩ rfl]

theorem q8_blk (c : Dev nD) (t : Fin cfg1.N) (ht : t.val < 32) :
    ∑ r : Fin 256, (q8 (iblk1 V c 0 t) (iblk1 V c 1 t) (iblk1 V c 2 t) (iblk1 V c 3 t) (ix2 r (0 : Fin 1)) : EReal) = qsumN V c t.val (1 : Fin 2) := by
  unfold qsumN qsumA
  refine Finset.sum_congr rfl fun r _ => ?_
  have hlt : t.val * 256 + r.val < 8192 := by have := r.isLt; omega
  show (k1_pay8 (F := Ideal) _ _ _ _ _ _ _ (ix2 r (0 : Fin 1)) : EReal) = _
  rw [kB_pay8_apply, dif_pos hlt, rowterm_blk V c t r hlt, rcol1_apply (iblk1 V c 1 t) r, iblk1_1_apply V c t r (1 : Fin 2) ⟨t.val * 256 + r.val, hlt⟩ rfl]

/-! ## The sweep -/

/-- At the first block of a half an entry is the block's own total. -/
theorem o1_first (c : Dev nD) (t : Fin cfg1.N) (ht : t.val < 32) (h0 : t.val % 16 = 0) (j : Fin 2) :
    ((outsAt1 V c t.val t.isLt : Vec Ideal S1x1x2 .f32) (ix3 (0 : Fin 1) (0 : Fin 1) j) : EReal) = qsumN V c t.val j := by
  rw [outsAt1_A V c t h0]
  match j with
  | ⟨0, _⟩ => show (out1_A_4 (F := Ideal) _ _ _ _ _ _ _ _ _ _ _ _ _ _ _ _ _ (ix3 (0 : Fin 1) (0 : Fin 1) (0 : Fin 2)) : EReal) = qsumN V c t.val (0 : Fin 2); rw [outA_at0, q7_blk V c t ht]
  | ⟨1, _⟩ => show (out1_A_4 (F := Ideal) _ _ _ _ _ _ _ _ _ _ _ _ _ _ _ _ _ (ix3 (0 : Fin 1) (0 : Fin 1) (1 : Fin 2)) : EReal) = qsumN V c t.val (1 : Fin 2); rw [outA_at1, q8_blk V c t ht]

/-- At a later block it is what the point before left plus the block's total. -/
theorem o1_next (c : Dev nD) (t : Fin cfg1.N) (ht : t.val < 32) (h0 : ¬t.val % 16 = 0) (j : Fin 2) :
    ((outsAt1 V c t.val t.isLt : Vec Ideal S1x1x2 .f32) (ix3 (0 : Fin 1) (0 : Fin 1) j) : EReal)
      = ((outsAt1 V c (t.val - 1) (Nat.lt_of_le_of_lt (Nat.sub_le _ _) t.isLt) : Vec Ideal S1x1x2 .f32) (ix3 (0 : Fin 1) (0 : Fin 1) j) : EReal) + qsumN V c t.val j := by
  rw [outsAt1_B V c t h0]
  match j with
  | ⟨0, _⟩ => show (out1_B_4 (F := Ideal) _ _ _ _ _ _ _ _ _ _ _ _ _ _ _ _ _ _ (ix3 (0 : Fin 1) (0 : Fin 1) (0 : Fin 2)) : EReal) = _ + qsumN V c t.val (0 : Fin 2); rw [outB_at0, q7_blk V c t ht]; rfl
  | ⟨1, _⟩ => show (out1_B_4 (F := Ideal) _ _ _ _ _ _ _ _ _ _ _ _ _ _ _ _ _ _ (ix3 (0 : Fin 1) (0 : Fin 1) (1 : Fin 2)) : EReal) = _ + qsumN V c t.val (1 : Fin 2); rw [outB_at1, q8_blk V c t ht]; rfl

/-- Along a half: after the point at position n mod 16 the entry holds the first n mod 16 + 1 blocks' totals of its half. -/
theorem o1_sweep (c : Dev nD) : ∀ (n : ℕ) (hn : n < cfg1.N) (hn' : n < 32) (j : Fin 2),
    ((outsAt1 V c n hn : Vec Ideal S1x1x2 .f32) (ix3 (0 : Fin 1) (0 : Fin 1) j) : EReal)
      = ∑ k ∈ Finset.range (n % 16 + 1), qsumN V c (n / 16 * 16 + k) j
  | 0, hn, hn', j => by
    rw [o1_first V c ⟨0, hn⟩ hn' rfl j]
    simp
  | n + 1, hn, hn', j => by
    by_cases h0 : (n + 1) % 16 = 0
    · rw [o1_first V c ⟨n + 1, hn⟩ hn' h0 j]
      show qsumN V c (n + 1) j = _
      rw [h0, show (n + 1) / 16 * 16 = n + 1 from by omega]; simp
    · have e1 : (n + 1) % 16 = n % 16 + 1 := by omega
      have e2 : (n + 1) / 16 = n / 16 := by omega
      rw [o1_next V c ⟨n + 1, hn⟩ hn' h0 j]
      show ((outsAt1 V c n _ : Vec Ideal S1x1x2 .f32) (ix3 (0 : Fin 1) (0 : Fin 1) j) : EReal) + qsumN V c (n + 1) j = _
      rw [o1_sweep c n (Nat.lt_of_succ_lt hn) (by omega) j, e1, e2, Finset.sum_range_succ (n := n % 16 + 1),
        show n / 16 * 16 + (n % 16 + 1) = n + 1 from by omega]

end Cert.KernelIdeal.Hand

end
-- ==== Proof.KI.R1Value4.lean ====
/-
  The second kernel region's values, part four: from blocks to the array. A half's output block is written back once, after
  its sixteenth point, when each of its two entries holds the sum of the half's sixteen block totals; the two halves' blocks
  are the two leading slices of the 2 x 1 x 2 array, so after the region the array is one function of the entry arrays.
-/
import proofs.«179402_j71244917506189_2_alg».proof.Proof.KI.R1Value3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-- The buffer's entry at an index of the block, by the sweep (the two leading coordinates are 0). -/
theorem o1_at (c : Dev nD) (t : Fin cfg1.N) (ht : t.val < 32) (y : S1x1x2.Idx) :
    ((outsAt1 V c t.val t.isLt : Vec Ideal S1x1x2 .f32) y : EReal)
      = ∑ k ∈ Finset.range (t.val % 16 + 1), qsumN V c (t.val / 16 * 16 + k) ⟨(y 2).val, (y 2).isLt⟩ := by
  have e := o1_sweep V c t.val t.isLt ht ⟨(y 2).val, (y 2).isLt⟩
  rw [← e]
  refine congrArg _ (funext fun a => ?_)
  match a with
  | ⟨0, _⟩ => exact Fin.ext (by have h : (y 0).val < 1 := (y 0).isLt; show (y 0).val = 0; omega)
  | ⟨1, _⟩ => exact Fin.ext (by have h : (y 1).val < 1 := (y 1).isLt; show (y 1).val = 0; omega)
  | ⟨2, _⟩ => rfl

set_option maxHeartbeats 800000 in
/-- What the last point of a half writes back is its block of `G34`. -/
theorem flushed34_eq (c : Dev nD) (t : Fin cfg1.N) (hf : (cfg1.win 4).flush t = true) :
    (dat1 V c).flushed 4 t = ((cfg1.win 4).blk t).view.read (Elt Ideal) (G34 V c) := by
  have ht : t.val < 32 := lt_of_lt_of_eq t.isLt (show cfg1.N = 32 from N_1)
  have h15 : t.val % 16 = 15 := (flush1_4 t).mp hf
  obtain ⟨-, -, -, -, -, -, -, -, e40, e41, e42⟩ := idx_facts1 t
  show (cfg1.win 4).cut (grid1.coords t) ((dat1 V c).after 4 t) = _
  rw [after1_4]
  refine funext fun (y : S1x1x2.Idx) => ?_
  show ((outsAt1 V c t.val t.isLt : Vec Ideal S1x1x2 .f32) y : EReal) = G34 V c (((cfg1.win 4).blk t).view.emb y)
  rw [o1_at V c t ht y, h15]
  unfold G34
  have h0 : ((((cfg1.win 4).blk t).view.emb y) 0).val = t.val / 16 := by
    show win1_4.index t (0 : Fin 3) * 1 + 1 * (y 0).val = _
    have : (y 0).val < 1 := (y 0).isLt
    rw [e40]; omega
  have h2 : (⟨(y 2).val, (y 2).isLt⟩ : Fin 2) = ⟨((((cfg1.win 4).blk t).view.emb y) 2).val, ((((cfg1.win 4).blk t).view.emb y) 2).isLt⟩ :=
    Fin.ext (by show (y 2).val = win1_4.index t (2 : Fin 3) * 2 + 1 * (y 2).val; rw [e42]; omega)
  rw [h0, h2]

/-- An entry is in point t's block of the output iff each coordinate is in the block's range. -/
theorem mem_blk34 (t : Fin cfg1.N) (i : S2x1x2.Idx) :
    i ∈ ((cfg1.win 4).blk t).view.set ↔ ∀ a : Fin 3, win1_4.index t a * S1x1x2.size a ≤ (i a).val ∧ (i a).val < win1_4.index t a * S1x1x2.size a + S1x1x2.size a := by
  show i ∈ ((View.whole main_v34).slice (win1_4.rect t)).set ↔ _
  rw [View.set_slice_whole, Rect.mem_set_unit]
  exact Iff.rfl

/-- After the region the array is `G34` of the entry arrays: each entry lies in the block of its half's last point. -/
theorem final34 (c : Dev nD) : (dat1 V c).arrAt 4 cfg1.N = G34 V c :=
  (dat1 V c).arrAt_eq_of_cover 4 (G34 V c) (flushed34_eq V c) fun i => by
    have hi0 : (i 0).val < 2 := (i 0).isLt
    have hi1 : (i 1).val < 1 := (i 1).isLt
    have hi2 : (i 2).val < 2 := (i 2).isLt
    have hN : cfg1.N = 32 := N_1
    refine ⟨⟨(i 0).val * 16 + 15, by rw [hN]; omega⟩, (flush1_4 _).mpr (by show ((i 0).val * 16 + 15) % 16 = 15; omega), ?_⟩
    rw [mem_blk34]
    obtain ⟨-, -, -, -, -, -, -, -, e40, e41, e42⟩ := idx_facts1 ⟨(i 0).val * 16 + 15, by rw [hN]; omega⟩
    intro a
    match a with
    | ⟨0, _⟩ => show win1_4.index _ (0 : Fin 3) * 1 ≤ (i 0).val ∧ (i 0).val < win1_4.index _ (0 : Fin 3) * 1 + 1; rw [e40]; show ((i 0).val * 16 + 15) / 16 * 1 ≤ _ ∧ _ < ((i 0).val * 16 + 15) / 16 * 1 + 1; omega
    | ⟨1, _⟩ => show win1_4.index _ (1 : Fin 3) * 1 ≤ (i 1).val ∧ (i 1).val < win1_4.index _ (1 : Fin 3) * 1 + 1; rw [e41]; omega
    | ⟨2, _⟩ => show win1_4.index _ (2 : Fin 3) * 2 ≤ (i 2).val ∧ (i 2).val < win1_4.index _ (2 : Fin 3) * 2 + 2; rw [e42]; omega

end Cert.KernelIdeal.Hand

end
-- ==== Proof.KI.KernelValues.lean ====
/-
  The idealized kernel's four results as functions of its inputs. After the first region its two output arrays are the
  eight-block column sums; the host operations between the regions turn them into the per-class means, log-deviations,
  inverse variances and constant parts; after the second region its output array's two halves add up to each class's total
  of squared, scaled differences; the host tail forms the two log-densities (the kernel's arrangement, equal to the
  reference's by the law of real arithmetic) and their mean with the logdet means. The means and log-deviations pass
  through the second region and the tail unchanged.
-/
import proofs.«179402_j71244917506189_2_alg».proof.Proof.KI.HostReads2
import proofs.«179402_j71244917506189_2_alg».proof.Proof.KI.HostTail
import proofs.«179402_j71244917506189_2_alg».proof.Proof.KI.R0Value5
import proofs.«179402_j71244917506189_2_alg».proof.Proof.KI.R1Value4

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Cert.Spec (Inputs msk cnt ldm mu ls cls out0 out1 out2 out3 ssq cpart Finite BothClasses)

variable (m : (ℓ : Loc nD τ sig) → Buf (Elt Ideal) ℓ) (ρ : Dev nD → PrngReg) (c : Dev nD)

/-- After the first region its first output array is the eight-block masked column sums of `mean`. -/
theorem region0_mean (j : Fin 2) (D : Fin 4096) :
    W2 (F := Ideal) m ρ c (Proc.devRef .tc main_v19_0) (ix2 j D)
      = ∑ k ∈ Finset.range 8, bsumN (V1 m ρ c main_arg1) (V1 m ρ c main_v8) k j D :=
  (congrFun ((W2_arr (F := Ideal) m ρ c 3).trans (final3 (V1 m ρ) c)) (ix2 j D)).trans (by unfold G3; rfl)

/-- And its second the same of `log_sd`. -/
theorem region0_lsd (j : Fin 2) (D : Fin 4096) :
    W2 (F := Ideal) m ρ c (Proc.devRef .tc main_v19_1) (ix2 j D)
      = ∑ k ∈ Finset.range 8, bsumN (V1 m ρ c main_arg2) (V1 m ρ c main_v8) k j D :=
  (congrFun ((W2_arr (F := Ideal) m ρ c 4).trans (final4 (V1 m ρ) c)) (ix2 j D)).trans (by unfold G4; rfl)

/-- After the second region its output array is the function of its entry arrays. -/
theorem region1_out : V4 (F := Ideal) m ρ c main_v34 = G34 (V3 m ρ) c :=
  (W4_arr (F := Ideal) m ρ c 4).trans (final34 (V3 m ρ) c)

/-- A buffer the second region does not stage as an output is as it was entered. -/
theorem V4_of_ne (b : Ref sig .tc) (hb : ∀ w, Pipeline.arrRef spec1 w ≠ b) : V4 (F := Ideal) m ρ c b = V3 m ρ c b :=
  W4_of_ne m ρ c b hb

theorem kernel_values (hf : Finite (kIn m c)) (hb : BothClasses (kIn m c)) :
    W5 (F := Ideal) m ρ c (Proc.devRef .tc main_v48) = out0 (kIn m c)
    ∧ W5 (F := Ideal) m ρ c (Proc.devRef .tc main_v25) = out1 (kIn m c)
    ∧ W5 (F := Ideal) m ρ c (Proc.devRef .tc main_v27) = out2 (kIn m c)
    ∧ W5 (F := Ideal) m ρ c (Proc.devRef .tc main_v42) = out3 (kIn m c) := by
  have h3 := region0_mean m ρ c
  have h4 := region0_lsd m ρ c
  obtain ⟨t42, t48⟩ := tail_values m ρ c (kIn m c) hf hb
    (by rw [V4_of_ne m ρ c main_v10 (by decide)]; exact V3_cnt0 m ρ c hb _)
    (by rw [V4_of_ne m ρ c main_v12 (by decide)]; exact V3_cnt1 m ρ c hb _)
    (by rw [V4_of_ne m ρ c main_v15 (by decide)]; exact V3_ldm0 m ρ c hb _)
    (by rw [V4_of_ne m ρ c main_v18 (by decide)]; exact V3_ldm1 m ρ c hb _)
    (fun j => by rw [V4_of_ne m ρ c main_v33 (by decide)]; exact V3_cpart m ρ c hb h4 j)
    (fun j => by rw [region1_out m ρ c]; exact halves_sum_eq m ρ c hb h3 h4 j)
  refine ⟨t48, ?_, ?_, t42⟩
  · rw [W5_v25 m ρ c]
    funext i
    obtain ⟨j, D, rfl⟩ : ∃ (j : Fin 2) (D : Fin 4096), i = ix2 j D := ⟨i 0, i 1, eq_ix2 i⟩
    exact (V3_mu m ρ c hb h3 j D).trans (by unfold out1; rfl)
  · rw [W5_v27 m ρ c]
    funext i
    obtain ⟨j, D, rfl⟩ : ∃ (j : Fin 2) (D : Fin 4096), i = ix2 j D := ⟨i 0, i 1, eq_ix2 i⟩
    exact (V3_ls m ρ c hb h4 j D).trans (by unfold out2; rfl)

end Cert.KernelIdeal.Hand

end
-- ==== Proof.RefResults.lean ====
/-
  The reference's four results as the specification's four functions of its five inputs. Each two-row result is a
  concatenation of the two classes' one-row pieces, read row by row: row j is class j's statistic. The scalar is
  the sum over the two entries, from a zero initial value, of class j's log-density plus its logdet mean, divided
  by the word for 2.
-/
import proofs.«179402_j71244917506189_2_alg».proof.Proof.RefClass0
import proofs.«179402_j71244917506189_2_alg».proof.Proof.RefClass1

noncomputable section

open scoped BigOperators

namespace Cert.RefSide

open Cert.ReferenceIdeal Cert.ReferenceIdeal.Gen Cert.ReferenceIdeal.ReadP Cert.Spec
open Idealize.ShloMosaic Idealize.ShloMosaic.ValueIdx Idealize.ShloMosaic.TcCoe Idealize.SL.Sem Idealize.ShloMosaic.StableHlo

variable (I : Inputs)

/-! ## The two-row results: a concatenation of two one-row pieces along the rows -/

/-- Row 0 of a [2,4096] concatenation of two [1,4096] pieces is the first piece's one row. -/
theorem cat_row0 (x y : (⟨S1x4096, .f32⟩ : BufTy).Contents (Elt Ideal)) (d : Fin 4096) :
    concatenate S2x4096 0 [⟨S1x4096, x⟩, ⟨S1x4096, y⟩] concatenates_S1x4096_S1x4096_S2x4096_d0 (ix2 (0 : Fin 2) d)
      = x (ix2 (0 : Fin 1) d) :=
  concatenate_pair_apply_left (t := S2x4096) (s₁ := S1x4096) (s₂ := S1x4096) 0 x y
    concatenates_S1x4096_S1x4096_S2x4096_d0 (ix2 (0 : Fin 2) d) rfl (ix2 (0 : Fin 1) d)
    (fun b => by match b with | ⟨0, _⟩ => rfl | ⟨1, _⟩ => rfl)

/-- Row 1 of it is the second piece's one row. -/
theorem cat_row1 (x y : (⟨S1x4096, .f32⟩ : BufTy).Contents (Elt Ideal)) (d : Fin 4096) :
    concatenate S2x4096 0 [⟨S1x4096, x⟩, ⟨S1x4096, y⟩] concatenates_S1x4096_S1x4096_S2x4096_d0 (ix2 (1 : Fin 2) d)
      = y (ix2 (0 : Fin 1) d) :=
  concatenate_pair_apply_right (t := S2x4096) (s₁ := S1x4096) (s₂ := S1x4096) 0 x y
    concatenates_S1x4096_S1x4096_S2x4096_d0 (ix2 (1 : Fin 2) d) rfl rfl (ix2 (0 : Fin 1) d)
    (fun b hb => by match b with | ⟨0, _⟩ => exact absurd rfl hb | ⟨1, _⟩ => rfl) rfl

/-- Entry 0 of a two-entry concatenation of two one-entry pieces is the first piece's entry. -/
theorem cat_elt0 (x y : (⟨S1, .f32⟩ : BufTy).Contents (Elt Ideal)) :
    concatenate Cert.ReferenceIdeal.S2 0 [⟨S1, x⟩, ⟨S1, y⟩] concatenates_S1_S1_S2_d0 (ix1 (0 : Fin 2)) = x (ix1 (0 : Fin 1)) :=
  concatenate_pair_apply_left (t := Cert.ReferenceIdeal.S2) (s₁ := S1) (s₂ := S1) 0 x y
    concatenates_S1_S1_S2_d0 (ix1 (0 : Fin 2)) rfl (ix1 (0 : Fin 1))
    (fun b => by match b with | ⟨0, _⟩ => rfl)

/-- Entry 1 of it is the second piece's entry. -/
theorem cat_elt1 (x y : (⟨S1, .f32⟩ : BufTy).Contents (Elt Ideal)) :
    concatenate Cert.ReferenceIdeal.S2 0 [⟨S1, x⟩, ⟨S1, y⟩] concatenates_S1_S1_S2_d0 (ix1 (1 : Fin 2)) = y (ix1 (0 : Fin 1)) :=
  concatenate_pair_apply_right (t := Cert.ReferenceIdeal.S2) (s₁ := S1) (s₂ := S1) 0 x y
    concatenates_S1_S1_S2_d0 (ix1 (1 : Fin 2)) rfl rfl (ix1 (0 : Fin 1))
    (fun b hb => by match b with | ⟨0, _⟩ => exact absurd rfl hb) rfl

/-! ## The per-class column means stacked: results 1 and 2 -/

theorem mus_row0 (d : Fin 4096) : val_main_v85 (F := Ideal) I.mean I.tgt (ix2 (0 : Fin 2) d) = mu I 0#32 d := by
  unfold val_main_v85
  rw [cat_row0, val_main_v83_apply]
  exact (congrArg (val_main_v12 (F := Ideal) I.mean I.tgt) (funext fun a => by match a with | ⟨0, _⟩ => rfl)).trans (mu0 I d)

theorem mus_row1 (d : Fin 4096) : val_main_v85 (F := Ideal) I.mean I.tgt (ix2 (1 : Fin 2) d) = mu I 1#32 d := by
  unfold val_main_v85
  rw [cat_row1, val_main_v84_apply]
  exact (congrArg (val_main_v52 (F := Ideal) I.mean I.tgt) (funext fun a => by match a with | ⟨0, _⟩ => rfl)).trans (mu1 I d)

theorem lss_row0 (d : Fin 4096) : val_main_v88 (F := Ideal) I.lsd I.tgt (ix2 (0 : Fin 2) d) = ls I 0#32 d := by
  unfold val_main_v88
  rw [cat_row0, val_main_v86_apply]
  exact (congrArg (val_main_v18 (F := Ideal) I.lsd I.tgt) (funext fun a => by match a with | ⟨0, _⟩ => rfl)).trans (ls0 I d)

theorem lss_row1 (d : Fin 4096) : val_main_v88 (F := Ideal) I.lsd I.tgt (ix2 (1 : Fin 2) d) = ls I 1#32 d := by
  unfold val_main_v88
  rw [cat_row1, val_main_v87_apply]
  exact (congrArg (val_main_v58 (F := Ideal) I.lsd I.tgt) (funext fun a => by match a with | ⟨0, _⟩ => rfl)).trans (ls1 I d)

/-- Result 1: the two classes' column means of `mean`. -/
theorem v85_eq : val_main_v85 (F := Ideal) I.mean I.tgt = out1 I := by
  funext i
  obtain ⟨a, d, rfl⟩ : ∃ (a : Fin 2) (d : Fin 4096), i = ix2 a d := ⟨i 0, i 1, eq_ix2 i⟩
  match a with
  | ⟨0, _⟩ => exact mus_row0 I d
  | ⟨1, _⟩ => exact mus_row1 I d

/-- Result 2: the two classes' column means of `log_sd`. -/
theorem v88_eq : val_main_v88 (F := Ideal) I.lsd I.tgt = out2 I := by
  funext i
  obtain ⟨a, d, rfl⟩ : ∃ (a : Fin 2) (d : Fin 4096), i = ix2 a d := ⟨i 0, i 1, eq_ix2 i⟩
  match a with
  | ⟨0, _⟩ => exact lss_row0 I d
  | ⟨1, _⟩ => exact lss_row1 I d

/-! ## The per-class log-densities and logdet means stacked: result 3 and the scalar -/

theorem lps_elt0 : val_main_v91 (F := Ideal) I.z I.mean I.lsd I.tgt (ix1 (0 : Fin 2)) = lp I 0#32 := by
  unfold val_main_v91
  rw [cat_elt0, val_main_v89_apply]
  exact lp0 I _

theorem lps_elt1 : val_main_v91 (F := Ideal) I.z I.mean I.lsd I.tgt (ix1 (1 : Fin 2)) = lp I 1#32 := by
  unfold val_main_v91
  rw [cat_elt1, val_main_v90_apply]
  exact lp1 I _

theorem ldms_elt0 : val_main_v82 (F := Ideal) I.tgt I.ldt (ix1 (0 : Fin 2)) = ldm I 0#32 := by
  unfold val_main_v82
  rw [cat_elt0, val_main_v80_apply]
  exact ldm0 I _

theorem ldms_elt1 : val_main_v82 (F := Ideal) I.tgt I.ldt (ix1 (1 : Fin 2)) = ldm I 1#32 := by
  unfold val_main_v82
  rw [cat_elt1, val_main_v81_apply]
  exact ldm1 I _

/-- Result 3: the two classes' log-densities. -/
theorem v91_eq : val_main_v91 (F := Ideal) I.z I.mean I.lsd I.tgt = out3 I := by
  funext i
  obtain ⟨a, rfl⟩ : ∃ a : Fin 2, i = ix1 a := ⟨i 0, eq_ix1 i⟩
  match a with
  | ⟨0, _⟩ => exact lps_elt0 I
  | ⟨1, _⟩ => exact lps_elt1 I

/-- Result 0: the mean over the two classes of log-density plus logdet mean, the sum over the two entries taken
    from a zero initial value. -/
theorem v94_eq : val_main_v94 (F := Ideal) I.z I.mean I.lsd I.tgt I.ldt = out0 I := by
  funext i
  rw [val_main_v94_apply, val_main_v93_apply, val_main_cst_18_apply, val_main_cst_19_apply, sum_idx1, Fin.sum_univ_two]
  simp only [val_main_v92_apply, lps_elt0, lps_elt1, ldms_elt0, ldms_elt1, Ideal.ofBits_def, Ideal.ofBits_zero_f32, zero_add,
    Ideal.addf_def, Ideal.hostDivf_def]
  rfl

end Cert.RefSide

end
-- ==== Proof.RefSpec.lean ====
/-
  The reference's run with its results named: every weakly fair execution ends with the four results equal to the
  specification's four functions of the five inputs found in the launch memory, and those five inputs unchanged.
  It is the run of the operations' composed terms, each term identified with its last stage and that stage with
  the specification's function.
-/
import proofs.«179402_j71244917506189_2_alg».proof.Proof.RefResults

noncomputable section

open scoped BigOperators

namespace Cert.RefSide

open Cert.ReferenceIdeal Cert.ReferenceIdeal.Gen Cert.ReferenceIdeal.ReadP Cert.Spec
open Idealize.ShloMosaic Idealize.ShloMosaic.ValueIdx Idealize.ShloMosaic.TcCoe Idealize.SL.Sem Idealize.ShloMosaic.StableHlo

/-! ## The reference's run, its four results as the specification's functions of its inputs -/

open Cert.ReferenceIdeal in
/-- The reference's five inputs, read off the launch memory on core c. -/
def refIn (m : (ℓ : Loc Cert.ReferenceIdeal.nD Cert.ReferenceIdeal.τ Cert.ReferenceIdeal.sig) → Buf (Elt Ideal) ℓ) (c : Dev Cert.ReferenceIdeal.nD) : Cert.Spec.Inputs :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4)⟩

/-- Every weakly fair execution of the reference ends with its four results the specification's four functions of
    the five inputs found in the launch memory, and those five inputs unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v94) = Cert.Spec.out0 (refIn m c)
      ∧ r.2.mem ((c.tc : Thread nD τ).loc main_v85) = Cert.Spec.out1 (refIn m c)
      ∧ r.2.mem ((c.tc : Thread nD τ).loc main_v88) = Cert.Spec.out2 (refIn m c)
      ∧ r.2.mem ((c.tc : Thread nD τ).loc main_v91) = Cert.Spec.out3 (refIn m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => by
      obtain ⟨h0, h1, h2, h3, hargs⟩ := h c
      exact ⟨h0.trans ((val_main_v94_eq m c).trans (v94_eq (refIn m c))),
        h1.trans ((val_main_v85_eq _ _).trans (v85_eq (refIn m c))),
        h2.trans ((val_main_v88_eq _ _).trans (v88_eq (refIn m c))),
        h3.trans ((val_main_v91_eq m c).trans (v91_eq (refIn m c))), hargs⟩)
    (Cert.ReferenceIdeal.ValueP.run (F := Ideal) m ρ)

end Cert.RefSide

end
-- ==== Proof.RefFrame.lean ====
/-
  The reference program has no kernel launch: it is a straight line of host operations, so every weakly fair
  execution of it ends, faults nowhere, and leaves each of the five argument arrays as it found them. Its run
  states more (each of the four results at the operations' composed term of the arguments); the frame claim keeps
  only the part about the arguments.
-/
import proofs.«179402_j71244917506189_2_alg».proof.Defs
import proofs.«179402_j71244917506189_2_alg».proof.Proof.RefRunP
import proofs.«179402_j71244917506189_2_alg».proof.Proof.Gen.Pre_finite_inputs

noncomputable section

open Idealize.ShloMosaic Idealize.ShloMosaic.TcCoe Idealize.SL.Sem

namespace Cert.Proof.RefClaims

/-- The reference's frame: its run, with the four statements about the results dropped. -/
theorem frame_ri : Cert.frame_ReferenceIdeal := fun m ρ _ =>
  (θ_run Cert.ReferenceIdeal.defs _ _).mono (fun _ h c => (h c).2.2.2.2)
    (Cert.ReferenceIdeal.ValueP.run (F := Ideal) m ρ)

end Cert.Proof.RefClaims

end
-- ==== Proof.PreSpec.lean ====
/-
  The printed precondition, decoded. The predicate is a conjunction of six words: for each of the four float inputs the
  reduction by "and" of the comparison |x| < +inf over every entry (every entry is neither infinity, so a real number),
  and for each of the class words 0 and 1 the reduction by "or", from 0, of the comparison target = word over the rows
  (some row carries the word). A fold by "and" that came out 1 met only 1s; a fold by "or" from 0 that came out 1 met a 1.
-/
import proofs.«179402_j71244917506189_2_alg».proof.Pre_finite_inputs
import proofs.«179402_j71244917506189_2_alg».proof.Proof.Gen.Pre_finite_inputs
import proofs.«179402_j71244917506189_2_alg».proof.Proof.SpecK
import proofs.«179402_j71244917506189_2_alg».proof.Proof.LibRealClosed
import Idealize.ShloMosaic.Lib.ReduceAll

noncomputable section

namespace Cert.Spec

open Idealize.ShloMosaic Idealize.ShloMosaic.ValueIdx Cert.LibRealClosed

/-- The scalar shape has one index. -/
instance subsingleton_scalar_idx : Subsingleton Cert.Pre_finite_inputs.S_.Idx := ⟨fun a b => funext fun d => d.elim0⟩

/-! ### A fold by "or" that came out 1 -/

/-- A left fold by "or" over one-bit words that came out 1 started at 1 or met a 1. -/
theorem foldl_ori_eq_one {ι : Type} (f : ι → BitVec 1) :
    ∀ (l : List ι) (init : BitVec 1), l.foldl (fun r n => IntOp.ori r (f n)) init = 1#1 → init = 1#1 ∨ ∃ n ∈ l, f n = 1#1
  | [], init, h => Or.inl h
  | a :: l, init, h => by
    rcases foldl_ori_eq_one f l _ h with h1 | ⟨n, hn, hf⟩
    · rcases IntOp.ori_eq_one.1 h1 with hi | ha
      · exact Or.inl hi
      · exact Or.inr ⟨a, List.mem_cons_self, ha⟩
    · exact Or.inr ⟨n, List.mem_cons_of_mem _ hn, hf⟩

/-- A reduction by "or" from the word 0 that is 1 at some result index had a 1 at some operand index. -/
theorem reduce_ori_exists {s t u : Shape} {axes : List (Fin s.rank)} (x : s.Idx → BitVec 1) (init : u.Idx → BitVec 1)
    (h : s.ReducesTo axes t) (hu : 0 < u.numel) (j : t.Idx) (hinit : init (Shape.Idx.first hu) = 0#1)
    (e : Host.reduce IntOp.ori x init h hu j = 1#1) : ∃ i : s.Idx, x i = 1#1 := by
  rw [Host.reduce_eq_foldl] at e
  rcases foldl_ori_eq_one x _ _ e with h0 | ⟨i, _, hi⟩
  · rw [hinit] at h0
    exact absurd h0 (by decide)
  · exact ⟨i, hi⟩

/-! ### The element facts -/

/-- The word 0x7F800000 (exponent field all ones, fraction 0, sign 0) is +infinity. -/
theorem inf_word : Ideal.ofBits .f32 0x7F800000#32 = (⊤ : EReal) := by simp [Ideal.ofBits, Ideal.ieee]

/-- An extended real whose absolute value compares below the word +infinity is a real number. -/
theorem real_of_abs_lt_inf (x : EReal)
    (h : Ideal.cmp .olt (max x (-x)) (Ideal.ofBits .f32 0x7F800000#32) = 1#1) : ∃ r : ℝ, x = (r : EReal) := by
  rw [inf_word] at h
  have hlt : max x (-x) < ⊤ := by
    by_contra hc
    have h0 : Ideal.cmp .olt (max x (-x)) ⊤ = 0#1 := by simp [Ideal.cmp, hc]
    rw [h0] at h
    exact absurd h (by decide)
  exact isReal_of_abs_lt_top hlt

/-! ### The precondition -/

/-- The printed precondition holding says: every float input is a real number, and both classes have a member. -/
theorem pre_spec (I : Inputs)
    (h : Cert.Pre_finite_inputs.fn (F := Ideal) I.z I.mean I.lsd I.tgt I.ldt = (fun _ => 1#1)) : Finite I ∧ BothClasses I := by
  have h0 := congrFun h ValueIdx.ix0
  dsimp only [Cert.Pre_finite_inputs.fn, Cert.Pre_finite_inputs.fn_part1] at h0
  obtain ⟨h5, hc1⟩ := IntOp.andi_eq_one.1 h0
  obtain ⟨h4, hc0⟩ := IntOp.andi_eq_one.1 h5
  obtain ⟨h3, hldt⟩ := IntOp.andi_eq_one.1 h4
  obtain ⟨h2, hlsd⟩ := IntOp.andi_eq_one.1 h3
  obtain ⟨hz, hmean⟩ := IntOp.andi_eq_one.1 h2
  refine ⟨⟨fun i => ?_, fun i => ?_, fun i => ?_, fun i => ?_⟩, ⟨?_, ?_⟩⟩
  · exact real_of_abs_lt_inf _ (Host.reduce_andi_all _ _ _ _ _ hz i)
  · exact real_of_abs_lt_inf _ (Host.reduce_andi_all _ _ _ _ _ hmean i)
  · exact real_of_abs_lt_inf _ (Host.reduce_andi_all _ _ _ _ _ hlsd i)
  · exact real_of_abs_lt_inf _ (Host.reduce_andi_all _ _ _ _ _ hldt i)
  · obtain ⟨i, hi⟩ := reduce_ori_exists _ _ _ _ _ rfl hc0
    have hi' : I.tgt i = 0#32 := IntOp.cmpi_eq.1 hi
    exact ⟨i 0, (congrArg I.tgt (eq_ix1 i)).symm.trans hi'⟩
  · obtain ⟨i, hi⟩ := reduce_ori_exists _ _ _ _ _ rfl hc1
    have hi' : I.tgt i = 1#32 := IntOp.cmpi_eq.1 hi
    exact ⟨i 0, (congrArg I.tgt (eq_ix1 i)).symm.trans hi'⟩

end Cert.Spec

end
-- ==== Proof.Claims.lean ====
/-
  The five claims. The two kernel programs' frames are their runs with everything but the arguments forgotten; the
  reference's likewise. For the value claim: the idealized kernel's run ends with every unscoped buffer at the last
  valuation, whose four result buffers are the four functions of the inputs (finiteness and the two classes' members come out
  of the precondition; the second region's array is the function the host tail expects); the reference's run ends with its
  four results at the same four functions of ITS inputs, which are the kernel's by the agreement of the two memories on the
  arguments.
-/
import proofs.«179402_j71244917506189_2_alg».proof.Defs
import proofs.«179402_j71244917506189_2_alg».proof.Proof.KI.Run
import proofs.«179402_j71244917506189_2_alg».proof.Proof.KIB.Run
import proofs.«179402_j71244917506189_2_alg».proof.Proof.KI.KernelValues
import proofs.«179402_j71244917506189_2_alg».proof.Proof.RefSpec
import proofs.«179402_j71244917506189_2_alg».proof.Proof.RefFrame
import proofs.«179402_j71244917506189_2_alg».proof.Proof.PreSpec
import proofs.«179402_j71244917506189_2_alg».proof.Proof.Gen.Pre_finite_inputs

noncomputable section

open Idealize.ShloMosaic Idealize.ShloMosaic.TcCoe Idealize.SL.Sem

namespace Cert.Proof.Claims

theorem frame_k : Cert.frame_Kernel := fun m ρ _ => Cert.Kernel.Hand.frame (F := Bits) m ρ

theorem frame_ki : Cert.frame_KernelIdeal := fun m ρ _ => Cert.KernelIdeal.Hand.frame (F := Ideal) m ρ

/-- The two programs' input records are one record when the memories agree on the five arguments. -/
theorem inputs_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.RefSide.refIn m' c = Cert.KernelIdeal.Hand.kIn m c := by
  obtain ⟨h0, h1, h2, h3, h4⟩ := h
  unfold Cert.RefSide.refIn Cert.KernelIdeal.Hand.kIn
  rw [h0, h1, h2, h3, h4]

theorem algebraic : Cert.algebraic_KernelIdeal_ReferenceIdeal := by
  intro m ρ m' ρ' hpre hagree
  refine ⟨fun c => Cert.Spec.out0 (Cert.KernelIdeal.Hand.kIn m c), fun c => Cert.Spec.out1 (Cert.KernelIdeal.Hand.kIn m c),
    fun c => Cert.Spec.out2 (Cert.KernelIdeal.Hand.kIn m c), fun c => Cert.Spec.out3 (Cert.KernelIdeal.Hand.kIn m c), ?_, ?_⟩
  · refine (θ_run Cert.KernelIdeal.defs _ _).mono (fun r h c => ?_) (Cert.KernelIdeal.Hand.run_all (F := Ideal) m ρ)
    obtain ⟨hf, hb⟩ := Cert.Spec.pre_spec (Cert.KernelIdeal.Hand.kIn m c) (hpre c)
    obtain ⟨k0, k1, k2, k3⟩ := Cert.KernelIdeal.Hand.kernel_values m ρ c hf hb
    exact ⟨(h c _ (Cert.KernelIdeal.Hand.mem_uc Cert.KernelIdeal.main_v48 (by decide))).trans k0,
      (h c _ (Cert.KernelIdeal.Hand.mem_uc Cert.KernelIdeal.main_v25 (by decide))).trans k1,
      (h c _ (Cert.KernelIdeal.Hand.mem_uc Cert.KernelIdeal.main_v27 (by decide))).trans k2,
      (h c _ (Cert.KernelIdeal.Hand.mem_uc Cert.KernelIdeal.main_v42 (by decide))).trans k3,
      (h c _ (Cert.KernelIdeal.Hand.mem_uc Cert.KernelIdeal.main_arg0 (by decide))).trans (Cert.KernelIdeal.Hand.W5_main_arg0 m ρ c),
      (h c _ (Cert.KernelIdeal.Hand.mem_uc Cert.KernelIdeal.main_arg1 (by decide))).trans (Cert.KernelIdeal.Hand.W5_main_arg1 m ρ c),
      (h c _ (Cert.KernelIdeal.Hand.mem_uc Cert.KernelIdeal.main_arg2 (by decide))).trans (Cert.KernelIdeal.Hand.W5_main_arg2 m ρ c),
      (h c _ (Cert.KernelIdeal.Hand.mem_uc Cert.KernelIdeal.main_arg3 (by decide))).trans (Cert.KernelIdeal.Hand.W5_main_arg3 m ρ c),
      (h c _ (Cert.KernelIdeal.Hand.mem_uc Cert.KernelIdeal.main_arg4 (by decide))).trans (Cert.KernelIdeal.Hand.W5_main_arg4 m ρ c)⟩
  · refine (θ_run Cert.ReferenceIdeal.defs _ _).mono (fun r h c => ?_) (Cert.RefSide.ref_run m' ρ')
    have e := inputs_agree m m' c (hagree c)
    obtain ⟨r0, r1, r2, r3, ra⟩ := h c
    exact ⟨r0.trans (by rw [e]), r1.trans (by rw [e]), r2.trans (by rw [e]), r3.trans (by rw [e]), ra⟩

end Cert.Proof.Claims

end
-- ==== Proof.lean ====
/-
  The certificate's theorem. The kernel program computes, for the two classes of a binary target, masked column means of two
  8192 x 4096 arrays (a first pass over the batch, accumulating block sums), then each class's Gaussian log-density of the
  rows of a third array under those statistics (a second pass, accumulating per-class sums of squared, scaled differences), and
  the mean over the classes of log-density plus the class mean of a fourth vector; the reference computes the same four results
  class by class with whole-array operations. On the extended reals, for finite inputs and with both classes non-empty, the two
  programs' results are the same four functions of the inputs (Proof/Spec.lean): the reference by reading its operations
  (Proof/RefSpec.lean), the kernel by reading its two passes block by block and sweep by sweep (Proof/KI/) and its host
  operations between them (Proof/KI/HostReads.lean), joined by one law of real arithmetic: a masked mean of rows with a constant
  part is the constant part plus the masked mean of the rest, the class's size being nonzero (Proof/Law.lean). Both kernel
  programs run to the end without a fault and leave their arguments unchanged (Proof/KI/Run.lean, Proof/KIB/Run.lean: @main as
  five items, two of them kernel regions entered and left at known contents of every buffer), and so does the reference
  (Proof/RefFrame.lean). The idealization rewrote nothing, so the preservation claim is trivial.
-/
import proofs.«179402_j71244917506189_2_alg».proof.Defs
import proofs.«179402_j71244917506189_2_alg».proof.Proof.Claims
import proofs.«179402_j71244917506189_2_alg».proof.Proof.Gen.Kernel
import proofs.«179402_j71244917506189_2_alg».proof.Proof.Gen.KernelIdeal
import proofs.«179402_j71244917506189_2_alg».proof.Proof.Gen.ReferenceIdeal
import proofs.«179402_j71244917506189_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.RefClaims.frame_ri, trivial, Cert.Proof.Claims.algebraic⟩

end Cert.Proof

end
